-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3x3 : Shape := ⟨3, ![4194304, 3, 3]⟩
abbrev S2050x2050 : Shape := ⟨2, ![2050, 2050]⟩
abbrev S_ : Shape := ⟨0, ![]⟩

class Facts : Prop where
  bcast_S_S4194304x3x3 : S_.BroadcastsInDim S4194304x3x3 (![] : Fin 0 → Fin S4194304x3x3.rank)
  reducesTo_S4194304x3x3_S_d0_1_2 : S4194304x3x3.ReducesTo [0, 1, 2] S_
  h_S_ : 0 < S_.numel
  bcast_S_S2050x2050 : S_.BroadcastsInDim S2050x2050 (![] : Fin 0 → Fin S2050x2050.rank)
  reducesTo_S2050x2050_S_d0_1 : S2050x2050.ReducesTo [0, 1] S_

variable [Facts]

def fn {F : FTy → Type} [FloatOps F] (main_arg0 : FVec F S4194304x3x3 .f32) (main_arg1 : FVec F S4194304x3x3 .f32) (main_arg2 : FVec F S2050x2050 .f32) : IVec S_ 1 :=
  let main_v0 : FVec F S4194304x3x3 .f32 := Host.absf main_arg0
  let main_cst : FVec F S_ .f32 := constant S_ .f32 0x7F800000#32
  let main_v1 : FVec F S4194304x3x3 .f32 := broadcastInDim S4194304x3x3 ![] bcast_S_S4194304x3x3 main_cst
  let main_v2 : IVec S4194304x3x3 1 := cmpf .olt main_v0 main_v1
  let main_c : IVec S_ 1 := constantI S_ 1 1#1
  let main_v3 : IVec S_ 1 := (fun x v => Host.reduce IntOp.andi x v reducesTo_S4194304x3x3_S_d0_1_2 h_S_) main_v2 main_c
  let main_v4 : FVec F S4194304x3x3 .f32 := Host.absf main_arg1
  let main_cst_0 : FVec F S_ .f32 := constant S_ .f32 0x7F800000#32
  let main_v5 : FVec F S4194304x3x3 .f32 := broadcastInDim S4194304x3x3 ![] bcast_S_S4194304x3x3 main_cst_0
  let main_v6 : IVec S4194304x3x3 1 := cmpf .olt main_v4 main_v5
  let main_c_1 : IVec S_ 1 := constantI S_ 1 1#1
  let main_v7 : IVec S_ 1 := (fun x v => Host.reduce IntOp.andi x v reducesTo_S4194304x3x3_S_d0_1_2 h_S_) main_v6 main_c_1
  let main_v8 : IVec S_ 1 := andi main_v3 main_v7
  let main_v9 : FVec F S2050x2050 .f32 := Host.absf main_arg2
  let main_cst_2 : FVec F S_ .f32 := constant S_ .f32 0x7F800000#32
  let main_v10 : FVec F S2050x2050 .f32 := broadcastInDim S2050x2050 ![] bcast_S_S2050x2050 main_cst_2
  let main_v11 : IVec S2050x2050 1 := cmpf .olt main_v9 main_v10
  let main_c_3 : IVec S_ 1 := constantI S_ 1 1#1
  let main_v12 : IVec S_ 1 := (fun x v => Host.reduce IntOp.andi x v reducesTo_S2050x2050_S_d0_1 h_S_) main_v11 main_c_3
  let main_v13 : IVec S_ 1 := andi main_v8 main_v12
  main_v13
-- ==== Kernel.lean ====
abbrev S4194304x3x3 : Shape := ⟨3, ![4194304, 3, 3]⟩
abbrev S2050x2050 : Shape := ⟨2, ![2050, 2050]⟩
abbrev S4194304x9 : Shape := ⟨2, ![4194304, 9]⟩
abbrev S4194304x1 : Shape := ⟨2, ![4194304, 1]⟩
abbrev S1x1 : Shape := ⟨2, ![1, 1]⟩
abbrev S2048x9 : Shape := ⟨2, ![2048, 9]⟩
abbrev S2048x1 : Shape := ⟨2, ![2048, 1]⟩
abbrev S2048 : Shape := ⟨1, ![2048]⟩
abbrev S1 : Shape := ⟨1, ![1]⟩
abbrev S_ : Shape := ⟨0, ![]⟩
abbrev S2 : Shape := ⟨1, ![2]⟩
abbrev S1x2 : Shape := ⟨2, ![1, 2]⟩
abbrev S2048x2048 : Shape := ⟨2, ![2048, 2048]⟩

abbrev nBuf : Space → Nat
  | .hbm => 27
  | .vmem => 23
  | .smem => 0
  | _ => 0

abbrev bufTy : (tb : Table) → Fin (tcTables nBuf tb) → BufTy
  | .hbm, ⟨0, _⟩ => ⟨S4194304x3x3, .f32⟩
  | .hbm, ⟨1, _⟩ => ⟨S4194304x3x3, .f32⟩
  | .hbm, ⟨2, _⟩ => ⟨S2050x2050, .f32⟩
  | .hbm, ⟨3, _⟩ => ⟨S4194304x9, .f32⟩
  | .hbm, ⟨4, _⟩ => ⟨S4194304x9, .f32⟩
  | .hbm, ⟨5, _⟩ => ⟨S4194304x1, .f32⟩
  | .hbm, ⟨6, _⟩ => ⟨S4194304x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S2, .f32⟩
  | .hbm, ⟨24, _⟩ => ⟨S1x2, .f32⟩
  | .hbm, ⟨25, _⟩ => ⟨S4194304x1, .f32⟩
  | .hbm, ⟨26, _⟩ => ⟨S2048x2048, .f32⟩
  | .local _ .vmem, ⟨0, _⟩ => ⟨S2048x9, .f32⟩
  | .local _ .vmem, ⟨1, _⟩ => ⟨S2048x9, .f32⟩
  | .local _ .vmem, ⟨2, _⟩ => ⟨S2048x9, .f32⟩
  | .local _ .vmem, ⟨3, _⟩ => ⟨S2048x9, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x2, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | _, _ => ⟨S4194304x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![2048], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4194304x3x3_S4194304x9 : S4194304x3x3.ShapeCasts S4194304x9
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x9_S2048x9_0_0 : ∀ a, (![0, 0] : Fin 2 → Nat) a + S2048x9.size a ≤ S2048x9.size a
  h_S2048x9 : 0 < S2048x9.numel
  shapeCasts_S2048x9_S2048x9 : S2048x9.ShapeCasts S2048x9
  natLt_1_32 : 1 < 32
  reduces_S2048x9_S2048 : S2048x9.Reduces [1] S2048
  shapeCasts_S2048_S2048x1 : S2048.ShapeCasts S2048x1
  slices_S2048x9_o0_4_S2048x1 : S2048x9.Slices ![0, 4] S2048x1
  inb_S2048x1_S2048x1_0_0 : ∀ a, (![0, 0] : Fin 2 → Nat) a + S2048x1.size a ≤ S2048x1.size a
  h_S2048x1 : 0 < S2048x1.numel
  reduces_S2048x1_S1 : S2048x1.Reduces [0] S1
  shapeCasts_S1_S1x1 : S1.ShapeCasts S1x1
  shapeCasts_S1x1_S_ : S1x1.ShapeCasts S_
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  shapeCasts_S2048x1_S2048x1 : S2048x1.ShapeCasts S2048x1
  shapeCasts_S4194304x1_S2048x2048 : S4194304x1.ShapeCasts S2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x9.size a ≤ S4194304x9.size a
  hwx0_0 : ∀ i : grid0.Coords, EltTy.bits .f32 = 32 ∨ (Rect.block (s := S4194304x9) S2048x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S4194304x9.size a
  hwx0_1 : ∀ i : grid0.Coords, EltTy.bits .f32 = 32 ∨ (Rect.block (s := S4194304x9) S2048x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4194304x1.size a
  hwx0_2 : ∀ i : grid0.Coords, EltTy.bits .f32 = 32 ∨ (Rect.block (s := S4194304x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4194304x1.size a
  hwx0_3 : ∀ i : grid0.Coords, EltTy.bits .f32 = 32 ∨ (Rect.block (s := S4194304x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2.size a ≤ S1x2.size a
  hwx1_0 : ∀ i : grid1.Coords, EltTy.bits .f32 = 32 ∨ (Rect.block (s := S1x2) S1x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S4194304x1.size a
  hwx1_1 : ∀ i : grid1.Coords, EltTy.bits .f32 = 32 ∨ (Rect.block (s := S4194304x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4194304x1.size a
  hwx1_2 : ∀ i : grid1.Coords, EltTy.bits .f32 = 32 ∨ (Rect.block (s := S4194304x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4194304x1.size a
  hwx1_3 : ∀ i : grid1.Coords, EltTy.bits .f32 = 32 ∨ (Rect.block (s := S4194304x1) S2048x1.size (cc1_transform_3 i) (hinb1_3 i)).WholeWords (EltTy.packing .f32)

variable [Facts₀]

abbrev win0_0 : Pipeline.Window sig grid0 :=
  Pipeline.Window.ofSpec (Memref.whole main_v0) S2048x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_4) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_5) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S1x2.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4194304x3x3 : Shape := ⟨3, ![4194304, 3, 3]⟩
abbrev S2050x2050 : Shape := ⟨2, ![2050, 2050]⟩
abbrev S4194304x9 : Shape := ⟨2, ![4194304, 9]⟩
abbrev S_ : Shape := ⟨0, ![]⟩
abbrev S4194304 : Shape := ⟨1, ![4194304]⟩
abbrev S4194304x1x1 : Shape := ⟨3, ![4194304, 1, 1]⟩
abbrev S2048x2048 : Shape := ⟨2, ![2048, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4194304x3x3, .f32⟩
  | .hbm, ⟨1, _⟩ => ⟨S4194304x3x3, .f32⟩
  | .hbm, ⟨2, _⟩ => ⟨S2050x2050, .f32⟩
  | .hbm, ⟨3, _⟩ => ⟨S4194304x9, .f32⟩
  | .hbm, ⟨4, _⟩ => ⟨S4194304x9, .f32⟩
  | .hbm, ⟨5, _⟩ => ⟨S_, .f32⟩
  | .hbm, ⟨6, _⟩ => ⟨S4194304x9, .f32⟩
  | .hbm, ⟨7, _⟩ => ⟨S4194304x9, .i1⟩
  | .hbm, ⟨8, _⟩ => ⟨S_, .f32⟩
  | .hbm, ⟨9, _⟩ => ⟨S4194304x9, .f32⟩
  | .hbm, ⟨10, _⟩ => ⟨S4194304x9, .i1⟩
  | .hbm, ⟨11, _⟩ => ⟨S4194304x9, .i1⟩
  | .hbm, ⟨12, _⟩ => ⟨S4194304x9, .i1⟩
  | .hbm, ⟨13, _⟩ => ⟨S4194304x9, .i32⟩
  | .hbm, ⟨14, _⟩ => ⟨S_, .i32⟩
  | .hbm, ⟨15, _⟩ => ⟨S4194304, .i32⟩
  | .hbm, ⟨16, _⟩ => ⟨S4194304x9, .i32⟩
  | .hbm, ⟨17, _⟩ => ⟨S_, .i32⟩
  | .hbm, ⟨18, _⟩ => ⟨S4194304, .i32⟩
  | .hbm, ⟨19, _⟩ => ⟨S4194304x9, .f32⟩
  | .hbm, ⟨20, _⟩ => ⟨S4194304x9, .f32⟩
  | .hbm, ⟨21, _⟩ => ⟨S_, .f32⟩
  | .hbm, ⟨22, _⟩ => ⟨S4194304, .f32⟩
  | .hbm, ⟨23, _⟩ => ⟨S_, .i32⟩
  | .hbm, ⟨24, _⟩ => ⟨S4194304, .i32⟩
  | .hbm, ⟨25, _⟩ => ⟨S4194304, .i32⟩
  | .hbm, ⟨26, _⟩ => ⟨S4194304, .f32⟩
  | .hbm, ⟨27, _⟩ => ⟨S4194304, .f32⟩
  | .hbm, ⟨28, _⟩ => ⟨S4194304x9, .f32⟩
  | .hbm, ⟨29, _⟩ => ⟨S4194304x9, .f32⟩
  | .hbm, ⟨30, _⟩ => ⟨S_, .f32⟩
  | .hbm, ⟨31, _⟩ => ⟨S4194304, .f32⟩
  | .hbm, ⟨32, _⟩ => ⟨S_, .i32⟩
  | .hbm, ⟨33, _⟩ => ⟨S4194304, .i32⟩
  | .hbm, ⟨34, _⟩ => ⟨S4194304, .i32⟩
  | .hbm, ⟨35, _⟩ => ⟨S4194304, .f32⟩
  | .hbm, ⟨36, _⟩ => ⟨S4194304, .f32⟩
  | .hbm, ⟨37, _⟩ => ⟨S_, .i32⟩
  | .hbm, ⟨38, _⟩ => ⟨S4194304, .i32⟩
  | .hbm, ⟨39, _⟩ => ⟨S4194304, .i1⟩
  | .hbm, ⟨40, _⟩ => ⟨S_, .i32⟩
  | .hbm, ⟨41, _⟩ => ⟨S4194304, .i32⟩
  | .hbm, ⟨42, _⟩ => ⟨S4194304, .i1⟩
  | .hbm, ⟨43, _⟩ => ⟨S4194304, .i1⟩
  | .hbm, ⟨44, _⟩ => ⟨S4194304, .i1⟩
  | .hbm, ⟨45, _⟩ => ⟨S_, .f32⟩
  | .hbm, ⟨46, _⟩ => ⟨S_, .f32⟩
  | .hbm, ⟨47, _⟩ => ⟨S4194304, .f32⟩
  | .hbm, ⟨48, _⟩ => ⟨S4194304, .f32⟩
  | .hbm, ⟨49, _⟩ => ⟨S4194304, .f32⟩
  | .hbm, ⟨50, _⟩ => ⟨S_, .f32⟩
  | .hbm, ⟨51, _⟩ => ⟨S4194304, .f32⟩
  | .hbm, ⟨52, _⟩ => ⟨S4194304, .f32⟩
  | .hbm, ⟨53, _⟩ => ⟨S4194304x1x1, .f32⟩
  | .hbm, ⟨54, _⟩ => ⟨S4194304, .f32⟩
  | .hbm, ⟨55, _⟩ => ⟨S_, .f32⟩
  | .hbm, ⟨56, _⟩ => ⟨S4194304, .f32⟩
  | .hbm, ⟨57, _⟩ => ⟨S4194304, .i1⟩
  | .hbm, ⟨58, _⟩ => ⟨S_, .f32⟩
  | .hbm, ⟨59, _⟩ => ⟨S4194304, .f32⟩
  | .hbm, ⟨60, _⟩ => ⟨S4194304, .i1⟩
  | .hbm, ⟨61, _⟩ => ⟨S4194304, .f32⟩
  | .hbm, ⟨62, _⟩ => ⟨S4194304, .f32⟩
  | .hbm, ⟨63, _⟩ => ⟨S_, .f32⟩
  | .hbm, ⟨64, _⟩ => ⟨S_, .f32⟩
  | .hbm, ⟨65, _⟩ => ⟨S4194304, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S_, .f32⟩
  | .hbm, ⟨72, _⟩ => ⟨S4194304, .f32⟩
  | .hbm, ⟨73, _⟩ => ⟨S4194304, .f32⟩
  | .hbm, ⟨74, _⟩ => ⟨S_, .f32⟩
  | .hbm, ⟨75, _⟩ => ⟨S_, .f32⟩
  | .hbm, ⟨76, _⟩ => ⟨S4194304, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S4194304, .f32⟩
  | .hbm, ⟨85, _⟩ => ⟨S4194304, .i1⟩
  | .hbm, ⟨86, _⟩ => ⟨S4194304, .f32⟩
  | .hbm, ⟨87, _⟩ => ⟨S4194304, .f32⟩
  | .hbm, ⟨88, _⟩ => ⟨S4194304, .f32⟩
  | .hbm, ⟨89, _⟩ => ⟨S4194304, .f32⟩
  | .hbm, ⟨90, _⟩ => ⟨S4194304, .f32⟩
  | .hbm, ⟨91, _⟩ => ⟨S4194304, .f32⟩
  | .hbm, ⟨92, _⟩ => ⟨S4194304, .i1⟩
  | .hbm, ⟨93, _⟩ => ⟨S_, .f32⟩
  | .hbm, ⟨94, _⟩ => ⟨S_, .f32⟩
  | .hbm, ⟨95, _⟩ => ⟨S4194304, .f32⟩
  | .hbm, ⟨96, _⟩ => ⟨S4194304, .f32⟩
  | .hbm, ⟨97, _⟩ => ⟨S4194304, .f32⟩
  | .hbm, ⟨98, _⟩ => ⟨S4194304, .f32⟩
  | .hbm, ⟨99, _⟩ => ⟨S2048x2048, .f32⟩
  | _, _ => ⟨S4194304x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_cst_9 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_cst_10 : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_c_14 : Ref sig .tc := ⟨.hbm, 66, rfl⟩
abbrev main_v44 : Ref sig .tc := ⟨.hbm, 67, rfl⟩
abbrev main_c_15 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_c_17 : Ref sig .tc := ⟨.hbm, 77, rfl⟩
abbrev main_v52 : Ref sig .tc := ⟨.hbm, 78, rfl⟩
abbrev main_c_18 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_19 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_20 : Ref sig .tc := ⟨.hbm, 93, rfl⟩
abbrev main_cst_21 : Ref sig .tc := ⟨.hbm, 94, rfl⟩
abbrev main_call2_v0 : Ref sig .tc := ⟨.hbm, 95, rfl⟩
abbrev main_call2_v1 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]

class Facts₀ : Prop where
  shapeCasts_S4194304x3x3_S4194304x9 : S4194304x3x3.ShapeCasts S4194304x9
  bcast_S_S4194304x9 : S_.BroadcastsInDim S4194304x9 (![] : Fin 0 → Fin S4194304x9.rank)
  natLt_1_32 : 1 < 32
  reducesTo_S4194304x9_S4194304_d1 : S4194304x9.ReducesTo [1] S4194304
  h_S_ : 0 < S_.numel
  bcast_S_S4194304 : S_.BroadcastsInDim S4194304 (![] : Fin 0 → Fin S4194304.rank)
  slices_S4194304x3x3_S4194304x1x1_0_1_1 : S4194304x3x3.Slices ![0, 1, 1] S4194304x1x1
  shapeCasts_S4194304x1x1_S4194304 : S4194304x1x1.ShapeCasts S4194304
  reducesTo_S4194304_S_d0 : S4194304.ReducesTo [0] S_
  shapeCasts_S4194304_S2048x2048 : S4194304.ShapeCasts S2048x2048

variable [Facts₀]

class Facts : Prop extends Facts₀ where

variable [Facts]
-- ==== Proof.Pass1Runs.lean ====
/-
  The first pass over the patches, one grid point at a time: what every statement about its body is made over.

  The body classifies the 2048 patches of its tile, writes their classes and centre pixels, adds the tile's four partial sums
  (the centre pixels and the number of patches of class 0, and the same for class 1) into four one-entry accumulators that it
  keeps between grid points, and copies the accumulators into four one-entry results. At grid point 0, and only there, it
  first sets the accumulators to zero: that is the body's one branch, and whether it is taken is decided here once for all
  2048 points. Named here: that condition; each window's current staging buffer at a point and the four accumulators, as
  memory references; and the invariant the region is entered with, opened into the four accumulators (each at some
  contents), the other buffers the region never touches, and the generator register.
-/
import proofs.«177650_j67585605370461_2_alg».proof.Proof.Gen.KernelIdeal.Launch
import proofs.«177650_j67585605370461_2_alg».proof.Proof.Gen.KernelIdeal.Skeleton
import proofs.«177650_j67585605370461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch -/

/-- The condition of the body's branch, from the grid coordinate: the coordinate is zero. -/
abbrev cond0 (i : grid0.Coords) : Prop :=
  (Scalar.cmpi .ne (Scalar.extui (Scalar.cmpi .eq (BitVec.ofNat 32 (i 0).val) 0#32)) 0#32) = 1#1

/-- It holds at the first point and at no other: decided over the grid. -/
theorem hcond0 : ∀ t : Fin cfg0.N, cond0 (grid0.coords t) ↔ t.val = 0 :=
  (by decide +kernel : ∀ t : Fin grid0.N, cond0 (grid0.coords t) ↔ t.val = 0)

/-! ## The memory references the body is called with -/

abbrev ms0 (t : Fin cfg0.N) : Memref sig .tc .vmem S2048x9 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x9 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)

/-- The four accumulators: whole buffers of the kernel's own, passed beside the windows. -/
abbrev sc0 : Memref sig .tc .vmem S1x1 .f32 := Memref.whole cc0_scratch0
abbrev sc1 : Memref sig .tc .vmem S1x1 .f32 := Memref.whole cc0_scratch1
abbrev sc2 : Memref sig .tc .vmem S1x1 .f32 := Memref.whole cc0_scratch2
abbrev sc3 : Memref sig .tc .vmem S1x1 .f32 := Memref.whole cc0_scratch3

/-- One staging buffer of each output window and each accumulator, as a view: contents are stated through it (pieces
    that cover a buffer read back the same through any view of that shape). -/
abbrev VO2 : View sig .tc .vmem S2048x1 .f32 := (Memref.whole cc0_stg2_0 : Memref sig .tc .vmem S2048x1 .f32).view
abbrev VO3 : View sig .tc .vmem S2048x1 .f32 := (Memref.whole cc0_stg3_0 : Memref sig .tc .vmem S2048x1 .f32).view
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view
abbrev VO6 : View sig .tc .vmem S1x1 .f32 := (Memref.whole cc0_stg6_0 : Memref sig .tc .vmem S1x1 .f32).view
abbrev VO7 : View sig .tc .vmem S1x1 .f32 := (Memref.whole cc0_stg7_0 : Memref sig .tc .vmem S1x1 .f32).view
abbrev VS0 : View sig .tc .vmem S1x1 .f32 := sc0.view
abbrev VS1 : View sig .tc .vmem S1x1 .f32 := sc1.view
abbrev VS2 : View sig .tc .vmem S1x1 .f32 := sc2.view
abbrev VS3 : View sig .tc .vmem S1x1 .f32 := sc3.view

/-! ## The invariant the region is entered with -/

/-- The scoped buffers this region never touches (the second pass's staging buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The entry invariant, opened: each accumulator owned at some contents, the untouched buffers, the generator register
    at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ others c) ∗ (∃ r, prngReg c r)) := by
  unfold Pipeline.ΦA; rw [scopedRest0_eq]; unfold others; simp only [sc0, sc1, sc2, sc3, owns_whole]; try rfl

end Cert.KernelIdeal.Frame0

end
-- ==== Proof.Pass1RunA.lean ====
/-
  The first pass's body at the first grid point: the accumulators come in at anything and are set to zero before the tile's
  partial sums are added. The run finds, for every buffer the body stores into, the pieces it ends with (last store first).
-/
import proofs.«177650_j67585605370461_2_alg».proof.Proof.Pass1Runs

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the two inputs at their contents `x0`, `x1`, the six outputs and the four accumulators at anything —
    the body, its branch taken, runs to the continuation holding the inputs as they were and every other buffer with its pieces
    written. The pieces are the witness the run finds. -/
noncomputable def kernelRun0_A (c : Dev nD) (i : grid0.Coords) (arg1 : Memref sig .tc .vmem S2048x9 .f32) (harg1 : arg1.IsWhole) (arg2 : Memref sig .tc .vmem S2048x9 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0 i)
    (x0 x1 : Vec F S2048x9 .f32) :
    Σ' (L3 L4 : List (View.Piece (Elt F) S2048x1 .f32)) (L5 L6 L7 L8 LS0 LS1 LS2 : List (View.Piece (Elt F) S1x1 .f32)), { LS3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton]
    unfold owns
    iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Frame0

end
-- ==== Proof.Pass1RunB.lean ====
/-
  The first pass's body at a grid point after the first: the accumulators come in holding what the point before left.
  The run finds, for every buffer the body stores into, the pieces it ends with (last store first): the two [2048,1] outputs
  (the classes, the centre pixels), the four one-entry outputs, and the four accumulators.
-/
import proofs.«177650_j67585605370461_2_alg».proof.Proof.Pass1Runs

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the two inputs at their contents `x0`, `x1`, the six outputs at anything, the four accumulators at
    `xs0 … xs3` — the body, its branch not taken, runs to the continuation holding the inputs as they were and every other buffer with
    its pieces written. The pieces are the witness the run finds. -/
noncomputable def kernelRun0_B (c : Dev nD) (i : grid0.Coords) (arg1 : Memref sig .tc .vmem S2048x9 .f32) (harg1 : arg1.IsWhole) (arg2 : Memref sig .tc .vmem S2048x9 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0 i)
    (x0 x1 : Vec F S2048x9 .f32) (xs0 xs1 xs2 xs3 : Vec F S1x1 .f32) :
    Σ' (L3 L4 : List (View.Piece (Elt F) S2048x1 .f32)) (L5 L6 L7 L8 LS0 LS1 LS2 : List (View.Piece (Elt F) S1x1 .f32)), { LS3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton]
    unfold owns
    iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg1.eq_unread hf1; obtain rfl := harg2.eq_unread hf2
    obtain rfl := harg9.eq_unread hfs0; obtain rfl := harg10.eq_unread hfs1; obtain rfl := harg11.eq_unread hfs2; obtain rfl := harg12.eq_unread hfs3
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Frame0

end
-- ==== Proof.Pass1Frame.lean ====
/-
  The first pass as a region of the program: what its outputs and its four accumulators hold after every grid point, the
  invariant that carries the accumulators from point to point, and the body's obligation at a generic point.

  At the first point the body zeroes the accumulators and adds the tile's partial sums (case A); at every later point it
  adds them to what the point before left (case B). `stepA` / `stepB` read back, buffer by buffer, the pieces the case's run
  ends with; `outsAt0` is the accumulation over the points; the invariant before a point that is not the first owns each
  accumulator at what the point before left in it; the proof data put the inputs' blocks and `outsAt0`'s components after each
  point. Everything is stated at a parameter `V`, the buffer contents when the region is entered.
-/
import proofs.«177650_j67585605370461_2_alg».proof.Proof.Pass1RunA
import proofs.«177650_j67585605370461_2_alg».proof.Proof.Pass1RunB

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What a case leaves in each buffer -/

/-- The contents of the six output staging buffers (windows 2 … 7) and the four accumulators after the body at a point. -/
structure St (F : FTy → Type) where
  o2 : Vec F S2048x1 .f32
  o3 : Vec F S2048x1 .f32
  o4 : Vec F S1x1 .f32
  o5 : Vec F S1x1 .f32
  o6 : Vec F S1x1 .f32
  o7 : Vec F S1x1 .f32
  s0 : Vec F S1x1 .f32
  s1 : Vec F S1x1 .f32
  s2 : Vec F S1x1 .f32
  s3 : Vec F S1x1 .f32

/-- Case A (the first point) at point `t` on the input blocks `x0`, `x1`: each buffer's pieces read back. -/
def stepA (c : Dev nD) (t : Fin cfg0.N) (h : cond0 (grid0.coords t)) (x0 x1 : Vec F S2048x9 .f32) : St F :=
  { o2 := VO2.read (Elt F) (VO2.writes (Elt F) VO2.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1)
    o3 := VO3.read (Elt F) (VO3.writes (Elt F) VO3.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1)
    o4 := VO4.read (Elt F) (VO4.writes (Elt F) VO4.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1)
    o5 := VO5.read (Elt F) (VO5.writes (Elt F) VO5.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1)
    o6 := VO6.read (Elt F) (VO6.writes (Elt F) VO6.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1)
    o7 := VO7.read (Elt F) (VO7.writes (Elt F) VO7.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1)
    s0 := VS0.read (Elt F) (VS0.writes (Elt F) VS0.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1)
    s1 := VS1.read (Elt F) (VS1.writes (Elt F) VS1.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1)
    s2 := VS2.read (Elt F) (VS2.writes (Elt F) VS2.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1)
    s3 := VS3.read (Elt F) (VS3.writes (Elt F) VS3.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1) }

/-- Case B (a later point) at point `t` on the input blocks and the accumulators' contents: each buffer's pieces read back. -/
def stepB (c : Dev nD) (t : Fin cfg0.N) (h : ¬cond0 (grid0.coords t)) (x0 x1 : Vec F S2048x9 .f32) (xs0 xs1 xs2 xs3 : Vec F S1x1 .f32) : St F :=
  { o2 := VO2.read (Elt F) (VO2.writes (Elt F) VO2.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1)
    o3 := VO3.read (Elt F) (VO3.writes (Elt F) VO3.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1)
    o4 := VO4.read (Elt F) (VO4.writes (Elt F) VO4.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1)
    o5 := VO5.read (Elt F) (VO5.writes (Elt F) VO5.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1)
    o6 := VO6.read (Elt F) (VO6.writes (Elt F) VO6.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1)
    o7 := VO7.read (Elt F) (VO7.writes (Elt F) VO7.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1)
    s0 := VS0.read (Elt F) (VS0.writes (Elt F) VS0.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1)
    s1 := VS1.read (Elt F) (VS1.writes (Elt F) VS1.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1)
    s2 := VS2.read (Elt F) (VS2.writes (Elt F) VS2.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1)
    s3 := VS3.read (Elt F) (VS3.writes (Elt F) VS3.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1) }

/-- Each buffer's pieces tile it (one whole store last), so they cover it. -/
theorem coverA_o2 (c : Dev nD) (t : Fin cfg0.N) (h : cond0 (grid0.coords t)) (x0 x1 : Vec F S2048x9 .f32) (y : S2048x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1 S2048x1.size (by sl_kernel_rfl) y
theorem coverB_o2 (c : Dev nD) (t : Fin cfg0.N) (h : ¬cond0 (grid0.coords t)) (x0 x1 : Vec F S2048x9 .f32) (xs0 xs1 xs2 xs3 : Vec F S1x1 .f32) (y : S2048x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1 S2048x1.size (by sl_kernel_rfl) y
theorem coverA_o3 (c : Dev nD) (t : Fin cfg0.N) (h : cond0 (grid0.coords t)) (x0 x1 : Vec F S2048x9 .f32) (y : S2048x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1 S2048x1.size (by sl_kernel_rfl) y
theorem coverB_o3 (c : Dev nD) (t : Fin cfg0.N) (h : ¬cond0 (grid0.coords t)) (x0 x1 : Vec F S2048x9 .f32) (xs0 xs1 xs2 xs3 : Vec F S1x1 .f32) (y : S2048x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1 S2048x1.size (by sl_kernel_rfl) y
theorem coverA_o4 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1 S1x1.size (by sl_kernel_rfl) y
theorem coverB_o4 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1 S1x1.size (by sl_kernel_rfl) y
theorem coverA_o5 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1 S1x1.size (by sl_kernel_rfl) y
theorem coverB_o5 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1 S1x1.size (by sl_kernel_rfl) y
theorem coverA_o6 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1 S1x1.size (by sl_kernel_rfl) y
theorem coverB_o6 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1 S1x1.size (by sl_kernel_rfl) y
theorem coverA_o7 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1 S1x1.size (by sl_kernel_rfl) y
theorem coverB_o7 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1 S1x1.size (by sl_kernel_rfl) y
theorem coverA_s0 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1 S1x1.size (by sl_kernel_rfl) y
theorem coverB_s0 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1 S1x1.size (by sl_kernel_rfl) y
theorem coverA_s1 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1 S1x1.size (by sl_kernel_rfl) y
theorem coverB_s1 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1 S1x1.size (by sl_kernel_rfl) y
theorem coverA_s2 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1 S1x1.size (by sl_kernel_rfl) y
theorem coverB_s2 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1 S1x1.size (by sl_kernel_rfl) y
theorem coverA_s3 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1 S1x1.size (by sl_kernel_rfl) y
theorem coverB_s3 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1 S1x1.size (by sl_kernel_rfl) y

/-! ## What the buffers hold after each point -/

/-- THE ACCUMULATION: the buffers after the body at position `n` — at the first point case A on the point's input blocks, later
    case B on them and on the accumulators as the point before left them. -/
def outsAt0 (c : Dev nD) : (n : ℕ) → n < cfg0.N → St F
  | 0, hn => stepA c ⟨0, hn⟩ ((hcond0 ⟨0, hn⟩).mpr rfl) (iblk0 V c 0 ⟨0, hn⟩) (iblk0 V c 1 ⟨0, hn⟩)
  | n + 1, hn => stepB c ⟨n + 1, hn⟩ (fun h => absurd ((hcond0 ⟨n + 1, hn⟩).mp h) (Nat.succ_ne_zero n)) (iblk0 V c 0 ⟨n + 1, hn⟩) (iblk0 V c 1 ⟨n + 1, hn⟩)
      (outsAt0 c n (Nat.lt_of_succ_lt hn)).s0 (outsAt0 c n (Nat.lt_of_succ_lt hn)).s1 (outsAt0 c n (Nat.lt_of_succ_lt hn)).s2 (outsAt0 c n (Nat.lt_of_succ_lt hn)).s3

theorem outsAt0_A (c : Dev nD) (t : Fin cfg0.N) (h0 : t.val = 0) :
    outsAt0 V c t.val t.isLt = stepA c t ((hcond0 t).mpr h0) (iblk0 V c 0 t) (iblk0 V c 1 t) := by
  obtain ⟨n, hn⟩ := t
  cases n with
  | zero => rfl
  | succ n => exact absurd h0 (Nat.succ_ne_zero n)

theorem outsAt0_B (c : Dev nD) (t : Fin cfg0.N) (h0 : ¬t.val = 0) :
    outsAt0 V c t.val t.isLt = stepB c t (fun h => h0 ((hcond0 t).mp h)) (iblk0 V c 0 t) (iblk0 V c 1 t)
      (outsAt0 V c (t.val - 1) (Nat.lt_of_le_of_lt (Nat.sub_le _ _) t.isLt)).s0 (outsAt0 V c (t.val - 1) (Nat.lt_of_le_of_lt (Nat.sub_le _ _) t.isLt)).s1
      (outsAt0 V c (t.val - 1) (Nat.lt_of_le_of_lt (Nat.sub_le _ _) t.isLt)).s2 (outsAt0 V c (t.val - 1) (Nat.lt_of_le_of_lt (Nat.sub_le _ _) t.isLt)).s3 := by
  obtain ⟨n, hn⟩ := t
  cases n with
  | zero => exact absurd rfl h0
  | succ n => rfl

/-! ## The invariant -/

/-- Before position `n`: at the first point what the region is entered with (every accumulator at anything); afterwards each
    accumulator at what the point before left in it, the untouched buffers and the generator register. -/
def PhiS (c : Dev nD) : (n : ℕ) → n ≤ cfg0.N → sProp 𝕄
  | 0, _ => Pipeline.ΦA spec0 c
  | n + 1, hn => iprop(iprop(owns (c : Thread nD τ) sc0 fullShare ((outsAt0 V c n hn).s0) ∗ owns (c : Thread nD τ) sc1 fullShare ((outsAt0 V c n hn).s1) ∗ owns (c : Thread nD τ) sc2 fullShare ((outsAt0 V c n hn).s2) ∗ owns (c : Thread nD τ) sc3 fullShare ((outsAt0 V c n hn).s3) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) sc0 fullShare ((outsAt0 V c n hn).s0) ∗ owns (c : Thread nD τ) sc1 fullShare ((outsAt0 V c n hn).s1) ∗ owns (c : Thread nD τ) sc2 fullShare ((outsAt0 V c n hn).s2) ∗ owns (c : Thread nD τ) sc3 fullShare ((outsAt0 V c n hn).s3) ∗ others c) ∗ (∃ r, prngReg c r)) := rfl

theorem PhiS_pos (c : Dev nD) (n : ℕ) (h : n ≤ cfg0.N) (hz : n ≠ 0) :
    PhiS V c n h = iprop(iprop(owns (c : Thread nD τ) sc0 fullShare ((outsAt0 V c (n - 1) (by omega)).s0) ∗ owns (c : Thread nD τ) sc1 fullShare ((outsAt0 V c (n - 1) (by omega)).s1) ∗ owns (c : Thread nD τ) sc2 fullShare ((outsAt0 V c (n - 1) (by omega)).s2) ∗ owns (c : Thread nD τ) sc3 fullShare ((outsAt0 V c (n - 1) (by omega)).s3) ∗ others c) ∗ (∃ r, prngReg c r)) := by
  cases n with
  | zero => exact absurd rfl hz
  | succ n => rfl

/-! ## The proof data -/

/-- The region's proof data on core `c`: the arrays as the region finds them; after the body at point `t` each input's buffer at
    its block and each output's at `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).o2
    | ⟨3, _⟩ => (outsAt0 V c t.val t.isLt).o3
    | ⟨4, _⟩ => (outsAt0 V c t.val t.isLt).o4
    | ⟨5, _⟩ => (outsAt0 V c t.val t.isLt).o5
    | ⟨6, _⟩ => (outsAt0 V c t.val t.isLt).o6
    | ⟨7, _⟩ => (outsAt0 V c t.val t.isLt).o7
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).o2 := by dsimp only [dat0]
theorem after0_3 (c : Dev nD) (t : Fin cfg0.N) : (dat0 V c).after 3 t = (outsAt0 V c t.val t.isLt).o3 := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Frame0

end
-- ==== Proof.Pass2Frame.lean ====
/- The second pallas_call's half of the frame: the resolving pass, whose body loads its three input blocks whole
   (the two means, the classes, the centre pixels) and stores its one output block whole. Everything is stated at a
   parameter `V`, the TensorCore's buffer contents when the region is entered: each window's block at a point, what
   the body leaves in the output window's buffer, the body's triple, the pipeline's proof data and the body
   obligation at every point. -/
import proofs.«177650_j67585605370461_2_alg».proof.Proof.Gen.KernelIdeal.Launch
import proofs.«177650_j67585605370461_2_alg».proof.Proof.Gen.KernelIdeal.Skeleton
import proofs.«177650_j67585605370461_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there,
    for any proof data whose array is the entry contents' (`hA`) and whose body leaves the block in place
    (`hafter`): where the window is not fetched its block index has not moved, so the previous point's block is
    this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there,
    for any proof data whose array is the entry contents' (`hA`) and whose body leaves the block in place
    (`hafter`): where the window is not fetched its block index has not moved, so the previous point's block is
    this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there,
    for any proof data whose array is the entry contents' (`hA`) and whose body leaves the block in place
    (`hafter`): where the window is not fetched its block index has not moved, so the previous point's block is
    this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of the two means. -/
abbrev rA : Rect S1x2 := Rect.unit (s := S1x2) ![0, 0] S1x2.size inb_S1x2_S1x2_0_0
/-- The whole block of a column of 2048 entries (the classes, the centre pixels, the result). -/
abbrev rC : Rect S2048x1 := Rect.unit (s := S2048x1) ![0, 0] S2048x1.size inb_S2048x1_S2048x1_0_0

/-! ## What the body leaves in the output window's buffer -/

/-- Window 3's staging buffer after the body, from the input windows' blocks: its one store, of the whole block, of
    the resolved classes computed from the three blocks read whole. -/
def out1_3 (x0 : Vec F S1x2 .f32) (x1 x2 : Vec F S2048x1 .f32) : Vec F S2048x1 .f32 :=
  View.canon [⟨rC, k1_pay1 (View.ld x0 rA) (View.ld x1 rC) (View.ld x2 rC)⟩]

/-- Its one store tiles the buffer, so it covers it. -/
theorem cover1_3 (p0 : Vec F S2048x1 .f32) (y : S2048x1.Idx) :
    ∃ pc ∈ ([⟨rC, p0⟩] : List (View.Piece (Elt F) S2048x1 .f32)), y ∈ pc.1.set :=
  View.cover_of_tiled [⟨rC, p0⟩] S2048x1.size (by rfl) y

/-! ## The body's triple -/

set_option maxHeartbeats 1000000 in
/-- The body on whole staging memrefs, the inputs' at read contents `x0 x1 x2` and the output's at anything, runs to
    the continuation holding the inputs' as they were and the output's at `out1_3` of the inputs': three whole loads,
    a load of the output's buffer whose value is not used, and one whole store. -/
theorem sound_kernel1 (c : Dev nD) (E : Set ℕ) (i : grid1.Coords) (arg1 : Memref sig .tc .vmem S1x2 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S2048x1 .f32) (harg4 : arg4.IsWhole)
    (x0 : Vec F S1x2 .f32) (x1 : Vec F S2048x1 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the resolving pass's pipeline on core `c`: the arrays as the region finds them (`V`); after
    the body at point `t` each input's buffer at its block and the output's at `out1_3` of the input blocks; the
    invariant leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected, never unfolding `V`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. The means' window is
    fetched at the first point only; its block index never moves, so the block it holds is every point's. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame1

end
-- ==== Proof.FrameFold.lean ====
/-
  The buffer contents at every boundary of the program, as a fold from the launch memory: a host stretch applies its
  operations; a region leaves each of its arrays at what its write-backs leave (the proof data's array after the last point) and
  every other buffer as it found it. The argument arrays walk back through the fold to the launch memory: no host operation
  writes one and no region has one among its arrays.
-/
import proofs.«177650_j67585605370461_2_alg».proof.Proof.Pass1Frame
import proofs.«177650_j67585605370461_2_alg».proof.Proof.Pass2Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pass's exit: its arrays at what the pipeline leaves, every other buffer as entered. -/
def W2 (c : Dev nD) : Valuation τ sig (Elt F) :=
  Pipeline.withArrays spec0 c (W1 m ρ c) fun w => (Frame0.dat0 (V1 m ρ) c).arrAt w cfg0.N
theorem W2_arr (c : Dev nD) (w : Fin cfg0.W) :
    W2 m ρ c (Proc.devRef .tc (Pipeline.arrRef spec0 w)) = (Frame0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Frame0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the passes (the second pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pass's exit. -/
def W4 (c : Dev nD) : Valuation τ sig (Elt F) :=
  Pipeline.withArrays spec1 c (W3 m ρ c) fun w => (Frame1.dat1 (V3 m ρ) c).arrAt w cfg1.N
theorem W4_arr (c : Dev nD) (w : Fin cfg1.W) :
    W4 m ρ c (Proc.devRef .tc (Pipeline.arrRef spec1 w)) = (Frame1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Frame1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final reshape (the return). -/
abbrev W5 : Dev nD → Valuation τ sig (Elt F) := fun c => StableHlo.after hostOps2 (W4 m ρ c)

/-! ### The arguments end as launched: no host operation writes one and no region has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.KernelIdeal.Run

end
-- ==== Proof.Pass1Body.lean ====
/-
  The first pass's body obligation at a generic grid point, and the way into and out of the invariant that carries the four
  accumulators: at the first point the invariant hands the accumulators over at anything and the first case's run applies; at a
  later point it hands them over at what the point before left and the second case's run applies; either way the invariant takes
  them back at this point's contents and each output buffer holds its pieces read back.
-/
import proofs.«177650_j67585605370461_2_alg».proof.Proof.Pass1Frame

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t)
    ∗ owns (c : Thread nD τ) (ms5 t) fullShare ((dat0 V c).after 5 t)
    ∗ owns (c : Thread nD τ) (ms6 t) fullShare ((dat0 V c).after 6 t)
    ∗ owns (c : Thread nD τ) (ms7 t) fullShare ((dat0 V c).after 7 t))

/-! ### Each buffer's pieces read back through the buffer's own view -/

theorem rbA_o2 (c : Dev nD) (t : Fin cfg0.N) (h : cond0 (grid0.coords t)) (x0 x1 : Vec F S2048x9 .f32) (g) :
    (ms2 t).view.read (Elt F) ((ms2 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1) = (stepA c t h x0 x1).o2 := by
  unfold stepA; dsimp only
  exact View.read_writes_of_cover _ _ _ _ _ (coverA_o2 c t h x0 x1)
theorem rbB_o2 (c : Dev nD) (t : Fin cfg0.N) (h : ¬cond0 (grid0.coords t)) (x0 x1 : Vec F S2048x9 .f32) (xs0 xs1 xs2 xs3 : Vec F S1x1 .f32) (g) :
    (ms2 t).view.read (Elt F) ((ms2 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1) = (stepB c t h x0 x1 xs0 xs1 xs2 xs3).o2 := by
  unfold stepB; dsimp only
  exact View.read_writes_of_cover _ _ _ _ _ (coverB_o2 c t h x0 x1 xs0 xs1 xs2 xs3)
theorem rbA_o3 (c : Dev nD) (t : Fin cfg0.N) (h : cond0 (grid0.coords t)) (x0 x1 : Vec F S2048x9 .f32) (g) :
    (ms3 t).view.read (Elt F) ((ms3 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1) = (stepA c t h x0 x1).o3 := by
  unfold stepA; dsimp only
  exact View.read_writes_of_cover _ _ _ _ _ (coverA_o3 c t h x0 x1)
theorem rbB_o3 (c : Dev nD) (t : Fin cfg0.N) (h : ¬cond0 (grid0.coords t)) (x0 x1 : Vec F S2048x9 .f32) (xs0 xs1 xs2 xs3 : Vec F S1x1 .f32) (g) :
    (ms3 t).view.read (Elt F) ((ms3 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1) = (stepB c t h x0 x1 xs0 xs1 xs2 xs3).o3 := by
  unfold stepB; dsimp only
  exact View.read_writes_of_cover _ _ _ _ _ (coverB_o3 c t h x0 x1 xs0 xs1 xs2 xs3)
theorem rbA_o4 (c : Dev nD) (t : Fin cfg0.N) (h : cond0 (grid0.coords t)) (x0 x1 : Vec F S2048x9 .f32) (g) :
    (ms4 t).view.read (Elt F) ((ms4 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1) = (stepA c t h x0 x1).o4 := by
  unfold stepA; dsimp only
  exact View.read_writes_of_cover _ _ _ _ _ (coverA_o4 c t h x0 x1)
theorem rbB_o4 (c : Dev nD) (t : Fin cfg0.N) (h : ¬cond0 (grid0.coords t)) (x0 x1 : Vec F S2048x9 .f32) (xs0 xs1 xs2 xs3 : Vec F S1x1 .f32) (g) :
    (ms4 t).view.read (Elt F) ((ms4 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1) = (stepB c t h x0 x1 xs0 xs1 xs2 xs3).o4 := by
  unfold stepB; dsimp only
  exact View.read_writes_of_cover _ _ _ _ _ (coverB_o4 c t h x0 x1 xs0 xs1 xs2 xs3)
theorem rbA_o5 (c : Dev nD) (t : Fin cfg0.N) (h : cond0 (grid0.coords t)) (x0 x1 : Vec F S2048x9 .f32) (g) :
    (ms5 t).view.read (Elt F) ((ms5 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1) = (stepA c t h x0 x1).o5 := by
  unfold stepA; dsimp only
  exact View.read_writes_of_cover _ _ _ _ _ (coverA_o5 c t h x0 x1)
theorem rbB_o5 (c : Dev nD) (t : Fin cfg0.N) (h : ¬cond0 (grid0.coords t)) (x0 x1 : Vec F S2048x9 .f32) (xs0 xs1 xs2 xs3 : Vec F S1x1 .f32) (g) :
    (ms5 t).view.read (Elt F) ((ms5 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1) = (stepB c t h x0 x1 xs0 xs1 xs2 xs3).o5 := by
  unfold stepB; dsimp only
  exact View.read_writes_of_cover _ _ _ _ _ (coverB_o5 c t h x0 x1 xs0 xs1 xs2 xs3)
theorem rbA_o6 (c : Dev nD) (t : Fin cfg0.N) (h : cond0 (grid0.coords t)) (x0 x1 : Vec F S2048x9 .f32) (g) :
    (ms6 t).view.read (Elt F) ((ms6 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1) = (stepA c t h x0 x1).o6 := by
  unfold stepA; dsimp only
  exact View.read_writes_of_cover _ _ _ _ _ (coverA_o6 c t h x0 x1)
theorem rbB_o6 (c : Dev nD) (t : Fin cfg0.N) (h : ¬cond0 (grid0.coords t)) (x0 x1 : Vec F S2048x9 .f32) (xs0 xs1 xs2 xs3 : Vec F S1x1 .f32) (g) :
    (ms6 t).view.read (Elt F) ((ms6 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1) = (stepB c t h x0 x1 xs0 xs1 xs2 xs3).o6 := by
  unfold stepB; dsimp only
  exact View.read_writes_of_cover _ _ _ _ _ (coverB_o6 c t h x0 x1 xs0 xs1 xs2 xs3)
theorem rbA_o7 (c : Dev nD) (t : Fin cfg0.N) (h : cond0 (grid0.coords t)) (x0 x1 : Vec F S2048x9 .f32) (g) :
    (ms7 t).view.read (Elt F) ((ms7 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1) = (stepA c t h x0 x1).o7 := by
  unfold stepA; dsimp only
  exact View.read_writes_of_cover _ _ _ _ _ (coverA_o7 c t h x0 x1)
theorem rbB_o7 (c : Dev nD) (t : Fin cfg0.N) (h : ¬cond0 (grid0.coords t)) (x0 x1 : Vec F S2048x9 .f32) (xs0 xs1 xs2 xs3 : Vec F S1x1 .f32) (g) :
    (ms7 t).view.read (Elt F) ((ms7 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1) = (stepB c t h x0 x1 xs0 xs1 xs2 xs3).o7 := by
  unfold stepB; dsimp only
  exact View.read_writes_of_cover _ _ _ _ _ (coverB_o7 c t h x0 x1 xs0 xs1 xs2 xs3)
theorem rbA_s0 (c : Dev nD) (t : Fin cfg0.N) (h : cond0 (grid0.coords t)) (x0 x1 : Vec F S2048x9 .f32) (g) :
    (sc0).view.read (Elt F) ((sc0).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1) = (stepA c t h x0 x1).s0 := by
  unfold stepA; dsimp only
  exact View.read_writes_of_cover _ _ _ _ _ (coverA_s0 c t h x0 x1)
theorem rbB_s0 (c : Dev nD) (t : Fin cfg0.N) (h : ¬cond0 (grid0.coords t)) (x0 x1 : Vec F S2048x9 .f32) (xs0 xs1 xs2 xs3 : Vec F S1x1 .f32) (g) :
    (sc0).view.read (Elt F) ((sc0).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1) = (stepB c t h x0 x1 xs0 xs1 xs2 xs3).s0 := by
  unfold stepB; dsimp only
  exact View.read_writes_of_cover _ _ _ _ _ (coverB_s0 c t h x0 x1 xs0 xs1 xs2 xs3)
theorem rbA_s1 (c : Dev nD) (t : Fin cfg0.N) (h : cond0 (grid0.coords t)) (x0 x1 : Vec F S2048x9 .f32) (g) :
    (sc1).view.read (Elt F) ((sc1).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1) = (stepA c t h x0 x1).s1 := by
  unfold stepA; dsimp only
  exact View.read_writes_of_cover _ _ _ _ _ (coverA_s1 c t h x0 x1)
theorem rbB_s1 (c : Dev nD) (t : Fin cfg0.N) (h : ¬cond0 (grid0.coords t)) (x0 x1 : Vec F S2048x9 .f32) (xs0 xs1 xs2 xs3 : Vec F S1x1 .f32) (g) :
    (sc1).view.read (Elt F) ((sc1).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1) = (stepB c t h x0 x1 xs0 xs1 xs2 xs3).s1 := by
  unfold stepB; dsimp only
  exact View.read_writes_of_cover _ _ _ _ _ (coverB_s1 c t h x0 x1 xs0 xs1 xs2 xs3)
theorem rbA_s2 (c : Dev nD) (t : Fin cfg0.N) (h : cond0 (grid0.coords t)) (x0 x1 : Vec F S2048x9 .f32) (g) :
    (sc2).view.read (Elt F) ((sc2).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1) = (stepA c t h x0 x1).s2 := by
  unfold stepA; dsimp only
  exact View.read_writes_of_cover _ _ _ _ _ (coverA_s2 c t h x0 x1)
theorem rbB_s2 (c : Dev nD) (t : Fin cfg0.N) (h : ¬cond0 (grid0.coords t)) (x0 x1 : Vec F S2048x9 .f32) (xs0 xs1 xs2 xs3 : Vec F S1x1 .f32) (g) :
    (sc2).view.read (Elt F) ((sc2).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1) = (stepB c t h x0 x1 xs0 xs1 xs2 xs3).s2 := by
  unfold stepB; dsimp only
  exact View.read_writes_of_cover _ _ _ _ _ (coverB_s2 c t h x0 x1 xs0 xs1 xs2 xs3)
theorem rbA_s3 (c : Dev nD) (t : Fin cfg0.N) (h : cond0 (grid0.coords t)) (x0 x1 : Vec F S2048x9 .f32) (g) :
    (sc3).view.read (Elt F) ((sc3).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1) = (stepA c t h x0 x1).s3 := by
  unfold stepA; dsimp only
  exact View.read_writes_of_cover _ _ _ _ _ (coverA_s3 c t h x0 x1)
theorem rbB_s3 (c : Dev nD) (t : Fin cfg0.N) (h : ¬cond0 (grid0.coords t)) (x0 x1 : Vec F S2048x9 .f32) (xs0 xs1 xs2 xs3 : Vec F S1x1 .f32) (g) :
    (sc3).view.read (Elt F) ((sc3).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1) = (stepB c t h x0 x1 xs0 xs1 xs2 xs3).s3 := by
  unfold stepB; dsimp only
  exact View.read_writes_of_cover _ _ _ _ _ (coverB_s3 c t h x0 x1 xs0 xs1 xs2 xs3)

set_option maxHeartbeats 4800000 in
/-- The body at the first point: the invariant hands the accumulators over at anything; the case's run applies; the
    invariant takes the accumulators back at this point's contents and each output buffer holds its pieces read back. -/
theorem sound_body0_A (c : Dev nD) (t : Fin cfg0.N) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_zero V c _ _ hz, PhiA0_eq]
  have hO := outsAt0_A V c t hz
  iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) ((hcond0 t).mpr hz) (iblk0 V c 0 t) (iblk0 V c 1 t)).2.2.2.2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, ⟨%e2, H2⟩, ⟨%e3, H3⟩, ⟨%e4, H4⟩, ⟨%e5, H5⟩, ⟨%e6, H6⟩, ⟨%e7, H7⟩, ⟨%es0, HS0⟩, ⟨%es1, HS1⟩, ⟨%es2, HS2⟩, ⟨%es3, HS3⟩⟩
  isplitl [HS0 HS1 HS2 HS3 Hoth Hg]
  · isplitr [Hg]
    · isplitl [HS0]
      · unfold owns; iexists _; isplitr
        swap; · iexact HS0
        ipureintro; exact (rbA_s0 c t _ _ _ es0).trans (congrArg St.s0 hO.symm)
      isplitl [HS1]
      · unfold owns; iexists _; isplitr
        swap; · iexact HS1
        ipureintro; exact (rbA_s1 c t _ _ _ es1).trans (congrArg St.s1 hO.symm)
      isplitl [HS2]
      · unfold owns; iexists _; isplitr
        swap; · iexact HS2
        ipureintro; exact (rbA_s2 c t _ _ _ es2).trans (congrArg St.s2 hO.symm)
      isplitl [HS3]
      · unfold owns; iexists _; isplitr
        swap; · iexact HS3
        ipureintro; exact (rbA_s3 c t _ _ _ es3).trans (congrArg St.s3 hO.symm)
      iexact Hoth
    iexact Hg
  isplitl [Ho]; · iexact Ho
  isplitl [H0]; · rw [after0_0]; iexact H0
  isplitl [H1]; · rw [after0_1]; iexact H1
  isplitl [H2]
  · unfold owns; iexists _; isplitr
    swap; · iexact H2
    ipureintro; exact (rbA_o2 c t _ _ _ e2).trans ((congrArg St.o2 hO.symm).trans (after0_2 V c t).symm)
  isplitl [H3]
  · unfold owns; iexists _; isplitr
    swap; · iexact H3
    ipureintro; exact (rbA_o3 c t _ _ _ e3).trans ((congrArg St.o3 hO.symm).trans (after0_3 V c t).symm)
  isplitl [H4]
  · unfold owns; iexists _; isplitr
    swap; · iexact H4
    ipureintro; exact (rbA_o4 c t _ _ _ e4).trans ((congrArg St.o4 hO.symm).trans (after0_4 V c t).symm)
  isplitl [H5]
  · unfold owns; iexists _; isplitr
    swap; · iexact H5
    ipureintro; exact (rbA_o5 c t _ _ _ e5).trans ((congrArg St.o5 hO.symm).trans (after0_5 V c t).symm)
  isplitl [H6]
  · unfold owns; iexists _; isplitr
    swap; · iexact H6
    ipureintro; exact (rbA_o6 c t _ _ _ e6).trans ((congrArg St.o6 hO.symm).trans (after0_6 V c t).symm)
  unfold owns; iexists _; isplitr
  swap; · iexact H7
  ipureintro; exact (rbA_o7 c t _ _ _ e7).trans ((congrArg St.o7 hO.symm).trans (after0_7 V c t).symm)

set_option maxHeartbeats 4800000 in
/-- The body at a later point: the invariant hands the accumulators over at what the point before left; the case's run applies; the
    invariant takes the accumulators back at this point's contents and each output buffer holds its pieces read back. -/
theorem sound_body0_B (c : Dev nD) (t : Fin cfg0.N) (hz : ¬t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_pos V c _ _ hz]
  have hO := outsAt0_B V c t hz
  iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) (fun h => hz ((hcond0 t).mp h)) (iblk0 V c 0 t) (iblk0 V c 1 t) _ _ _ _).2.2.2.2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, ⟨%e2, H2⟩, ⟨%e3, H3⟩, ⟨%e4, H4⟩, ⟨%e5, H5⟩, ⟨%e6, H6⟩, ⟨%e7, H7⟩, ⟨%es0, HS0⟩, ⟨%es1, HS1⟩, ⟨%es2, HS2⟩, ⟨%es3, HS3⟩⟩
  isplitl [HS0 HS1 HS2 HS3 Hoth Hg]
  · isplitr [Hg]
    · isplitl [HS0]
      · unfold owns; iexists _; isplitr
        swap; · iexact HS0
        ipureintro; exact (rbB_s0 c t _ _ _ _ _ _ _ es0).trans (congrArg St.s0 hO.symm)
      isplitl [HS1]
      · unfold owns; iexists _; isplitr
        swap; · iexact HS1
        ipureintro; exact (rbB_s1 c t _ _ _ _ _ _ _ es1).trans (congrArg St.s1 hO.symm)
      isplitl [HS2]
      · unfold owns; iexists _; isplitr
        swap; · iexact HS2
        ipureintro; exact (rbB_s2 c t _ _ _ _ _ _ _ es2).trans (congrArg St.s2 hO.symm)
      isplitl [HS3]
      · unfold owns; iexists _; isplitr
        swap; · iexact HS3
        ipureintro; exact (rbB_s3 c t _ _ _ _ _ _ _ es3).trans (congrArg St.s3 hO.symm)
      iexact Hoth
    iexact Hg
  isplitl [Ho]; · iexact Ho
  isplitl [H0]; · rw [after0_0]; iexact H0
  isplitl [H1]; · rw [after0_1]; iexact H1
  isplitl [H2]
  · unfold owns; iexists _; isplitr
    swap; · iexact H2
    ipureintro; exact (rbB_o2 c t _ _ _ _ _ _ _ e2).trans ((congrArg St.o2 hO.symm).trans (after0_2 V c t).symm)
  isplitl [H3]
  · unfold owns; iexists _; isplitr
    swap; · iexact H3
    ipureintro; exact (rbB_o3 c t _ _ _ _ _ _ _ e3).trans ((congrArg St.o3 hO.symm).trans (after0_3 V c t).symm)
  isplitl [H4]
  · unfold owns; iexists _; isplitr
    swap; · iexact H4
    ipureintro; exact (rbB_o4 c t _ _ _ _ _ _ _ e4).trans ((congrArg St.o4 hO.symm).trans (after0_4 V c t).symm)
  isplitl [H5]
  · unfold owns; iexists _; isplitr
    swap; · iexact H5
    ipureintro; exact (rbB_o5 c t _ _ _ _ _ _ _ e5).trans ((congrArg St.o5 hO.symm).trans (after0_5 V c t).symm)
  isplitl [H6]
  · unfold owns; iexists _; isplitr
    swap; · iexact H6
    ipureintro; exact (rbB_o6 c t _ _ _ _ _ _ _ e6).trans ((congrArg St.o6 hO.symm).trans (after0_6 V c t).symm)
  unfold owns; iexists _; isplitr
  swap; · iexact H7
  ipureintro; exact (rbB_o7 c t _ _ _ _ _ _ _ e7).trans ((congrArg St.o7 hO.symm).trans (after0_7 V c t).symm)

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound_body0_A V c t hz
  · exact sound_body0_B V c t hz

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hoth⟩, Hg⟩
  isplitr [Hg]
  · isplitl [HS0]; · iexists _; iexact HS0
    isplitl [HS1]; · iexists _; iexact HS1
    isplitl [HS2]; · iexists _; iexact HS2
    isplitl [HS3]; · iexists _; iexact HS3
    iexact Hoth
  iexact Hg

theorem hout0 (c : Dev nD) : (dat0 V c).Φ (Fin.last cfg0.N) ⊢ Pipeline.ΦA spec0 c :=
  Phi_out0 V c _ (by rw [Fin.val_last]; have : cfg0.N = 2048 := N_0; omega)

end Cert.KernelIdeal.Frame0

end
-- ==== Proof.FrameRun.lean ====
/-
  The whole program as a run: two host stretches, the first pass, fourteen host operations that turn the four totals into the
  two means, the second pass, and the final reshape.

  The buffer contents at every boundary are a fold from the launch memory: a host stretch applies its operations; a region
  leaves each of its arrays at what its write-backs leave (the proof data's array after the last point) and every other
  buffer as it found it. The thread state between two items is "every unscoped buffer at the boundary's contents, the
  generator register at some state, nothing owed". Both regions are records over that state, the first with the invariant
  that carries the four accumulators, the second with the plain one. The run's post reads every unscoped buffer off the last
  boundary: the arguments walk back through the fold to the launch memory (no stretch and no region writes one), and the
  result buffer is the last stretch's reshape of what the second pass leaves.
-/
import proofs.«177650_j67585605370461_2_alg».proof.Proof.FrameFold
import proofs.«177650_j67585605370461_2_alg».proof.Proof.Pass1Body

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Frame0.dat0 (V1 m ρ) c
  | ⟨1, _⟩ => fun c => Frame1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as an item, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Region 0 over the thread state: entered from every unscoped buffer at `W1`, left at `W2`. Its arrays are split out
    of the unscoped buffers and put back at the exit contents; the generator register goes into the region's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Frame0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Frame0.dat0 (V1 m ρ) c).Φ 0 from rfl]
    iintro ⟨Hp, -, Hr⟩
    iapply (Frame0.hin0 (V1 m ρ) c)
    unfold Pipeline.ΦA
    isplitl [Hr]; · iexact Hr
    iexact Hp
  hout c := by
    rw [Pipeline.ownSems0_none, show (pdats m ρ 0 c).Φ (Fin.last _) = (Frame0.dat0 (V1 m ρ) c).Φ (Fin.last cfg0.N) from rfl]
    have ho := Frame0.hout0 (V1 m ρ) c
    iintro H
    ihave H' := ho $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the region's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Frame1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- THE RUN WITH ITS RESULT: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Run

end
-- ==== Proof.Pass1RunsBits.lean ====
/-
  The first pass over the patches, one grid point at a time: what every statement about its body is made over.

  The body classifies the 2048 patches of its tile, writes their classes and centre pixels, adds the tile's four partial sums
  (the centre pixels and the number of patches of class 0, and the same for class 1) into four one-entry accumulators that it
  keeps between grid points, and copies the accumulators into four one-entry results. At grid point 0, and only there, it
  first sets the accumulators to zero: that is the body's one branch, and whether it is taken is decided here once for all
  2048 points. Named here: that condition; each window's current staging buffer at a point and the four accumulators, as
  memory references; and the invariant the region is entered with, opened into the four accumulators (each at some
  contents), the other buffers the region never touches, and the generator register.
-/
import proofs.«177650_j67585605370461_2_alg».proof.Proof.Gen.Kernel.Launch
import proofs.«177650_j67585605370461_2_alg».proof.Proof.Gen.Kernel.Skeleton
import proofs.«177650_j67585605370461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch -/

/-- The condition of the body's branch, from the grid coordinate: the coordinate is zero. -/
abbrev cond0 (i : grid0.Coords) : Prop :=
  (Scalar.cmpi .ne (Scalar.extui (Scalar.cmpi .eq (BitVec.ofNat 32 (i 0).val) 0#32)) 0#32) = 1#1

/-- It holds at the first point and at no other: decided over the grid. -/
theorem hcond0 : ∀ t : Fin cfg0.N, cond0 (grid0.coords t) ↔ t.val = 0 :=
  (by decide +kernel : ∀ t : Fin grid0.N, cond0 (grid0.coords t) ↔ t.val = 0)

/-! ## The memory references the body is called with -/

abbrev ms0 (t : Fin cfg0.N) : Memref sig .tc .vmem S2048x9 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x9 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)

/-- The four accumulators: whole buffers of the kernel's own, passed beside the windows. -/
abbrev sc0 : Memref sig .tc .vmem S1x1 .f32 := Memref.whole cc0_scratch0
abbrev sc1 : Memref sig .tc .vmem S1x1 .f32 := Memref.whole cc0_scratch1
abbrev sc2 : Memref sig .tc .vmem S1x1 .f32 := Memref.whole cc0_scratch2
abbrev sc3 : Memref sig .tc .vmem S1x1 .f32 := Memref.whole cc0_scratch3

/-- One staging buffer of each output window and each accumulator, as a view: contents are stated through it (pieces
    that cover a buffer read back the same through any view of that shape). -/
abbrev VO2 : View sig .tc .vmem S2048x1 .f32 := (Memref.whole cc0_stg2_0 : Memref sig .tc .vmem S2048x1 .f32).view
abbrev VO3 : View sig .tc .vmem S2048x1 .f32 := (Memref.whole cc0_stg3_0 : Memref sig .tc .vmem S2048x1 .f32).view
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view
abbrev VO6 : View sig .tc .vmem S1x1 .f32 := (Memref.whole cc0_stg6_0 : Memref sig .tc .vmem S1x1 .f32).view
abbrev VO7 : View sig .tc .vmem S1x1 .f32 := (Memref.whole cc0_stg7_0 : Memref sig .tc .vmem S1x1 .f32).view
abbrev VS0 : View sig .tc .vmem S1x1 .f32 := sc0.view
abbrev VS1 : View sig .tc .vmem S1x1 .f32 := sc1.view
abbrev VS2 : View sig .tc .vmem S1x1 .f32 := sc2.view
abbrev VS3 : View sig .tc .vmem S1x1 .f32 := sc3.view

/-! ## The invariant the region is entered with -/

/-- The scoped buffers this region never touches (the second pass's staging buffers), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The entry invariant, opened: each accumulator owned at some contents, the untouched buffers, the generator register
    at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ others c) ∗ (∃ r, prngReg c r)) := by
  unfold Pipeline.ΦA; rw [scopedRest0_eq]; unfold others; simp only [sc0, sc1, sc2, sc3, owns_whole]; try rfl

end Cert.Kernel.Frame0

end
-- ==== Proof.Pass1RunABits.lean ====
/-
  The first pass's body at the first grid point: the accumulators come in at anything and are set to zero before the tile's
  partial sums are added. The run finds, for every buffer the body stores into, the pieces it ends with (last store first).
-/
import proofs.«177650_j67585605370461_2_alg».proof.Proof.Pass1RunsBits

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the two inputs at their contents `x0`, `x1`, the six outputs and the four accumulators at anything —
    the body, its branch taken, runs to the continuation holding the inputs as they were and every other buffer with its pieces
    written. The pieces are the witness the run finds. -/
noncomputable def kernelRun0_A (c : Dev nD) (i : grid0.Coords) (arg1 : Memref sig .tc .vmem S2048x9 .f32) (harg1 : arg1.IsWhole) (arg2 : Memref sig .tc .vmem S2048x9 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0 i)
    (x0 x1 : Vec F S2048x9 .f32) :
    Σ' (L3 L4 : List (View.Piece (Elt F) S2048x1 .f32)) (L5 L6 L7 L8 LS0 LS1 LS2 : List (View.Piece (Elt F) S1x1 .f32)), { LS3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton]
    unfold owns
    iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf1; obtain rfl := harg2.eq_unread hf2
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.Kernel.Frame0

end
-- ==== Proof.Pass1RunBBits.lean ====
/-
  The first pass's body at a grid point after the first: the accumulators come in holding what the point before left.
  The run finds, for every buffer the body stores into, the pieces it ends with (last store first): the two [2048,1] outputs
  (the classes, the centre pixels), the four one-entry outputs, and the four accumulators.
-/
import proofs.«177650_j67585605370461_2_alg».proof.Proof.Pass1RunsBits

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memory references — the two inputs at their contents `x0`, `x1`, the six outputs at anything, the four accumulators at
    `xs0 … xs3` — the body, its branch not taken, runs to the continuation holding the inputs as they were and every other buffer with
    its pieces written. The pieces are the witness the run finds. -/
noncomputable def kernelRun0_B (c : Dev nD) (i : grid0.Coords) (arg1 : Memref sig .tc .vmem S2048x9 .f32) (harg1 : arg1.IsWhole) (arg2 : Memref sig .tc .vmem S2048x9 .f32) (harg2 : arg2.IsWhole) (arg3 : Memref sig .tc .vmem S2048x1 .f32) (harg3 : arg3.IsWhole) (arg4 : Memref sig .tc .vmem S2048x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0 i)
    (x0 x1 : Vec F S2048x9 .f32) (xs0 xs1 xs2 xs3 : Vec F S1x1 .f32) :
    Σ' (L3 L4 : List (View.Piece (Elt F) S2048x1 .f32)) (L5 L6 L7 L8 LS0 LS1 LS2 : List (View.Piece (Elt F) S1x1 .f32)), { LS3 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, ?_, ?_, fun E K => ?run⟩
  case run =>
    simp only [cc0__pass1_kernel_eq_skeleton]; unfold cc0__pass1_kernel_skel
    simp only [k0_part1_eq_skeleton, k0_part2_eq_skeleton]
    unfold owns
    iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg1.eq_unread hf1; obtain rfl := harg2.eq_unread hf2
    obtain rfl := harg9.eq_unread hfs0; obtain rfl := harg10.eq_unread hfs1; obtain rfl := harg11.eq_unread hfs2; obtain rfl := harg12.eq_unread hfs3
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.Kernel.Frame0

end
-- ==== Proof.Pass1FrameBits.lean ====
/-
  The first pass as a region of the program: what its outputs and its four accumulators hold after every grid point, the
  invariant that carries the accumulators from point to point, and the body's obligation at a generic point.

  At the first point the body zeroes the accumulators and adds the tile's partial sums (case A); at every later point it
  adds them to what the point before left (case B). `stepA` / `stepB` read back, buffer by buffer, the pieces the case's run
  ends with; `outsAt0` is the accumulation over the points; the invariant before a point that is not the first owns each
  accumulator at what the point before left in it; the proof data put the inputs' blocks and `outsAt0`'s components after each
  point. Everything is stated at a parameter `V`, the buffer contents when the region is entered.
-/
import proofs.«177650_j67585605370461_2_alg».proof.Proof.Pass1RunABits
import proofs.«177650_j67585605370461_2_alg».proof.Proof.Pass1RunBBits

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What a case leaves in each buffer -/

/-- The contents of the six output staging buffers (windows 2 … 7) and the four accumulators after the body at a point. -/
structure St (F : FTy → Type) where
  o2 : Vec F S2048x1 .f32
  o3 : Vec F S2048x1 .f32
  o4 : Vec F S1x1 .f32
  o5 : Vec F S1x1 .f32
  o6 : Vec F S1x1 .f32
  o7 : Vec F S1x1 .f32
  s0 : Vec F S1x1 .f32
  s1 : Vec F S1x1 .f32
  s2 : Vec F S1x1 .f32
  s3 : Vec F S1x1 .f32

/-- Case A (the first point) at point `t` on the input blocks `x0`, `x1`: each buffer's pieces read back. -/
def stepA (c : Dev nD) (t : Fin cfg0.N) (h : cond0 (grid0.coords t)) (x0 x1 : Vec F S2048x9 .f32) : St F :=
  { o2 := VO2.read (Elt F) (VO2.writes (Elt F) VO2.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1)
    o3 := VO3.read (Elt F) (VO3.writes (Elt F) VO3.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1)
    o4 := VO4.read (Elt F) (VO4.writes (Elt F) VO4.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1)
    o5 := VO5.read (Elt F) (VO5.writes (Elt F) VO5.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1)
    o6 := VO6.read (Elt F) (VO6.writes (Elt F) VO6.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1)
    o7 := VO7.read (Elt F) (VO7.writes (Elt F) VO7.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1)
    s0 := VS0.read (Elt F) (VS0.writes (Elt F) VS0.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1)
    s1 := VS1.read (Elt F) (VS1.writes (Elt F) VS1.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1)
    s2 := VS2.read (Elt F) (VS2.writes (Elt F) VS2.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1)
    s3 := VS3.read (Elt F) (VS3.writes (Elt F) VS3.junk (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1) }

/-- Case B (a later point) at point `t` on the input blocks and the accumulators' contents: each buffer's pieces read back. -/
def stepB (c : Dev nD) (t : Fin cfg0.N) (h : ¬cond0 (grid0.coords t)) (x0 x1 : Vec F S2048x9 .f32) (xs0 xs1 xs2 xs3 : Vec F S1x1 .f32) : St F :=
  { o2 := VO2.read (Elt F) (VO2.writes (Elt F) VO2.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1)
    o3 := VO3.read (Elt F) (VO3.writes (Elt F) VO3.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1)
    o4 := VO4.read (Elt F) (VO4.writes (Elt F) VO4.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1)
    o5 := VO5.read (Elt F) (VO5.writes (Elt F) VO5.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1)
    o6 := VO6.read (Elt F) (VO6.writes (Elt F) VO6.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1)
    o7 := VO7.read (Elt F) (VO7.writes (Elt F) VO7.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1)
    s0 := VS0.read (Elt F) (VS0.writes (Elt F) VS0.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1)
    s1 := VS1.read (Elt F) (VS1.writes (Elt F) VS1.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1)
    s2 := VS2.read (Elt F) (VS2.writes (Elt F) VS2.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1)
    s3 := VS3.read (Elt F) (VS3.writes (Elt F) VS3.junk (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1) }

/-- Each buffer's pieces tile it (one whole store last), so they cover it. -/
theorem coverA_o2 (c : Dev nD) (t : Fin cfg0.N) (h : cond0 (grid0.coords t)) (x0 x1 : Vec F S2048x9 .f32) (y : S2048x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1 S2048x1.size (by sl_kernel_rfl) y
theorem coverB_o2 (c : Dev nD) (t : Fin cfg0.N) (h : ¬cond0 (grid0.coords t)) (x0 x1 : Vec F S2048x9 .f32) (xs0 xs1 xs2 xs3 : Vec F S1x1 .f32) (y : S2048x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1 S2048x1.size (by sl_kernel_rfl) y
theorem coverA_o3 (c : Dev nD) (t : Fin cfg0.N) (h : cond0 (grid0.coords t)) (x0 x1 : Vec F S2048x9 .f32) (y : S2048x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1 S2048x1.size (by sl_kernel_rfl) y
theorem coverB_o3 (c : Dev nD) (t : Fin cfg0.N) (h : ¬cond0 (grid0.coords t)) (x0 x1 : Vec F S2048x9 .f32) (xs0 xs1 xs2 xs3 : Vec F S1x1 .f32) (y : S2048x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1 S2048x1.size (by sl_kernel_rfl) y
theorem coverA_o4 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1 S1x1.size (by sl_kernel_rfl) y
theorem coverB_o4 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1 S1x1.size (by sl_kernel_rfl) y
theorem coverA_o5 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1 S1x1.size (by sl_kernel_rfl) y
theorem coverB_o5 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1 S1x1.size (by sl_kernel_rfl) y
theorem coverA_o6 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1 S1x1.size (by sl_kernel_rfl) y
theorem coverB_o6 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1 S1x1.size (by sl_kernel_rfl) y
theorem coverA_o7 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1 S1x1.size (by sl_kernel_rfl) y
theorem coverB_o7 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1 S1x1.size (by sl_kernel_rfl) y
theorem coverA_s0 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1 S1x1.size (by sl_kernel_rfl) y
theorem coverB_s0 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1 S1x1.size (by sl_kernel_rfl) y
theorem coverA_s1 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1 S1x1.size (by sl_kernel_rfl) y
theorem coverB_s1 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1 S1x1.size (by sl_kernel_rfl) y
theorem coverA_s2 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1 S1x1.size (by sl_kernel_rfl) y
theorem coverB_s2 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1 S1x1.size (by sl_kernel_rfl) y
theorem coverA_s3 (c : Dev nD) (t : Fin cfg0.N) (h : cond0 (grid0.coords t)) (x0 x1 : Vec F S2048x9 .f32) (y : S1x1.Idx) :
    ∃ pc ∈ (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1, y ∈ pc.1.set :=
  View.cover_of_tiledL (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1 S1x1.size (by sl_kernel_rfl) y
theorem coverB_s3 (c : Dev nD) (t : Fin cfg0.N) (h : ¬cond0 (grid0.coords t)) (x0 x1 : Vec F S2048x9 .f32) (xs0 xs1 xs2 xs3 : Vec F S1x1 .f32) (y : S1x1.Idx) :
    ∃ pc ∈ (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1, y ∈ pc.1.set :=
  View.cover_of_tiledL (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1 S1x1.size (by sl_kernel_rfl) y

/-! ## What the buffers hold after each point -/

/-- THE ACCUMULATION: the buffers after the body at position `n` — at the first point case A on the point's input blocks, later
    case B on them and on the accumulators as the point before left them. -/
def outsAt0 (c : Dev nD) : (n : ℕ) → n < cfg0.N → St F
  | 0, hn => stepA c ⟨0, hn⟩ ((hcond0 ⟨0, hn⟩).mpr rfl) (iblk0 V c 0 ⟨0, hn⟩) (iblk0 V c 1 ⟨0, hn⟩)
  | n + 1, hn => stepB c ⟨n + 1, hn⟩ (fun h => absurd ((hcond0 ⟨n + 1, hn⟩).mp h) (Nat.succ_ne_zero n)) (iblk0 V c 0 ⟨n + 1, hn⟩) (iblk0 V c 1 ⟨n + 1, hn⟩)
      (outsAt0 c n (Nat.lt_of_succ_lt hn)).s0 (outsAt0 c n (Nat.lt_of_succ_lt hn)).s1 (outsAt0 c n (Nat.lt_of_succ_lt hn)).s2 (outsAt0 c n (Nat.lt_of_succ_lt hn)).s3

theorem outsAt0_A (c : Dev nD) (t : Fin cfg0.N) (h0 : t.val = 0) :
    outsAt0 V c t.val t.isLt = stepA c t ((hcond0 t).mpr h0) (iblk0 V c 0 t) (iblk0 V c 1 t) := by
  obtain ⟨n, hn⟩ := t
  cases n with
  | zero => rfl
  | succ n => exact absurd h0 (Nat.succ_ne_zero n)

theorem outsAt0_B (c : Dev nD) (t : Fin cfg0.N) (h0 : ¬t.val = 0) :
    outsAt0 V c t.val t.isLt = stepB c t (fun h => h0 ((hcond0 t).mp h)) (iblk0 V c 0 t) (iblk0 V c 1 t)
      (outsAt0 V c (t.val - 1) (Nat.lt_of_le_of_lt (Nat.sub_le _ _) t.isLt)).s0 (outsAt0 V c (t.val - 1) (Nat.lt_of_le_of_lt (Nat.sub_le _ _) t.isLt)).s1
      (outsAt0 V c (t.val - 1) (Nat.lt_of_le_of_lt (Nat.sub_le _ _) t.isLt)).s2 (outsAt0 V c (t.val - 1) (Nat.lt_of_le_of_lt (Nat.sub_le _ _) t.isLt)).s3 := by
  obtain ⟨n, hn⟩ := t
  cases n with
  | zero => exact absurd rfl h0
  | succ n => rfl

/-! ## The invariant -/

/-- Before position `n`: at the first point what the region is entered with (every accumulator at anything); afterwards each
    accumulator at what the point before left in it, the untouched buffers and the generator register. -/
def PhiS (c : Dev nD) : (n : ℕ) → n ≤ cfg0.N → sProp 𝕄
  | 0, _ => Pipeline.ΦA spec0 c
  | n + 1, hn => iprop(iprop(owns (c : Thread nD τ) sc0 fullShare ((outsAt0 V c n hn).s0) ∗ owns (c : Thread nD τ) sc1 fullShare ((outsAt0 V c n hn).s1) ∗ owns (c : Thread nD τ) sc2 fullShare ((outsAt0 V c n hn).s2) ∗ owns (c : Thread nD τ) sc3 fullShare ((outsAt0 V c n hn).s3) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) sc0 fullShare ((outsAt0 V c n hn).s0) ∗ owns (c : Thread nD τ) sc1 fullShare ((outsAt0 V c n hn).s1) ∗ owns (c : Thread nD τ) sc2 fullShare ((outsAt0 V c n hn).s2) ∗ owns (c : Thread nD τ) sc3 fullShare ((outsAt0 V c n hn).s3) ∗ others c) ∗ (∃ r, prngReg c r)) := rfl

theorem PhiS_pos (c : Dev nD) (n : ℕ) (h : n ≤ cfg0.N) (hz : n ≠ 0) :
    PhiS V c n h = iprop(iprop(owns (c : Thread nD τ) sc0 fullShare ((outsAt0 V c (n - 1) (by omega)).s0) ∗ owns (c : Thread nD τ) sc1 fullShare ((outsAt0 V c (n - 1) (by omega)).s1) ∗ owns (c : Thread nD τ) sc2 fullShare ((outsAt0 V c (n - 1) (by omega)).s2) ∗ owns (c : Thread nD τ) sc3 fullShare ((outsAt0 V c (n - 1) (by omega)).s3) ∗ others c) ∗ (∃ r, prngReg c r)) := by
  cases n with
  | zero => exact absurd rfl hz
  | succ n => rfl

/-! ## The proof data -/

/-- The region's proof data on core `c`: the arrays as the region finds them; after the body at point `t` each input's buffer at
    its block and each output's at `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).o2
    | ⟨3, _⟩ => (outsAt0 V c t.val t.isLt).o3
    | ⟨4, _⟩ => (outsAt0 V c t.val t.isLt).o4
    | ⟨5, _⟩ => (outsAt0 V c t.val t.isLt).o5
    | ⟨6, _⟩ => (outsAt0 V c t.val t.isLt).o6
    | ⟨7, _⟩ => (outsAt0 V c t.val t.isLt).o7
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).o2 := by dsimp only [dat0]
theorem after0_3 (c : Dev nD) (t : Fin cfg0.N) : (dat0 V c).after 3 t = (outsAt0 V c t.val t.isLt).o3 := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]
theorem after0_6 (c : Dev nD) (t : Fin cfg0.N) : (dat0 V c).after 6 t = (outsAt0 V c t.val t.isLt).o6 := by dsimp only [dat0]
theorem after0_7 (c : Dev nD) (t : Fin cfg0.N) : (dat0 V c).after 7 t = (outsAt0 V c t.val t.isLt).o7 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Frame0

end
-- ==== Proof.Pass2FrameBits.lean ====
/- The second pallas_call's half of the frame: the resolving pass, whose body loads its three input blocks whole
   (the two means, the classes, the centre pixels) and stores its one output block whole. Everything is stated at a
   parameter `V`, the TensorCore's buffer contents when the region is entered: each window's block at a point, what
   the body leaves in the output window's buffer, the body's triple, the pipeline's proof data and the body
   obligation at every point. -/
import proofs.«177650_j67585605370461_2_alg».proof.Proof.Gen.Kernel.Launch
import proofs.«177650_j67585605370461_2_alg».proof.Proof.Gen.Kernel.Skeleton
import proofs.«177650_j67585605370461_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there,
    for any proof data whose array is the entry contents' (`hA`) and whose body leaves the block in place
    (`hafter`): where the window is not fetched its block index has not moved, so the previous point's block is
    this point's. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not it was fetched there,
    for any proof data whose array is the entry contents' (`hA`) and whose body leaves the block in place
    (`hafter`): where the window is not fetched its block index has not moved, so the previous point's block is
    this point's. The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not it was fetched there,
    for any proof data whose array is the entry contents' (`hA`) and whose body leaves the block in place
    (`hafter`): where the window is not fetched its block index has not moved, so the previous point's block is
    this point's. The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of the two means. -/
abbrev rA : Rect S1x2 := Rect.unit (s := S1x2) ![0, 0] S1x2.size inb_S1x2_S1x2_0_0
/-- The whole block of a column of 2048 entries (the classes, the centre pixels, the result). -/
abbrev rC : Rect S2048x1 := Rect.unit (s := S2048x1) ![0, 0] S2048x1.size inb_S2048x1_S2048x1_0_0

/-! ## What the body leaves in the output window's buffer -/

/-- Window 3's staging buffer after the body, from the input windows' blocks: its one store, of the whole block, of
    the resolved classes computed from the three blocks read whole. -/
def out1_3 (x0 : Vec F S1x2 .f32) (x1 x2 : Vec F S2048x1 .f32) : Vec F S2048x1 .f32 :=
  View.canon [⟨rC, k1_pay1 (View.ld x0 rA) (View.ld x1 rC) (View.ld x2 rC)⟩]

/-- Its one store tiles the buffer, so it covers it. -/
theorem cover1_3 (p0 : Vec F S2048x1 .f32) (y : S2048x1.Idx) :
    ∃ pc ∈ ([⟨rC, p0⟩] : List (View.Piece (Elt F) S2048x1 .f32)), y ∈ pc.1.set :=
  View.cover_of_tiled [⟨rC, p0⟩] S2048x1.size (by rfl) y

/-! ## The body's triple -/

set_option maxHeartbeats 1000000 in
/-- The body on whole staging memrefs, the inputs' at read contents `x0 x1 x2` and the output's at anything, runs to
    the continuation holding the inputs' as they were and the output's at `out1_3` of the inputs': three whole loads,
    a load of the output's buffer whose value is not used, and one whole store. -/
theorem sound_kernel1 (c : Dev nD) (E : Set ℕ) (i : grid1.Coords) (arg1 : Memref sig .tc .vmem S1x2 .f32) (harg1 : arg1.IsWhole) (arg2 : Memref sig .tc .vmem S2048x1 .f32) (harg2 : arg2.IsWhole) (arg3 : Memref sig .tc .vmem S2048x1 .f32) (harg3 : arg3.IsWhole) (arg4 : Memref sig .tc .vmem S2048x1 .f32) (harg4 : arg4.IsWhole)
    (x0 : Vec F S1x2 .f32) (x1 : Vec F S2048x1 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the resolving pass's pipeline on core `c`: the arrays as the region finds them (`V`); after
    the body at point `t` each input's buffer at its block and the output's at `out1_3` of the input blocks; the
    invariant leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected, never unfolding `V`). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. The means' window is
    fetched at the first point only; its block index never moves, so the block it holds is every point's. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame1

end
-- ==== Proof.FrameFoldBits.lean ====
/-
  The buffer contents at every boundary of the program, as a fold from the launch memory: a host stretch applies its
  operations; a region leaves each of its arrays at what its write-backs leave (the proof data's array after the last point) and
  every other buffer as it found it. The argument arrays walk back through the fold to the launch memory: no host operation
  writes one and no region has one among its arrays.
-/
import proofs.«177650_j67585605370461_2_alg».proof.Proof.Pass1FrameBits
import proofs.«177650_j67585605370461_2_alg».proof.Proof.Pass2FrameBits

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pass's exit: its arrays at what the pipeline leaves, every other buffer as entered. -/
def W2 (c : Dev nD) : Valuation τ sig (Elt F) :=
  Pipeline.withArrays spec0 c (W1 m ρ c) fun w => (Frame0.dat0 (V1 m ρ) c).arrAt w cfg0.N
theorem W2_arr (c : Dev nD) (w : Fin cfg0.W) :
    W2 m ρ c (Proc.devRef .tc (Pipeline.arrRef spec0 w)) = (Frame0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Frame0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the passes (the second pass's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second pass's exit. -/
def W4 (c : Dev nD) : Valuation τ sig (Elt F) :=
  Pipeline.withArrays spec1 c (W3 m ρ c) fun w => (Frame1.dat1 (V3 m ρ) c).arrAt w cfg1.N
theorem W4_arr (c : Dev nD) (w : Fin cfg1.W) :
    W4 m ρ c (Proc.devRef .tc (Pipeline.arrRef spec1 w)) = (Frame1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Frame1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final reshape (the return). -/
abbrev W5 : Dev nD → Valuation τ sig (Elt F) := fun c => StableHlo.after hostOps2 (W4 m ρ c)

/-! ### The arguments end as launched: no host operation writes one and no region has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

end Cert.Kernel.Run

end
-- ==== Proof.Pass1BodyBits.lean ====
/-
  The first pass's body obligation at a generic grid point, and the way into and out of the invariant that carries the four
  accumulators: at the first point the invariant hands the accumulators over at anything and the first case's run applies; at a
  later point it hands them over at what the point before left and the second case's run applies; either way the invariant takes
  them back at this point's contents and each output buffer holds its pieces read back.
-/
import proofs.«177650_j67585605370461_2_alg».proof.Proof.Pass1FrameBits

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t)
    ∗ owns (c : Thread nD τ) (ms4 t) fullShare ((dat0 V c).after 4 t)
    ∗ owns (c : Thread nD τ) (ms5 t) fullShare ((dat0 V c).after 5 t)
    ∗ owns (c : Thread nD τ) (ms6 t) fullShare ((dat0 V c).after 6 t)
    ∗ owns (c : Thread nD τ) (ms7 t) fullShare ((dat0 V c).after 7 t))

/-! ### Each buffer's pieces read back through the buffer's own view -/

theorem rbA_o2 (c : Dev nD) (t : Fin cfg0.N) (h : cond0 (grid0.coords t)) (x0 x1 : Vec F S2048x9 .f32) (g) :
    (ms2 t).view.read (Elt F) ((ms2 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).1) = (stepA c t h x0 x1).o2 := by
  unfold stepA; dsimp only
  exact View.read_writes_of_cover _ _ _ _ _ (coverA_o2 c t h x0 x1)
theorem rbB_o2 (c : Dev nD) (t : Fin cfg0.N) (h : ¬cond0 (grid0.coords t)) (x0 x1 : Vec F S2048x9 .f32) (xs0 xs1 xs2 xs3 : Vec F S1x1 .f32) (g) :
    (ms2 t).view.read (Elt F) ((ms2 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).1) = (stepB c t h x0 x1 xs0 xs1 xs2 xs3).o2 := by
  unfold stepB; dsimp only
  exact View.read_writes_of_cover _ _ _ _ _ (coverB_o2 c t h x0 x1 xs0 xs1 xs2 xs3)
theorem rbA_o3 (c : Dev nD) (t : Fin cfg0.N) (h : cond0 (grid0.coords t)) (x0 x1 : Vec F S2048x9 .f32) (g) :
    (ms3 t).view.read (Elt F) ((ms3 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.1) = (stepA c t h x0 x1).o3 := by
  unfold stepA; dsimp only
  exact View.read_writes_of_cover _ _ _ _ _ (coverA_o3 c t h x0 x1)
theorem rbB_o3 (c : Dev nD) (t : Fin cfg0.N) (h : ¬cond0 (grid0.coords t)) (x0 x1 : Vec F S2048x9 .f32) (xs0 xs1 xs2 xs3 : Vec F S1x1 .f32) (g) :
    (ms3 t).view.read (Elt F) ((ms3 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.1) = (stepB c t h x0 x1 xs0 xs1 xs2 xs3).o3 := by
  unfold stepB; dsimp only
  exact View.read_writes_of_cover _ _ _ _ _ (coverB_o3 c t h x0 x1 xs0 xs1 xs2 xs3)
theorem rbA_o4 (c : Dev nD) (t : Fin cfg0.N) (h : cond0 (grid0.coords t)) (x0 x1 : Vec F S2048x9 .f32) (g) :
    (ms4 t).view.read (Elt F) ((ms4 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.1) = (stepA c t h x0 x1).o4 := by
  unfold stepA; dsimp only
  exact View.read_writes_of_cover _ _ _ _ _ (coverA_o4 c t h x0 x1)
theorem rbB_o4 (c : Dev nD) (t : Fin cfg0.N) (h : ¬cond0 (grid0.coords t)) (x0 x1 : Vec F S2048x9 .f32) (xs0 xs1 xs2 xs3 : Vec F S1x1 .f32) (g) :
    (ms4 t).view.read (Elt F) ((ms4 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.1) = (stepB c t h x0 x1 xs0 xs1 xs2 xs3).o4 := by
  unfold stepB; dsimp only
  exact View.read_writes_of_cover _ _ _ _ _ (coverB_o4 c t h x0 x1 xs0 xs1 xs2 xs3)
theorem rbA_o5 (c : Dev nD) (t : Fin cfg0.N) (h : cond0 (grid0.coords t)) (x0 x1 : Vec F S2048x9 .f32) (g) :
    (ms5 t).view.read (Elt F) ((ms5 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.1) = (stepA c t h x0 x1).o5 := by
  unfold stepA; dsimp only
  exact View.read_writes_of_cover _ _ _ _ _ (coverA_o5 c t h x0 x1)
theorem rbB_o5 (c : Dev nD) (t : Fin cfg0.N) (h : ¬cond0 (grid0.coords t)) (x0 x1 : Vec F S2048x9 .f32) (xs0 xs1 xs2 xs3 : Vec F S1x1 .f32) (g) :
    (ms5 t).view.read (Elt F) ((ms5 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.1) = (stepB c t h x0 x1 xs0 xs1 xs2 xs3).o5 := by
  unfold stepB; dsimp only
  exact View.read_writes_of_cover _ _ _ _ _ (coverB_o5 c t h x0 x1 xs0 xs1 xs2 xs3)
theorem rbA_o6 (c : Dev nD) (t : Fin cfg0.N) (h : cond0 (grid0.coords t)) (x0 x1 : Vec F S2048x9 .f32) (g) :
    (ms6 t).view.read (Elt F) ((ms6 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.1) = (stepA c t h x0 x1).o6 := by
  unfold stepA; dsimp only
  exact View.read_writes_of_cover _ _ _ _ _ (coverA_o6 c t h x0 x1)
theorem rbB_o6 (c : Dev nD) (t : Fin cfg0.N) (h : ¬cond0 (grid0.coords t)) (x0 x1 : Vec F S2048x9 .f32) (xs0 xs1 xs2 xs3 : Vec F S1x1 .f32) (g) :
    (ms6 t).view.read (Elt F) ((ms6 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.1) = (stepB c t h x0 x1 xs0 xs1 xs2 xs3).o6 := by
  unfold stepB; dsimp only
  exact View.read_writes_of_cover _ _ _ _ _ (coverB_o6 c t h x0 x1 xs0 xs1 xs2 xs3)
theorem rbA_o7 (c : Dev nD) (t : Fin cfg0.N) (h : cond0 (grid0.coords t)) (x0 x1 : Vec F S2048x9 .f32) (g) :
    (ms7 t).view.read (Elt F) ((ms7 t).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.1) = (stepA c t h x0 x1).o7 := by
  unfold stepA; dsimp only
  exact View.read_writes_of_cover _ _ _ _ _ (coverA_o7 c t h x0 x1)
theorem rbB_o7 (c : Dev nD) (t : Fin cfg0.N) (h : ¬cond0 (grid0.coords t)) (x0 x1 : Vec F S2048x9 .f32) (xs0 xs1 xs2 xs3 : Vec F S1x1 .f32) (g) :
    (ms7 t).view.read (Elt F) ((ms7 t).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.1) = (stepB c t h x0 x1 xs0 xs1 xs2 xs3).o7 := by
  unfold stepB; dsimp only
  exact View.read_writes_of_cover _ _ _ _ _ (coverB_o7 c t h x0 x1 xs0 xs1 xs2 xs3)
theorem rbA_s0 (c : Dev nD) (t : Fin cfg0.N) (h : cond0 (grid0.coords t)) (x0 x1 : Vec F S2048x9 .f32) (g) :
    (sc0).view.read (Elt F) ((sc0).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.1) = (stepA c t h x0 x1).s0 := by
  unfold stepA; dsimp only
  exact View.read_writes_of_cover _ _ _ _ _ (coverA_s0 c t h x0 x1)
theorem rbB_s0 (c : Dev nD) (t : Fin cfg0.N) (h : ¬cond0 (grid0.coords t)) (x0 x1 : Vec F S2048x9 .f32) (xs0 xs1 xs2 xs3 : Vec F S1x1 .f32) (g) :
    (sc0).view.read (Elt F) ((sc0).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.1) = (stepB c t h x0 x1 xs0 xs1 xs2 xs3).s0 := by
  unfold stepB; dsimp only
  exact View.read_writes_of_cover _ _ _ _ _ (coverB_s0 c t h x0 x1 xs0 xs1 xs2 xs3)
theorem rbA_s1 (c : Dev nD) (t : Fin cfg0.N) (h : cond0 (grid0.coords t)) (x0 x1 : Vec F S2048x9 .f32) (g) :
    (sc1).view.read (Elt F) ((sc1).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.1) = (stepA c t h x0 x1).s1 := by
  unfold stepA; dsimp only
  exact View.read_writes_of_cover _ _ _ _ _ (coverA_s1 c t h x0 x1)
theorem rbB_s1 (c : Dev nD) (t : Fin cfg0.N) (h : ¬cond0 (grid0.coords t)) (x0 x1 : Vec F S2048x9 .f32) (xs0 xs1 xs2 xs3 : Vec F S1x1 .f32) (g) :
    (sc1).view.read (Elt F) ((sc1).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.1) = (stepB c t h x0 x1 xs0 xs1 xs2 xs3).s1 := by
  unfold stepB; dsimp only
  exact View.read_writes_of_cover _ _ _ _ _ (coverB_s1 c t h x0 x1 xs0 xs1 xs2 xs3)
theorem rbA_s2 (c : Dev nD) (t : Fin cfg0.N) (h : cond0 (grid0.coords t)) (x0 x1 : Vec F S2048x9 .f32) (g) :
    (sc2).view.read (Elt F) ((sc2).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.1) = (stepA c t h x0 x1).s2 := by
  unfold stepA; dsimp only
  exact View.read_writes_of_cover _ _ _ _ _ (coverA_s2 c t h x0 x1)
theorem rbB_s2 (c : Dev nD) (t : Fin cfg0.N) (h : ¬cond0 (grid0.coords t)) (x0 x1 : Vec F S2048x9 .f32) (xs0 xs1 xs2 xs3 : Vec F S1x1 .f32) (g) :
    (sc2).view.read (Elt F) ((sc2).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.1) = (stepB c t h x0 x1 xs0 xs1 xs2 xs3).s2 := by
  unfold stepB; dsimp only
  exact View.read_writes_of_cover _ _ _ _ _ (coverB_s2 c t h x0 x1 xs0 xs1 xs2 xs3)
theorem rbA_s3 (c : Dev nD) (t : Fin cfg0.N) (h : cond0 (grid0.coords t)) (x0 x1 : Vec F S2048x9 .f32) (g) :
    (sc3).view.read (Elt F) ((sc3).view.writes (Elt F) g (kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1).2.2.2.2.2.2.2.2.2.1) = (stepA c t h x0 x1).s3 := by
  unfold stepA; dsimp only
  exact View.read_writes_of_cover _ _ _ _ _ (coverA_s3 c t h x0 x1)
theorem rbB_s3 (c : Dev nD) (t : Fin cfg0.N) (h : ¬cond0 (grid0.coords t)) (x0 x1 : Vec F S2048x9 .f32) (xs0 xs1 xs2 xs3 : Vec F S1x1 .f32) (g) :
    (sc3).view.read (Elt F) ((sc3).view.writes (Elt F) g (kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) h x0 x1 xs0 xs1 xs2 xs3).2.2.2.2.2.2.2.2.2.1) = (stepB c t h x0 x1 xs0 xs1 xs2 xs3).s3 := by
  unfold stepB; dsimp only
  exact View.read_writes_of_cover _ _ _ _ _ (coverB_s3 c t h x0 x1 xs0 xs1 xs2 xs3)

set_option maxHeartbeats 4800000 in
/-- The body at the first point: the invariant hands the accumulators over at anything; the case's run applies; the
    invariant takes the accumulators back at this point's contents and each output buffer holds its pieces read back. -/
theorem sound_body0_A (c : Dev nD) (t : Fin cfg0.N) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_zero V c _ _ hz, PhiA0_eq]
  have hO := outsAt0_A V c t hz
  iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) ((hcond0 t).mpr hz) (iblk0 V c 0 t) (iblk0 V c 1 t)).2.2.2.2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, ⟨%e2, H2⟩, ⟨%e3, H3⟩, ⟨%e4, H4⟩, ⟨%e5, H5⟩, ⟨%e6, H6⟩, ⟨%e7, H7⟩, ⟨%es0, HS0⟩, ⟨%es1, HS1⟩, ⟨%es2, HS2⟩, ⟨%es3, HS3⟩⟩
  isplitl [HS0 HS1 HS2 HS3 Hoth Hg]
  · isplitr [Hg]
    · isplitl [HS0]
      · unfold owns; iexists _; isplitr
        swap; · iexact HS0
        ipureintro; exact (rbA_s0 c t _ _ _ es0).trans (congrArg St.s0 hO.symm)
      isplitl [HS1]
      · unfold owns; iexists _; isplitr
        swap; · iexact HS1
        ipureintro; exact (rbA_s1 c t _ _ _ es1).trans (congrArg St.s1 hO.symm)
      isplitl [HS2]
      · unfold owns; iexists _; isplitr
        swap; · iexact HS2
        ipureintro; exact (rbA_s2 c t _ _ _ es2).trans (congrArg St.s2 hO.symm)
      isplitl [HS3]
      · unfold owns; iexists _; isplitr
        swap; · iexact HS3
        ipureintro; exact (rbA_s3 c t _ _ _ es3).trans (congrArg St.s3 hO.symm)
      iexact Hoth
    iexact Hg
  isplitl [Ho]; · iexact Ho
  isplitl [H0]; · rw [after0_0]; iexact H0
  isplitl [H1]; · rw [after0_1]; iexact H1
  isplitl [H2]
  · unfold owns; iexists _; isplitr
    swap; · iexact H2
    ipureintro; exact (rbA_o2 c t _ _ _ e2).trans ((congrArg St.o2 hO.symm).trans (after0_2 V c t).symm)
  isplitl [H3]
  · unfold owns; iexists _; isplitr
    swap; · iexact H3
    ipureintro; exact (rbA_o3 c t _ _ _ e3).trans ((congrArg St.o3 hO.symm).trans (after0_3 V c t).symm)
  isplitl [H4]
  · unfold owns; iexists _; isplitr
    swap; · iexact H4
    ipureintro; exact (rbA_o4 c t _ _ _ e4).trans ((congrArg St.o4 hO.symm).trans (after0_4 V c t).symm)
  isplitl [H5]
  · unfold owns; iexists _; isplitr
    swap; · iexact H5
    ipureintro; exact (rbA_o5 c t _ _ _ e5).trans ((congrArg St.o5 hO.symm).trans (after0_5 V c t).symm)
  isplitl [H6]
  · unfold owns; iexists _; isplitr
    swap; · iexact H6
    ipureintro; exact (rbA_o6 c t _ _ _ e6).trans ((congrArg St.o6 hO.symm).trans (after0_6 V c t).symm)
  unfold owns; iexists _; isplitr
  swap; · iexact H7
  ipureintro; exact (rbA_o7 c t _ _ _ e7).trans ((congrArg St.o7 hO.symm).trans (after0_7 V c t).symm)

set_option maxHeartbeats 4800000 in
/-- The body at a later point: the invariant hands the accumulators over at what the point before left; the case's run applies; the
    invariant takes the accumulators back at this point's contents and each output buffer holds its pieces read back. -/
theorem sound_body0_B (c : Dev nD) (t : Fin cfg0.N) (hz : ¬t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [PhiS_castSucc V c t, PhiS_pos V c _ _ hz]
  have hO := outsAt0_B V c t hz
  iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) (fun h => hz ((hcond0 t).mp h)) (iblk0 V c 0 t) (iblk0 V c 1 t) _ _ _ _).2.2.2.2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, ⟨%e2, H2⟩, ⟨%e3, H3⟩, ⟨%e4, H4⟩, ⟨%e5, H5⟩, ⟨%e6, H6⟩, ⟨%e7, H7⟩, ⟨%es0, HS0⟩, ⟨%es1, HS1⟩, ⟨%es2, HS2⟩, ⟨%es3, HS3⟩⟩
  isplitl [HS0 HS1 HS2 HS3 Hoth Hg]
  · isplitr [Hg]
    · isplitl [HS0]
      · unfold owns; iexists _; isplitr
        swap; · iexact HS0
        ipureintro; exact (rbB_s0 c t _ _ _ _ _ _ _ es0).trans (congrArg St.s0 hO.symm)
      isplitl [HS1]
      · unfold owns; iexists _; isplitr
        swap; · iexact HS1
        ipureintro; exact (rbB_s1 c t _ _ _ _ _ _ _ es1).trans (congrArg St.s1 hO.symm)
      isplitl [HS2]
      · unfold owns; iexists _; isplitr
        swap; · iexact HS2
        ipureintro; exact (rbB_s2 c t _ _ _ _ _ _ _ es2).trans (congrArg St.s2 hO.symm)
      isplitl [HS3]
      · unfold owns; iexists _; isplitr
        swap; · iexact HS3
        ipureintro; exact (rbB_s3 c t _ _ _ _ _ _ _ es3).trans (congrArg St.s3 hO.symm)
      iexact Hoth
    iexact Hg
  isplitl [Ho]; · iexact Ho
  isplitl [H0]; · rw [after0_0]; iexact H0
  isplitl [H1]; · rw [after0_1]; iexact H1
  isplitl [H2]
  · unfold owns; iexists _; isplitr
    swap; · iexact H2
    ipureintro; exact (rbB_o2 c t _ _ _ _ _ _ _ e2).trans ((congrArg St.o2 hO.symm).trans (after0_2 V c t).symm)
  isplitl [H3]
  · unfold owns; iexists _; isplitr
    swap; · iexact H3
    ipureintro; exact (rbB_o3 c t _ _ _ _ _ _ _ e3).trans ((congrArg St.o3 hO.symm).trans (after0_3 V c t).symm)
  isplitl [H4]
  · unfold owns; iexists _; isplitr
    swap; · iexact H4
    ipureintro; exact (rbB_o4 c t _ _ _ _ _ _ _ e4).trans ((congrArg St.o4 hO.symm).trans (after0_4 V c t).symm)
  isplitl [H5]
  · unfold owns; iexists _; isplitr
    swap; · iexact H5
    ipureintro; exact (rbB_o5 c t _ _ _ _ _ _ _ e5).trans ((congrArg St.o5 hO.symm).trans (after0_5 V c t).symm)
  isplitl [H6]
  · unfold owns; iexists _; isplitr
    swap; · iexact H6
    ipureintro; exact (rbB_o6 c t _ _ _ _ _ _ _ e6).trans ((congrArg St.o6 hO.symm).trans (after0_6 V c t).symm)
  unfold owns; iexists _; isplitr
  swap; · iexact H7
  ipureintro; exact (rbB_o7 c t _ _ _ _ _ _ _ e7).trans ((congrArg St.o7 hO.symm).trans (after0_7 V c t).symm)

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound_body0_A V c t hz
  · exact sound_body0_B V c t hz

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hoth⟩, Hg⟩
  isplitr [Hg]
  · isplitl [HS0]; · iexists _; iexact HS0
    isplitl [HS1]; · iexists _; iexact HS1
    isplitl [HS2]; · iexists _; iexact HS2
    isplitl [HS3]; · iexists _; iexact HS3
    iexact Hoth
  iexact Hg

theorem hout0 (c : Dev nD) : (dat0 V c).Φ (Fin.last cfg0.N) ⊢ Pipeline.ΦA spec0 c :=
  Phi_out0 V c _ (by rw [Fin.val_last]; have : cfg0.N = 2048 := N_0; omega)

end Cert.Kernel.Frame0

end
-- ==== Proof.FrameRunBits.lean ====
/-
  The whole program as a run: two host stretches, the first pass, fourteen host operations that turn the four totals into the
  two means, the second pass, and the final reshape.

  The buffer contents at every boundary are a fold from the launch memory: a host stretch applies its operations; a region
  leaves each of its arrays at what its write-backs leave (the proof data's array after the last point) and every other
  buffer as it found it. The thread state between two items is "every unscoped buffer at the boundary's contents, the
  generator register at some state, nothing owed". Both regions are records over that state, the first with the invariant
  that carries the four accumulators, the second with the plain one. The run's post reads every unscoped buffer off the last
  boundary: the arguments walk back through the fold to the launch memory (no stretch and no region writes one), and the
  result buffer is the last stretch's reshape of what the second pass leaves.
-/
import proofs.«177650_j67585605370461_2_alg».proof.Proof.FrameFoldBits
import proofs.«177650_j67585605370461_2_alg».proof.Proof.Pass1BodyBits

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Frame0.dat0 (V1 m ρ) c
  | ⟨1, _⟩ => fun c => Frame1.dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as an item, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Region 0 over the thread state: entered from every unscoped buffer at `W1`, left at `W2`. Its arrays are split out
    of the unscoped buffers and put back at the exit contents; the generator register goes into the region's invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Frame0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Frame0.dat0 (V1 m ρ) c).Φ 0 from rfl]
    iintro ⟨Hp, -, Hr⟩
    iapply (Frame0.hin0 (V1 m ρ) c)
    unfold Pipeline.ΦA
    isplitl [Hr]; · iexact Hr
    iexact Hp
  hout c := by
    rw [Pipeline.ownSems0_none, show (pdats m ρ 0 c).Φ (Fin.last _) = (Frame0.dat0 (V1 m ρ) c).Φ (Fin.last cfg0.N) from rfl]
    have ho := Frame0.hout0 (V1 m ρ) c
    iintro H
    ihave H' := ho $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the region's invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Frame1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

/-- THE RUN WITH ITS RESULT: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Run

end
-- ==== Proof.Pass1Pieces.lean ====
/-
  What each case of the first pass's body leaves in each buffer, as the body's own arithmetic of what it loaded.

  The classes and the centre pixels depend on the tile's two input blocks alone. Each accumulator ends at its entry contents —
  zero at the first point — plus the tile's partial sum, and each of the four one-entry results is a copy of its accumulator.
-/
import proofs.«177650_j67585605370461_2_alg».proof.Proof.Pass1Frame
import Idealize.ShloMosaic.Lib.Pipeline.Value

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A load through the whole-shape rectangle of what the stores left reads the LAST store's payload when that store went
    through the whole-shape rectangle, whatever the earlier stores were. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## A later point: the accumulators come in at `xs0 … xs3` -/

theorem stepB_o2 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).o2 = k0_pay16 (k0_pay14 x1) (k0_pay15 x0 x1) (Scalar.ofBits .f32 0x00000000#32) (Scalar.ofBits .f32 0x3F800000#32) := by
  unfold stepB; dsimp only
  rw [View.read_writes_eq_canon _ _ _ (coverB_o2 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_o3 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).o3 = k0_pay17 (k0_pay7 x0) := by
  unfold stepB; dsimp only
  rw [View.read_writes_eq_canon _ _ _ (coverB_o3 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_s0 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).s0 = k0_pay22 (k0_pay7 x0) (k0_pay14 x1) (k0_pay15 x0 x1) (Scalar.ofBits .f32 0x00000000#32) (Scalar.ofBits .f32 0x3F800000#32) xs0 := by
  unfold stepB; dsimp only
  rw [View.read_writes_eq_canon _ _ _ (coverB_s0 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_s1 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).s1 = k0_pay23 (k0_pay14 x1) (k0_pay15 x0 x1) (Scalar.ofBits .f32 0x00000000#32) (Scalar.ofBits .f32 0x3F800000#32) xs1 := by
  unfold stepB; dsimp only
  rw [View.read_writes_eq_canon _ _ _ (coverB_s1 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_s2 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).s2 = k0_pay1 (k0_pay20 (k0_pay7 x0) (k0_pay14 x1) (k0_pay15 x0 x1) (Scalar.ofBits .f32 0x00000000#32) (Scalar.ofBits .f32 0x3F800000#32)) xs2 := by
  unfold stepB; dsimp only
  rw [View.read_writes_eq_canon _ _ _ (coverB_s2 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_s3 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).s3 = k0_pay2 (k0_pay21 (k0_pay14 x1) (k0_pay15 x0 x1) (Scalar.ofBits .f32 0x00000000#32) (Scalar.ofBits .f32 0x3F800000#32)) xs3 := by
  unfold stepB; dsimp only
  rw [View.read_writes_eq_canon _ _ _ (coverB_s3 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_o4 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).o4 = k0_pay22 (k0_pay7 x0) (k0_pay14 x1) (k0_pay15 x0 x1) (Scalar.ofBits .f32 0x00000000#32) (Scalar.ofBits .f32 0x3F800000#32) xs0 := by
  unfold stepB; dsimp only
  rw [View.read_writes_eq_canon _ _ _ (coverB_o4 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_o5 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).o5 = k0_pay23 (k0_pay14 x1) (k0_pay15 x0 x1) (Scalar.ofBits .f32 0x00000000#32) (Scalar.ofBits .f32 0x3F800000#32) xs1 := by
  unfold stepB; dsimp only
  rw [View.read_writes_eq_canon _ _ _ (coverB_o5 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_o6 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).o6 = k0_pay1 (k0_pay20 (k0_pay7 x0) (k0_pay14 x1) (k0_pay15 x0 x1) (Scalar.ofBits .f32 0x00000000#32) (Scalar.ofBits .f32 0x3F800000#32)) xs2 := by
  unfold stepB; dsimp only
  rw [View.read_writes_eq_canon _ _ _ (coverB_o6 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepB_o7 (c : Dev nD) (t : Fin cfg0.N) (h : ¬cond0 (grid0.coords t)) (x0 x1 : Vec F S2048x9 .f32) (xs0 xs1 xs2 xs3 : Vec F S1x1 .f32) :
    (stepB c t h x0 x1 xs0 xs1 xs2 xs3).o7 = k0_pay2 (k0_pay21 (k0_pay14 x1) (k0_pay15 x0 x1) (Scalar.ofBits .f32 0x00000000#32) (Scalar.ofBits .f32 0x3F800000#32)) xs3 := by
  unfold stepB; dsimp only
  rw [View.read_writes_eq_canon _ _ _ (coverB_o7 c t h x0 x1 xs0 xs1 xs2 xs3)]
  unfold kernelRun0_B; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]

/-! ## The first point: the accumulators are set to zero first -/

theorem stepA_o2 (c : Dev nD) (t : Fin cfg0.N) (h : cond0 (grid0.coords t)) (x0 x1 : Vec F S2048x9 .f32) :
    (stepA c t h x0 x1).o2 = k0_pay16 (k0_pay14 x1) (k0_pay15 x0 x1) (Scalar.ofBits .f32 0x00000000#32) (Scalar.ofBits .f32 0x3F800000#32) := by
  unfold stepA; dsimp only
  rw [View.read_writes_eq_canon _ _ _ (coverA_o2 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_o3 (c : Dev nD) (t : Fin cfg0.N) (h : cond0 (grid0.coords t)) (x0 x1 : Vec F S2048x9 .f32) :
    (stepA c t h x0 x1).o3 = k0_pay17 (k0_pay7 x0) := by
  unfold stepA; dsimp only
  rw [View.read_writes_eq_canon _ _ _ (coverA_o3 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_s0 (c : Dev nD) (t : Fin cfg0.N) (h : cond0 (grid0.coords t)) (x0 x1 : Vec F S2048x9 .f32) :
    (stepA c t h x0 x1).s0 = k0_pay22 (k0_pay7 x0) (k0_pay14 x1) (k0_pay15 x0 x1) (Scalar.ofBits .f32 0x00000000#32) (Scalar.ofBits .f32 0x3F800000#32) k0_pay3 := by
  unfold stepA; dsimp only
  rw [View.read_writes_eq_canon _ _ _ (coverA_s0 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_s1 (c : Dev nD) (t : Fin cfg0.N) (h : cond0 (grid0.coords t)) (x0 x1 : Vec F S2048x9 .f32) :
    (stepA c t h x0 x1).s1 = k0_pay23 (k0_pay14 x1) (k0_pay15 x0 x1) (Scalar.ofBits .f32 0x00000000#32) (Scalar.ofBits .f32 0x3F800000#32) k0_pay4 := by
  unfold stepA; dsimp only
  rw [View.read_writes_eq_canon _ _ _ (coverA_s1 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_s2 (c : Dev nD) (t : Fin cfg0.N) (h : cond0 (grid0.coords t)) (x0 x1 : Vec F S2048x9 .f32) :
    (stepA c t h x0 x1).s2 = k0_pay1 (k0_pay20 (k0_pay7 x0) (k0_pay14 x1) (k0_pay15 x0 x1) (Scalar.ofBits .f32 0x00000000#32) (Scalar.ofBits .f32 0x3F800000#32)) k0_pay5 := by
  unfold stepA; dsimp only
  rw [View.read_writes_eq_canon _ _ _ (coverA_s2 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_s3 (c : Dev nD) (t : Fin cfg0.N) (h : cond0 (grid0.coords t)) (x0 x1 : Vec F S2048x9 .f32) :
    (stepA c t h x0 x1).s3 = k0_pay2 (k0_pay21 (k0_pay14 x1) (k0_pay15 x0 x1) (Scalar.ofBits .f32 0x00000000#32) (Scalar.ofBits .f32 0x3F800000#32)) k0_pay6 := by
  unfold stepA; dsimp only
  rw [View.read_writes_eq_canon _ _ _ (coverA_s3 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_o4 (c : Dev nD) (t : Fin cfg0.N) (h : cond0 (grid0.coords t)) (x0 x1 : Vec F S2048x9 .f32) :
    (stepA c t h x0 x1).o4 = k0_pay22 (k0_pay7 x0) (k0_pay14 x1) (k0_pay15 x0 x1) (Scalar.ofBits .f32 0x00000000#32) (Scalar.ofBits .f32 0x3F800000#32) k0_pay3 := by
  unfold stepA; dsimp only
  rw [View.read_writes_eq_canon _ _ _ (coverA_o4 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_o5 (c : Dev nD) (t : Fin cfg0.N) (h : cond0 (grid0.coords t)) (x0 x1 : Vec F S2048x9 .f32) :
    (stepA c t h x0 x1).o5 = k0_pay23 (k0_pay14 x1) (k0_pay15 x0 x1) (Scalar.ofBits .f32 0x00000000#32) (Scalar.ofBits .f32 0x3F800000#32) k0_pay4 := by
  unfold stepA; dsimp only
  rw [View.read_writes_eq_canon _ _ _ (coverA_o5 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_o6 (c : Dev nD) (t : Fin cfg0.N) (h : cond0 (grid0.coords t)) (x0 x1 : Vec F S2048x9 .f32) :
    (stepA c t h x0 x1).o6 = k0_pay1 (k0_pay20 (k0_pay7 x0) (k0_pay14 x1) (k0_pay15 x0 x1) (Scalar.ofBits .f32 0x00000000#32) (Scalar.ofBits .f32 0x3F800000#32)) k0_pay5 := by
  unfold stepA; dsimp only
  rw [View.read_writes_eq_canon _ _ _ (coverA_o6 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]
theorem stepA_o7 (c : Dev nD) (t : Fin cfg0.N) (h : cond0 (grid0.coords t)) (x0 x1 : Vec F S2048x9 .f32) :
    (stepA c t h x0 x1).o7 = k0_pay2 (k0_pay21 (k0_pay14 x1) (k0_pay15 x0 x1) (Scalar.ofBits .f32 0x00000000#32) (Scalar.ofBits .f32 0x3F800000#32)) k0_pay6 := by
  unfold stepA; dsimp only
  rw [View.read_writes_eq_canon _ _ _ (coverA_o7 c t h x0 x1)]
  unfold kernelRun0_A; dsimp only
  sl_unfold_words
  simp only [View.canon_unit_zero (S := S2048x1) hz, View.canon_unit_zero (S := S1x1) hz, View.canon_cons_unit_zero (S := S1x1) hz, View.readCov_unit_zero (S := S1x1) _ hz, readCov_cons_unit_zero (S := S1x1) _ hz, View.readAt_eq_ld, (hs0 t).read_unread, (hs1 t).read_unread,
    (Memref.isWhole_whole cc0_scratch0).read_unread, (Memref.isWhole_whole cc0_scratch1).read_unread, (Memref.isWhole_whole cc0_scratch2).read_unread, (Memref.isWhole_whole cc0_scratch3).read_unread,
    View.ld_unit_zero (S := S2048x9) hz, View.ld_unit_zero (S := S2048x1) hz, View.ld_unit_zero (S := S1x1) hz]

end Cert.KernelIdeal.Frame0

end
-- ==== Proof.Spec.lean ====
/-
  The specification: what both programs compute, as ONE function of the two input arrays, index by index, on the
  extended reals.

  A patch is nine pixels `x` and nine edge values `e`. An edge value counts AGAINST the patch when it exceeds 1/2 and FOR it
  when it is not zero and does not exceed 1/2. The patch's class is 0 when both groups are non-empty and the mean pixel of
  the first group exceeds that of the second, 1 when both are non-empty and it does not, and 2 when a group is empty (a mean
  divides by the larger of the count and 1). Over all patches, `avgB` and `avgW` are the means of the centre pixel (pixel 4)
  over the patches of class 0 and of class 1. The result at a patch is its class, except that class 2 becomes 0 when the
  centre pixel is strictly nearer `avgB` than `avgW`, and 1 otherwise. Patch `n` is entry `(n / 2048, n % 2048)` of the
  result; its pixel `k` is entry `(n, k / 3, k % 3)` of the input.

  Comparisons and choices are spelt with the library's own scalar comparison `Ideal.cmp` and `Scalar.select`, and a one-bit
  mask enters arithmetic as the extended real 0 or 1 (`ofBit`), so that either program's term at an index lands here by
  the read-at-an-index lemmas alone. Sums are plain finite sums: a zero start value is `0 + _`.
-/
import Idealize.ShloMosaic.PureOps.Ideal
import Idealize.ShloMosaic.Lib.ValueIdx
import Mathlib.Algebra.BigOperators.Fin

noncomputable section

namespace Cert.Spec

open Idealize.ShloMosaic

/-- The numbers 0, 1, 2 and 1/2 as both programs spell them. -/
abbrev f0 : EReal := Ideal.ofBits .f32 0x00000000#32
abbrev f1 : EReal := Ideal.ofBits .f32 0x3F800000#32
abbrev f2 : EReal := Ideal.ofBits .f32 0x40000000#32
abbrev fh : EReal := Ideal.ofBits .f32 0x3F000000#32

/-- A one-bit mask as the extended real 0 or 1. -/
def ofBit (b : BitVec 1) : EReal := ((b.toNat : ℝ) : EReal)

/-- The edge value counts against the patch: it exceeds 1/2. -/
def dis (v : EReal) : BitVec 1 := Ideal.cmp .ogt v fh
/-- The edge value counts for the patch: it is not zero and does not exceed 1/2. -/
def acc (v : EReal) : BitVec 1 := Ideal.cmp .one v f0 &&& ~~~ dis v

section Patch
variable (x e : Fin 9 → EReal)

def cntDis : EReal := ∑ k, ofBit (dis (e k))
def cntAcc : EReal := ∑ k, ofBit (acc (e k))
def sumDis : EReal := ∑ k, x k * ofBit (dis (e k))
def sumAcc : EReal := ∑ k, x k * ofBit (acc (e k))
def meanDis : EReal := Ideal.div (sumDis x e) (max (cntDis e) f1)
def meanAcc : EReal := Ideal.div (sumAcc x e) (max (cntAcc e) f1)

/-- The patch's class: 0, 1 or 2. -/
def cls : EReal :=
  Scalar.select (Ideal.cmp .ogt (cntDis e) f0 &&& Ideal.cmp .ogt (cntAcc e) f0)
    (Scalar.select (Ideal.cmp .ogt (meanDis x e) (meanAcc x e)) f0 f1) f2

end Patch

/-- What the second pass does with one patch: its class `o`, its centre pixel `v` and the two global means. -/
def resolve (aB aW o v : EReal) : EReal :=
  Scalar.select (Ideal.cmp .oeq o f2)
    (Scalar.select (Ideal.cmp .olt (max (v - aB) (-(v - aB))) (max (v - aW) (-(v - aW)))) f0 f1) o

section Global
variable {N : Nat} (X E : Fin N → Fin 9 → EReal)

def isB (n : Fin N) : BitVec 1 := Ideal.cmp .oeq (cls (X n) (E n)) f0
def isW (n : Fin N) : BitVec 1 := Ideal.cmp .oeq (cls (X n) (E n)) f1
def sumB : EReal := ∑ n, X n 4 * ofBit (isB X E n)
def cntB : EReal := ∑ n, ofBit (isB X E n)
def sumW : EReal := ∑ n, X n 4 * ofBit (isW X E n)
def cntW : EReal := ∑ n, ofBit (isW X E n)
def avgB : EReal := Ideal.div (sumB X E) (max (cntB X E) f1)
def avgW : EReal := Ideal.div (sumW X E) (max (cntW X E) f1)

/-- The corrected class of patch `n`. -/
def corr (n : Fin N) : EReal := resolve (avgB X E) (avgW X E) (cls (X n) (E n)) (X n 4)

end Global

/-- Pixel `k` of patch `n` of a [4194304, 3, 3] array. -/
def patches (a : (⟨3, ![4194304, 3, 3]⟩ : Shape).Idx → EReal) (n : Fin 4194304) (k : Fin 9) : EReal :=
  a (ValueIdx.ix3 n ⟨k.val / 3, by omega⟩ ⟨k.val % 3, by omega⟩)

/-- THE RESULT: entry `(p, q)` is the corrected class of patch `p * 2048 + q`. -/
def G (image edges : (⟨3, ![4194304, 3, 3]⟩ : Shape).Idx → EReal) : (⟨2, ![2048, 2048]⟩ : Shape).Idx → EReal :=
  fun i => corr (patches image) (patches edges)
    ⟨(i 0).val * 2048 + (i 1).val, by have h0 := ValueIdx.idx2_lt0 i; have h1 := ValueIdx.idx2_lt1 i; omega⟩

end Cert.Spec

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Pass1Value.lean ====
/-
  The first pass, entry by entry, is the specification.

  A tile is 2048 patches: a `[2048, 9]` array of pixels and one of edge values. Read at one entry, each value the first
  pass stores is a term of the specification: the class column at row `r` is the class of patch `r`; the centre column
  at row `r` is pixel 4 of patch `r`; and each of the four accumulators is what it held plus a plain finite sum over the
  tile's 2048 patches — of the centre pixels of class 0, of the number of patches of class 0, and the same for class 1.

  The steps: a one-bit mask widened and converted is the extended real 0 or 1; the comparisons, products, quotients and
  maxima read through at an index; a sum along the second axis of a matrix read at a row is the sum of that row's nine
  entries, and a sum along the first axis of a column is the sum of its 2048 entries; a vector written as a column holds
  the same entries; a slice at column 4 reads column 4.
-/
import proofs.«177650_j67585605370461_2_alg».proof.Proof.Gen.KernelIdeal.Skeleton
import proofs.«177650_j67585605370461_2_alg».proof.Proof.Spec
import proofs.«177650_j67585605370461_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.ValueIdx Cert.KernelIdeal Cert.KernelIdeal.Gen Cert.LibColumn

/-! ## One-bit masks as numbers -/

/-- A one-bit mask widened to 32 bits and read as a signed integer is the mask's own value, 0 or 1. -/
theorem toInt_setWidth_bit (b : BitVec 1) : (b.setWidth 32).toInt = (b.toNat : Int) := by
  rcases BitVec.eq_zero_or_eq_one b with h | h <;> subst h <;> decide

/-- So the conversion of a widened one-bit mask to an extended real is 0 or 1: the mask as a number. -/
theorem sitofp_bit (b : BitVec 1) :
    FloatOps.sitofp (F := Ideal) .f32 (b.setWidth 32) = Cert.Spec.ofBit b := by
  show (((b.setWidth 32).toInt : ℝ) : EReal) = ((b.toNat : ℝ) : EReal)
  rw [toInt_setWidth_bit, Int.cast_natCast]

/-- Exclusive or with the set bit is the complement of a one-bit mask. -/
theorem xori_one_bit (b : BitVec 1) : IntOp.xori b 1#1 = ~~~ b := by
  rcases BitVec.eq_zero_or_eq_one b with h | h <;> subst h <;> decide

/-! ## Sums along one axis of a matrix and of a column -/

/-- The sum along the second axis of an `[a, 9]`-shaped matrix, read at row `r`, is the sum of the row's entries. -/
theorem lane_sum (src : FVec Ideal S2048x9 .f32) (h : S2048x9.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ k : Fin 9, src (ix2 r k) :=
  (Ideal.multiReduction_add_single src 0x00000000#32 h hφ hacc (ix1 r)).trans
    (Finset.sum_congr rfl fun k _ => congrArg src (funext fun c => Fin.ext (by
      match c with
      | ⟨0, _⟩ => rfl
      | ⟨1, _⟩ => rfl)))

/-- The sum along the first axis of a `[2048, 1]` column, read at its one entry, is the sum of the column. -/
theorem col_sum (src : FVec Ideal S2048x1 .f32) (h : S2048x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ r : Fin 2048, src (ix2 r (0 : Fin 1)) :=
  (Ideal.multiReduction_add_single src 0x00000000#32 h hφ hacc (ix1 (0 : Fin 1))).trans
    (Finset.sum_congr rfl fun k _ => congrArg src (funext fun c => Fin.ext (by
      match c with
      | ⟨0, _⟩ => rfl
      | ⟨1, _⟩ => rfl)))

/-! ## The first pass, entry by entry: the pointwise leaves -/

section Pass1
variable (x0 x1 : Vec Ideal S2048x9 .f32) (r : Fin 2048) (k : Fin 9)

/-- The pixels as loaded. -/
theorem pay7_apply : k0_pay7 x0 (ix2 r k) = x0 (ix2 r k) :=
  congrFun (shapeCast_self x0 shapeCasts_S2048x9_S2048x9) (ix2 r k)

/-- The edge values as loaded. -/
theorem pay8_apply : k0_pay8 x1 (ix2 r k) = x1 (ix2 r k) :=
  congrFun (shapeCast_self x1 shapeCasts_S2048x9_S2048x9) (ix2 r k)

/-- The mask "the edge value exceeds 1/2". -/
theorem pay9_apply : k0_pay9 x1 (ix2 r k) = Cert.Spec.dis (x1 (ix2 r k)) := by
  show Ideal.cmp .ogt (k0_pay8 x1 (ix2 r k)) (Ideal.ofBits .f32 0x3F000000#32) = _
  rw [pay8_apply]
  rfl

/-- That mask as a number. -/
theorem pay10_apply : k0_pay10 x1 (ix2 r k) = Cert.Spec.ofBit (Cert.Spec.dis (x1 (ix2 r k))) := by
  show FloatOps.sitofp (F := Ideal) .f32 ((k0_pay9 x1 (ix2 r k)).setWidth 32) = _
  rw [sitofp_bit, pay9_apply]

/-- The mask "the edge value is not zero and does not exceed 1/2", as a number. -/
theorem pay11_apply : k0_pay11 x1 (ix2 r k) = Cert.Spec.ofBit (Cert.Spec.acc (x1 (ix2 r k))) := by
  show FloatOps.sitofp (F := Ideal) .f32
      ((IntOp.andi (Ideal.cmp .one (k0_pay8 x1 (ix2 r k)) (Ideal.ofBits .f32 0x00000000#32))
        (IntOp.xori (k0_pay9 x1 (ix2 r k)) 1#1)).setWidth 32) = _
  rw [sitofp_bit, xori_one_bit, pay8_apply, pay9_apply]
  rfl

end Pass1

/-! ## The first pass, entry by entry: counts, means and the class -/

/-- A tile's patch `r`: its nine pixels (or its nine edge values). -/
abbrev row (x : Vec Ideal S2048x9 .f32) (r : Fin 2048) : Fin 9 → EReal := fun k => x (ix2 r k)

section Pass1Class
variable (x0 x1 : Vec Ideal S2048x9 .f32) (r : Fin 2048)

/-- The number of edge values against the patch. -/
theorem pay12_apply : k0_pay12 x1 (ix2 r (0 : Fin 1)) = Cert.Spec.cntDis (row x1 r) := by
  unfold k0_pay12
  refine (shapeCast_a_a1_apply _ shapeCasts_S2048_S2048x1 r (0 : Fin 1)).trans ?_
  refine (lane_sum (k0_pay10 x1) _ _ _ r).trans ?_
  exact Finset.sum_congr rfl fun k _ => pay10_apply x1 r k

/-- The number of edge values for the patch. -/
theorem pay13_apply : k0_pay13 x1 (ix2 r (0 : Fin 1)) = Cert.Spec.cntAcc (row x1 r) := by
  unfold k0_pay13
  refine (shapeCast_a_a1_apply _ shapeCasts_S2048_S2048x1 r (0 : Fin 1)).trans ?_
  refine (lane_sum (k0_pay11 x1) _ _ _ r).trans ?_
  exact Finset.sum_congr rfl fun k _ => pay11_apply x1 r k

/-- Both groups are non-empty. -/
theorem pay14_apply : k0_pay14 x1 (ix2 r (0 : Fin 1))
    = Ideal.cmp .ogt (Cert.Spec.cntDis (row x1 r)) Cert.Spec.f0 &&& Ideal.cmp .ogt (Cert.Spec.cntAcc (row x1 r)) Cert.Spec.f0 := by
  show IntOp.andi (Ideal.cmp .ogt (k0_pay12 x1 (ix2 r (0 : Fin 1))) (Ideal.ofBits .f32 0x00000000#32))
      (Ideal.cmp .ogt (k0_pay13 x1 (ix2 r (0 : Fin 1))) (Ideal.ofBits .f32 0x00000000#32)) = _
  rw [pay12_apply, pay13_apply]
  rfl

/-- The pixels' sum over the first group, divided by the larger of the group's size and 1. -/
theorem meanDis_apply :
    Ideal.div
      (shapeCast S2048x1 (multiReduction .add [1] S2048 (mulf (k0_pay7 x0) (k0_pay10 x1)) 0x00000000#32
        reduces_S2048x9_S2048 (.inl rfl) rfl) shapeCasts_S2048_S2048x1 (ix2 r (0 : Fin 1)))
      (max (k0_pay12 x1 (ix2 r (0 : Fin 1))) (Ideal.ofBits .f32 0x3F800000#32))
    = Cert.Spec.meanDis (row x0 r) (row x1 r) := by
  rw [pay12_apply]
  refine congrArg (fun s => Ideal.div s (max (Cert.Spec.cntDis (row x1 r)) Cert.Spec.f1)) ?_
  refine (shapeCast_a_a1_apply _ shapeCasts_S2048_S2048x1 r (0 : Fin 1)).trans ?_
  refine (lane_sum _ _ _ _ r).trans ?_
  refine Finset.sum_congr rfl fun k _ => ?_
  show k0_pay7 x0 (ix2 r k) * k0_pay10 x1 (ix2 r k) = _
  rw [pay7_apply, pay10_apply]

/-- The pixels' sum over the second group, divided by the larger of the group's size and 1. -/
theorem meanAcc_apply :
    Ideal.div
      (shapeCast S2048x1 (multiReduction .add [1] S2048 (mulf (k0_pay7 x0) (k0_pay11 x1)) 0x00000000#32
        reduces_S2048x9_S2048 (.inl rfl) rfl) shapeCasts_S2048_S2048x1 (ix2 r (0 : Fin 1)))
      (max (k0_pay13 x1 (ix2 r (0 : Fin 1))) (Ideal.ofBits .f32 0x3F800000#32))
    = Cert.Spec.meanAcc (row x0 r) (row x1 r) := by
  rw [pay13_apply]
  refine congrArg (fun s => Ideal.div s (max (Cert.Spec.cntAcc (row x1 r)) Cert.Spec.f1)) ?_
  refine (shapeCast_a_a1_apply _ shapeCasts_S2048_S2048x1 r (0 : Fin 1)).trans ?_
  refine (lane_sum _ _ _ _ r).trans ?_
  refine Finset.sum_congr rfl fun k _ => ?_
  show k0_pay7 x0 (ix2 r k) * k0_pay11 x1 (ix2 r k) = _
  rw [pay7_apply, pay11_apply]

/-- The first group's mean pixel exceeds the second's. -/
theorem pay15_apply : k0_pay15 x0 x1 (ix2 r (0 : Fin 1))
    = Ideal.cmp .ogt (Cert.Spec.meanDis (row x0 r) (row x1 r)) (Cert.Spec.meanAcc (row x0 r) (row x1 r)) := by
  rw [← meanDis_apply x0 x1 r, ← meanAcc_apply x0 x1 r]
  rfl

/-- The class column from any two mask columns and any two values for "first" and "second". -/
theorem pay16_apply (v37 v38 : IVec S2048x1 1) (c14 c15 : Ideal .f32) :
    k0_pay16 v37 v38 c14 c15 (ix2 r (0 : Fin 1))
      = Scalar.select (v37 (ix2 r (0 : Fin 1))) (Scalar.select (v38 (ix2 r (0 : Fin 1))) c14 c15) Cert.Spec.f2 := rfl

/-- The zero and one the first pass hands to the class column. -/
abbrev z : Ideal .f32 := Scalar.ofBits .f32 0x00000000#32
abbrev o : Ideal .f32 := Scalar.ofBits .f32 0x3F800000#32

/-- The class column of a tile. -/
abbrev C (x0 x1 : Vec Ideal S2048x9 .f32) : FVec Ideal S2048x1 .f32 :=
  k0_pay16 (k0_pay14 x1) (k0_pay15 x0 x1) z o

/-- THE CLASS of patch `r` of a tile. -/
theorem cls_apply : C x0 x1 (ix2 r (0 : Fin 1)) = Cert.Spec.cls (row x0 r) (row x1 r) := by
  show k0_pay16 (k0_pay14 x1) (k0_pay15 x0 x1) z o (ix2 r (0 : Fin 1)) = _
  rw [pay16_apply, pay14_apply, pay15_apply]
  rfl

/-- THE CENTRE PIXEL of patch `r` of a tile. -/
theorem centre_apply : k0_pay17 (k0_pay7 x0) (ix2 r (0 : Fin 1)) = x0 (ix2 r (4 : Fin 9)) := by
  unfold k0_pay17
  refine (slice2_axis1_apply 4 (k0_pay7 x0) slices_S2048x9_o0_4_S2048x1 r (0 : Fin 1) (4 : Fin 9) rfl).trans ?_
  exact pay7_apply x0 r 4

end Pass1Class

/-! ## The first pass, entry by entry: the four accumulated sums -/

section Pass1Sums
variable (x0 x1 : Vec Ideal S2048x9 .f32) (s : Vec Ideal S1x1 .f32)

/-- "The class is 0", as a number, from any class column. -/
theorem pay18_apply (v37 v38 : IVec S2048x1 1) (c14 c15 : Ideal .f32) (r : Fin 2048) :
    k0_pay18 v37 v38 c14 c15 (ix2 r (0 : Fin 1))
      = Cert.Spec.ofBit (Ideal.cmp .oeq (k0_pay16 v37 v38 c14 c15 (ix2 r (0 : Fin 1))) Cert.Spec.f0) := by
  show FloatOps.sitofp (F := Ideal) .f32
      ((Ideal.cmp .oeq (k0_pay16 v37 v38 c14 c15 (ix2 r (0 : Fin 1))) (Ideal.ofBits .f32 0x00000000#32)).setWidth 32) = _
  rw [sitofp_bit]

/-- "The class is 1", as a number, from any class column. -/
theorem pay19_apply (v37 v38 : IVec S2048x1 1) (c14 c15 : Ideal .f32) (r : Fin 2048) :
    k0_pay19 v37 v38 c14 c15 (ix2 r (0 : Fin 1))
      = Cert.Spec.ofBit (Ideal.cmp .oeq (k0_pay16 v37 v38 c14 c15 (ix2 r (0 : Fin 1))) Cert.Spec.f1) := by
  show FloatOps.sitofp (F := Ideal) .f32
      ((Ideal.cmp .oeq (k0_pay16 v37 v38 c14 c15 (ix2 r (0 : Fin 1))) (Ideal.ofBits .f32 0x3F800000#32)).setWidth 32) = _
  rw [sitofp_bit]

/-- A column's sum kept as a `[1, 1]` array, read at its one entry. -/
theorem keep_col_sum (src : FVec Ideal S2048x1 .f32) :
    shapeCast S1x1 (multiReduction .add [0] S1 src 0x00000000#32 reduces_S2048x1_S1 (.inl rfl) rfl) shapeCasts_S1_S1x1
        (ix2 (0 : Fin 1) (0 : Fin 1))
      = ∑ r : Fin 2048, src (ix2 r (0 : Fin 1)) :=
  (shapeCast_a_a1_apply _ shapeCasts_S1_S1x1 (0 : Fin 1) (0 : Fin 1)).trans (col_sum src _ _ _)

/-- THE CENTRE PIXELS OF CLASS 0, added to what was accumulated. -/
theorem sumB_apply :
    k0_pay22 (k0_pay7 x0) (k0_pay14 x1) (k0_pay15 x0 x1) z o s (ix2 (0 : Fin 1) (0 : Fin 1))
      = s (ix2 (0 : Fin 1) (0 : Fin 1))
        + ∑ r : Fin 2048, x0 (ix2 r (4 : Fin 9))
            * Cert.Spec.ofBit (Ideal.cmp .oeq (Cert.Spec.cls (row x0 r) (row x1 r)) Cert.Spec.f0) := by
  unfold k0_pay22
  rw [shapeCast_self]
  refine (addf_apply _ _ _).trans (congrArg (s (ix2 (0 : Fin 1) (0 : Fin 1)) + ·) ?_)
  refine (keep_col_sum _).trans (Finset.sum_congr rfl fun r _ => ?_)
  show k0_pay17 (k0_pay7 x0) (ix2 r (0 : Fin 1)) * k0_pay18 (k0_pay14 x1) (k0_pay15 x0 x1) z o (ix2 r (0 : Fin 1)) = _
  rw [centre_apply, pay18_apply]
  exact congrArg (fun c => x0 (ix2 r (4 : Fin 9)) * Cert.Spec.ofBit (Ideal.cmp .oeq c Cert.Spec.f0)) (cls_apply x0 x1 r)

/-- THE NUMBER OF PATCHES OF CLASS 0, added to what was accumulated. -/
theorem cntB_apply :
    k0_pay23 (k0_pay14 x1) (k0_pay15 x0 x1) z o s (ix2 (0 : Fin 1) (0 : Fin 1))
      = s (ix2 (0 : Fin 1) (0 : Fin 1))
        + ∑ r : Fin 2048, Cert.Spec.ofBit (Ideal.cmp .oeq (Cert.Spec.cls (row x0 r) (row x1 r)) Cert.Spec.f0) := by
  unfold k0_pay23
  rw [shapeCast_self]
  refine (addf_apply _ _ _).trans (congrArg (s (ix2 (0 : Fin 1) (0 : Fin 1)) + ·) ?_)
  refine (keep_col_sum _).trans (Finset.sum_congr rfl fun r _ => ?_)
  rw [pay18_apply]
  exact congrArg (fun c => Cert.Spec.ofBit (Ideal.cmp .oeq c Cert.Spec.f0)) (cls_apply x0 x1 r)

/-- THE CENTRE PIXELS OF CLASS 1, added to what was accumulated. -/
theorem sumW_apply :
    k0_pay1 (k0_pay20 (k0_pay7 x0) (k0_pay14 x1) (k0_pay15 x0 x1) z o) s (ix2 (0 : Fin 1) (0 : Fin 1))
      = s (ix2 (0 : Fin 1) (0 : Fin 1))
        + ∑ r : Fin 2048, x0 (ix2 r (4 : Fin 9))
            * Cert.Spec.ofBit (Ideal.cmp .oeq (Cert.Spec.cls (row x0 r) (row x1 r)) Cert.Spec.f1) := by
  unfold k0_pay1
  rw [shapeCast_self]
  refine (addf_apply _ _ _).trans (congrArg (s (ix2 (0 : Fin 1) (0 : Fin 1)) + ·) ?_)
  unfold k0_pay20
  refine (keep_col_sum _).trans (Finset.sum_congr rfl fun r _ => ?_)
  show k0_pay17 (k0_pay7 x0) (ix2 r (0 : Fin 1)) * k0_pay19 (k0_pay14 x1) (k0_pay15 x0 x1) z o (ix2 r (0 : Fin 1)) = _
  rw [centre_apply, pay19_apply]
  exact congrArg (fun c => x0 (ix2 r (4 : Fin 9)) * Cert.Spec.ofBit (Ideal.cmp .oeq c Cert.Spec.f1)) (cls_apply x0 x1 r)

/-- THE NUMBER OF PATCHES OF CLASS 1, added to what was accumulated. -/
theorem cntW_apply :
    k0_pay2 (k0_pay21 (k0_pay14 x1) (k0_pay15 x0 x1) z o) s (ix2 (0 : Fin 1) (0 : Fin 1))
      = s (ix2 (0 : Fin 1) (0 : Fin 1))
        + ∑ r : Fin 2048, Cert.Spec.ofBit (Ideal.cmp .oeq (Cert.Spec.cls (row x0 r) (row x1 r)) Cert.Spec.f1) := by
  unfold k0_pay2
  rw [shapeCast_self]
  refine (addf_apply _ _ _).trans (congrArg (s (ix2 (0 : Fin 1) (0 : Fin 1)) + ·) ?_)
  unfold k0_pay21
  refine (keep_col_sum _).trans (Finset.sum_congr rfl fun r _ => ?_)
  rw [pay19_apply]
  exact congrArg (fun c => Cert.Spec.ofBit (Ideal.cmp .oeq c Cert.Spec.f1)) (cls_apply x0 x1 r)

end Pass1Sums

/-! ## The four sums start from zero -/

/-- A `[1, 1]` array of the zero word holds the number zero. -/
theorem zero_splat_apply :
    shapeCast S1x1 (broadcast S1x1 (Scalar.ofBits (F := Ideal) .f32 0x00000000#32)) shapeCasts_S1x1_S1x1
        (ix2 (0 : Fin 1) (0 : Fin 1)) = 0 := by
  rw [shapeCast_self]
  exact Ideal.ofBits_zero_f32

theorem zero_apply : (k0_pay3 : FVec Ideal S1x1 .f32) (ix2 (0 : Fin 1) (0 : Fin 1)) = 0 := zero_splat_apply
theorem zero_apply4 : (k0_pay4 : FVec Ideal S1x1 .f32) (ix2 (0 : Fin 1) (0 : Fin 1)) = 0 := zero_splat_apply
theorem zero_apply5 : (k0_pay5 : FVec Ideal S1x1 .f32) (ix2 (0 : Fin 1) (0 : Fin 1)) = 0 := zero_splat_apply
theorem zero_apply6 : (k0_pay6 : FVec Ideal S1x1 .f32) (ix2 (0 : Fin 1) (0 : Fin 1)) = 0 := zero_splat_apply

end Cert.KernelValue

end
-- ==== Proof.Pass1Sums.lean ====
/-
  The first pass's four accumulators, point by point, on the extended reals.

  For a tile with input blocks `x0` (pixels) and `x1` (edge values), `tB`, `nB`, `tW`, `nW` are the tile's partial sums: the
  centre pixels of its patches of class 0 and their number, and the same for class 1. After grid point `n` each accumulator's one
  entry is the sum of its tile quantity over the points `0 … n`: at the first point the body zeroes the accumulator and adds the
  first tile's, at each later point it adds that tile's to what the point before left. The four one-entry results are copies of
  the accumulators, so after the last point they hold the totals over all 2048 tiles.
-/
import proofs.«177650_j67585605370461_2_alg».proof.Proof.Pass1Pieces
import proofs.«177650_j67585605370461_2_alg».proof.Proof.Pass1Value
import proofs.«177650_j67585605370461_2_alg».proof.Proof.Spec

set_option maxRecDepth 16384

noncomputable section

namespace Cert.KernelIdeal.Value0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frame0 Cert.KernelValue ValueIdx

/-! ## A tile's partial sums -/

def tB (x0 x1 : Vec Ideal S2048x9 .f32) : EReal :=
  ∑ r : Fin 2048, x0 (ix2 r 4) * Cert.Spec.ofBit (Ideal.cmp .oeq (Cert.Spec.cls (row x0 r) (row x1 r)) Cert.Spec.f0)
def nB (x0 x1 : Vec Ideal S2048x9 .f32) : EReal :=
  ∑ r : Fin 2048, Cert.Spec.ofBit (Ideal.cmp .oeq (Cert.Spec.cls (row x0 r) (row x1 r)) Cert.Spec.f0)
def tW (x0 x1 : Vec Ideal S2048x9 .f32) : EReal :=
  ∑ r : Fin 2048, x0 (ix2 r 4) * Cert.Spec.ofBit (Ideal.cmp .oeq (Cert.Spec.cls (row x0 r) (row x1 r)) Cert.Spec.f1)
def nW (x0 x1 : Vec Ideal S2048x9 .f32) : EReal :=
  ∑ r : Fin 2048, Cert.Spec.ofBit (Ideal.cmp .oeq (Cert.Spec.cls (row x0 r) (row x1 r)) Cert.Spec.f1)

variable (V : (c : Dev nD) → (b : Ref sig .tc) → Buf (Elt Ideal) ((c : Thread nD τ).loc b))

/-- Tile `t`'s quantity, zero past the grid. -/
def tileQ (q : Vec Ideal S2048x9 .f32 → Vec Ideal S2048x9 .f32 → EReal) (c : Dev nD) (t : ℕ) : EReal :=
  if h : t < cfg0.N then q (iblk0 V c 0 ⟨t, h⟩) (iblk0 V c 1 ⟨t, h⟩) else 0

/-! ## The accumulators after point `n` -/

theorem s0_at (c : Dev nD) : ∀ (n : ℕ) (hn : n < cfg0.N),
    (outsAt0 V c n hn).s0 (ix2 (0 : Fin 1) (0 : Fin 1)) = ∑ t ∈ Finset.range (n + 1), tileQ V tB c t
  | 0, hn => by
    show (stepA c ⟨0, hn⟩ _ (iblk0 V c 0 ⟨0, hn⟩) (iblk0 V c 1 ⟨0, hn⟩)).s0 (ix2 (0 : Fin 1) (0 : Fin 1)) = _
    rw [stepA_s0, Cert.KernelValue.sumB_apply, Cert.KernelValue.zero_apply, zero_add, Finset.sum_range_one]
    unfold tileQ tB; rw [dif_pos hn]
  | n + 1, hn => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s0 (ix2 (0 : Fin 1) (0 : Fin 1)) = _
    rw [stepB_s0, Cert.KernelValue.sumB_apply, s0_at c n (Nat.lt_of_succ_lt hn), Finset.sum_range_succ (fun t => tileQ V tB c t) (n + 1)]
    refine congrArg (fun z => (∑ t ∈ Finset.range (n + 1), tileQ V tB c t) + z) ?_
    unfold tileQ tB; rw [dif_pos hn]

theorem s1_at (c : Dev nD) : ∀ (n : ℕ) (hn : n < cfg0.N),
    (outsAt0 V c n hn).s1 (ix2 (0 : Fin 1) (0 : Fin 1)) = ∑ t ∈ Finset.range (n + 1), tileQ V nB c t
  | 0, hn => by
    show (stepA c ⟨0, hn⟩ _ (iblk0 V c 0 ⟨0, hn⟩) (iblk0 V c 1 ⟨0, hn⟩)).s1 (ix2 (0 : Fin 1) (0 : Fin 1)) = _
    rw [stepA_s1, Cert.KernelValue.cntB_apply, Cert.KernelValue.zero_apply4, zero_add, Finset.sum_range_one]
    unfold tileQ nB; rw [dif_pos hn]
  | n + 1, hn => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s1 (ix2 (0 : Fin 1) (0 : Fin 1)) = _
    rw [stepB_s1, Cert.KernelValue.cntB_apply, s1_at c n (Nat.lt_of_succ_lt hn), Finset.sum_range_succ (fun t => tileQ V nB c t) (n + 1)]
    refine congrArg (fun z => (∑ t ∈ Finset.range (n + 1), tileQ V nB c t) + z) ?_
    unfold tileQ nB; rw [dif_pos hn]

theorem s2_at (c : Dev nD) : ∀ (n : ℕ) (hn : n < cfg0.N),
    (outsAt0 V c n hn).s2 (ix2 (0 : Fin 1) (0 : Fin 1)) = ∑ t ∈ Finset.range (n + 1), tileQ V tW c t
  | 0, hn => by
    show (stepA c ⟨0, hn⟩ _ (iblk0 V c 0 ⟨0, hn⟩) (iblk0 V c 1 ⟨0, hn⟩)).s2 (ix2 (0 : Fin 1) (0 : Fin 1)) = _
    rw [stepA_s2, Cert.KernelValue.sumW_apply, Cert.KernelValue.zero_apply5, zero_add, Finset.sum_range_one]
    unfold tileQ tW; rw [dif_pos hn]
  | n + 1, hn => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s2 (ix2 (0 : Fin 1) (0 : Fin 1)) = _
    rw [stepB_s2, Cert.KernelValue.sumW_apply, s2_at c n (Nat.lt_of_succ_lt hn), Finset.sum_range_succ (fun t => tileQ V tW c t) (n + 1)]
    refine congrArg (fun z => (∑ t ∈ Finset.range (n + 1), tileQ V tW c t) + z) ?_
    unfold tileQ tW; rw [dif_pos hn]

theorem s3_at (c : Dev nD) : ∀ (n : ℕ) (hn : n < cfg0.N),
    (outsAt0 V c n hn).s3 (ix2 (0 : Fin 1) (0 : Fin 1)) = ∑ t ∈ Finset.range (n + 1), tileQ V nW c t
  | 0, hn => by
    show (stepA c ⟨0, hn⟩ _ (iblk0 V c 0 ⟨0, hn⟩) (iblk0 V c 1 ⟨0, hn⟩)).s3 (ix2 (0 : Fin 1) (0 : Fin 1)) = _
    rw [stepA_s3, Cert.KernelValue.cntW_apply, Cert.KernelValue.zero_apply6, zero_add, Finset.sum_range_one]
    unfold tileQ nW; rw [dif_pos hn]
  | n + 1, hn => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s3 (ix2 (0 : Fin 1) (0 : Fin 1)) = _
    rw [stepB_s3, Cert.KernelValue.cntW_apply, s3_at c n (Nat.lt_of_succ_lt hn), Finset.sum_range_succ (fun t => tileQ V nW c t) (n + 1)]
    refine congrArg (fun z => (∑ t ∈ Finset.range (n + 1), tileQ V nW c t) + z) ?_
    unfold tileQ nW; rw [dif_pos hn]

/-! ## The four results after the last point: the totals over the tiles -/

theorem sum_tileQ (q : Vec Ideal S2048x9 .f32 → Vec Ideal S2048x9 .f32 → EReal) (c : Dev nD) :
    ∑ t ∈ Finset.range cfg0.N, tileQ V q c t = ∑ t : Fin cfg0.N, q (iblk0 V c 0 t) (iblk0 V c 1 t) := by
  rw [← Fin.sum_univ_eq_sum_range (fun t => tileQ V q c t) cfg0.N]
  exact Finset.sum_congr rfl fun t _ => by unfold tileQ; rw [dif_pos t.isLt]

theorem last_lt : 2047 < cfg0.N := by have : cfg0.N = 2048 := N_0; omega

/-- After any point but the first each one-entry result is its accumulator (the body copies it last). -/
theorem o4_eq_s0 (c : Dev nD) : ∀ (n : ℕ) (hn : n < cfg0.N), n ≠ 0 → (outsAt0 V c n hn).o4 = (outsAt0 V c n hn).s0
  | 0, _, h => absurd rfl h
  | n + 1, hn, _ => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).o4
      = (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s0
    rw [stepB_o4, stepB_s0]
theorem o5_eq_s1 (c : Dev nD) : ∀ (n : ℕ) (hn : n < cfg0.N), n ≠ 0 → (outsAt0 V c n hn).o5 = (outsAt0 V c n hn).s1
  | 0, _, h => absurd rfl h
  | n + 1, hn, _ => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).o5
      = (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s1
    rw [stepB_o5, stepB_s1]
theorem o6_eq_s2 (c : Dev nD) : ∀ (n : ℕ) (hn : n < cfg0.N), n ≠ 0 → (outsAt0 V c n hn).o6 = (outsAt0 V c n hn).s2
  | 0, _, h => absurd rfl h
  | n + 1, hn, _ => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).o6
      = (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s2
    rw [stepB_o6, stepB_s2]
theorem o7_eq_s3 (c : Dev nD) : ∀ (n : ℕ) (hn : n < cfg0.N), n ≠ 0 → (outsAt0 V c n hn).o7 = (outsAt0 V c n hn).s3
  | 0, _, h => absurd rfl h
  | n + 1, hn, _ => by
    show (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).o7
      = (stepB c ⟨n + 1, hn⟩ _ (iblk0 V c 0 ⟨n + 1, hn⟩) (iblk0 V c 1 ⟨n + 1, hn⟩) (outsAt0 V c n (Nat.lt_of_succ_lt hn)).s0 (outsAt0 V c n (Nat.lt_of_succ_lt hn)).s1 (outsAt0 V c n (Nat.lt_of_succ_lt hn)).s2 (outsAt0 V c n (Nat.lt_of_succ_lt hn)).s3).s3
    rw [stepB_o7, stepB_s3]

theorem o4_last (c : Dev nD) :
    (outsAt0 V c 2047 last_lt).o4 (ix2 (0 : Fin 1) (0 : Fin 1)) = ∑ t : Fin cfg0.N, tB (iblk0 V c 0 t) (iblk0 V c 1 t) := by
  rw [o4_eq_s0 V c 2047 last_lt (by decide), s0_at V c 2047 last_lt, ← sum_tileQ V tB c]
  exact congrArg (fun n => ∑ t ∈ Finset.range n, tileQ V tB c t) (show 2047 + 1 = cfg0.N from N_0.symm)

theorem o5_last (c : Dev nD) :
    (outsAt0 V c 2047 last_lt).o5 (ix2 (0 : Fin 1) (0 : Fin 1)) = ∑ t : Fin cfg0.N, nB (iblk0 V c 0 t) (iblk0 V c 1 t) := by
  rw [o5_eq_s1 V c 2047 last_lt (by decide), s1_at V c 2047 last_lt, ← sum_tileQ V nB c]
  exact congrArg (fun n => ∑ t ∈ Finset.range n, tileQ V nB c t) (show 2047 + 1 = cfg0.N from N_0.symm)

theorem o6_last (c : Dev nD) :
    (outsAt0 V c 2047 last_lt).o6 (ix2 (0 : Fin 1) (0 : Fin 1)) = ∑ t : Fin cfg0.N, tW (iblk0 V c 0 t) (iblk0 V c 1 t) := by
  rw [o6_eq_s2 V c 2047 last_lt (by decide), s2_at V c 2047 last_lt, ← sum_tileQ V tW c]
  exact congrArg (fun n => ∑ t ∈ Finset.range n, tileQ V tW c t) (show 2047 + 1 = cfg0.N from N_0.symm)

theorem o7_last (c : Dev nD) :
    (outsAt0 V c 2047 last_lt).o7 (ix2 (0 : Fin 1) (0 : Fin 1)) = ∑ t : Fin cfg0.N, nW (iblk0 V c 0 t) (iblk0 V c 1 t) := by
  rw [o7_eq_s3 V c 2047 last_lt (by decide), s3_at V c 2047 last_lt, ← sum_tileQ V nW c]
  exact congrArg (fun n => ∑ t ∈ Finset.range n, tileQ V nW c t) (show 2047 + 1 = cfg0.N from N_0.symm)

end Cert.KernelIdeal.Value0

end
-- ==== Proof.Pass1Array.lean ====
/- The first pallas_call's value, from blocks to whole arrays. The classes' array after the region is, row by row, the
   class of that patch — a function of the patch's nine pixels and nine edge values —, and the centre pixels' array is
   pixel 4 of each patch: each grid point writes back one block of 2048 rows of each, the block at point `t` is rows
   `2048 t … 2048 t + 2047` of that one function, and the 2048 blocks cover the 4194304 rows. The four one-entry totals
   are written back once, after the last point, and hold the sums of the tiles' partial sums. -/
import proofs.«177650_j67585605370461_2_alg».proof.Proof.Pass1Sums
import Idealize.ShloMosaic.Lib.Pipeline.Value
import Idealize.ShloMosaic.Lib.ValueIdx

noncomputable section

namespace Cert.KernelIdeal.Value0

open Cert.KernelIdeal Cert.KernelIdeal.Gen Cert.KernelIdeal.Frame0 Cert.KernelValue
open Idealize.ShloMosaic Idealize.ShloMosaic.TcCoe Idealize.SL.Sem
open Idealize.ShloMosaic.Pipeline (Dat)
open Idealize.ShloMosaic.ValueIdx (ix2)

-- the TensorCore's buffer contents when the region is entered
variable (V : (c : Dev nD) → (b : Ref sig .tc) → Buf (Elt Ideal) ((c : Thread nD τ).loc b))

/-! ## The index maps, and each input block as rows of its array -/

/-- The printed index maps, decided over the grid: the pixels', the edge values', the classes' and the centre pixels'
    block at point `t` is block `t` of its array; the four totals' block never moves. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `r` of the block at point `t` is a row of the array. -/
theorem row_lt (t : Fin cfg0.N) (r : Fin 2048) : t.val * 2048 + r.val < 4194304 := by
  have := t.isLt; have hN : cfg0.N = 2048 := N_0; have := r.isLt; omega

/-- The pixels' block at point `t` is rows `2048 t … 2048 t + 2047` of the pixels' array. -/
theorem block0 (c : Dev nD) (t : Fin cfg0.N) (r : Fin 2048) (k : Fin 9) :
    (iblk0 V c 0 t : Vec Ideal S2048x9 .f32) (ix2 r k) = (V c main_v0 : S4194304x9.Idx → EReal) (ix2 ⟨t.val * 2048 + r.val, row_lt t r⟩ k) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 9 + 1 * k.val = k.val; rw [e1]; omega

/-- The edge values' block at point `t` is rows `2048 t … 2048 t + 2047` of the edge values' array. -/
theorem block1 (c : Dev nD) (t : Fin cfg0.N) (r : Fin 2048) (k : Fin 9) :
    (iblk0 V c 1 t : Vec Ideal S2048x9 .f32) (ix2 r k) = (V c main_v1 : S4194304x9.Idx → EReal) (ix2 ⟨t.val * 2048 + r.val, row_lt t r⟩ k) := by
  obtain ⟨-, -, e2, e3, -⟩ := idx_facts0 t
  unfold iblk0
  rw [View.read_apply]
  show V c main_v1 _ = V c main_v1 _
  congr 1
  funext a
  apply Fin.ext
  match a with
  | ⟨0, _⟩ => show win0_1.index t (0 : Fin 2) * 2048 + 1 * r.val = t.val * 2048 + r.val; rw [e2]; omega
  | ⟨1, _⟩ => show win0_1.index t (1 : Fin 2) * 9 + 1 * k.val = k.val; rw [e3]; omega

/-! ## The body's two column payloads at any index of their block -/

/-- An index of a [2048, 1] block is its row and 0. -/
theorem col_idx (j : S2048x1.Idx) : j = ix2 (j 0) (0 : Fin 1) :=
  (ValueIdx.eq_ix2 j).trans (congrArg (ix2 (j 0)) (Fin.ext (Nat.lt_one_iff.mp (ValueIdx.idx2_lt1 j)) : @Eq (Fin 1) (j 1) (0 : Fin 1)))

/-- The class column at any index of the block: the class of that row's patch. -/
theorem cls_at (x0 x1 : Vec Ideal S2048x9 .f32) (j : S2048x1.Idx) :
    C x0 x1 j = Cert.Spec.cls (row x0 (j 0)) (row x1 (j 0)) := by
  conv_lhs => rw [col_idx j]
  exact cls_apply x0 x1 (j 0)

/-- The centre column at any index of the block: pixel 4 of that row's patch. -/
theorem centre_at (x0 : Vec Ideal S2048x9 .f32) (j : S2048x1.Idx) :
    k0_pay17 (k0_pay7 x0) j = x0 (ix2 (j 0) (4 : Fin 9)) := by
  conv_lhs => rw [col_idx j]
  exact centre_apply x0 (j 0)

/-! ## The classes and the centre pixels: what each point writes back, the cover, and the arrays -/

/-- The classes' array as ONE function of the pixels `A0` and the edge values `A1`, row by row. -/
abbrev G2 (A0 A1 : S4194304x9.Idx → EReal) : S4194304x1.Idx → EReal :=
  fun i => Cert.Spec.cls (fun k => A0 (ix2 (i 0) k)) (fun k => A1 (ix2 (i 0) k))

/-- The centre pixels' array as one function of the pixels, row by row. -/
abbrev G3 (A0 : S4194304x9.Idx → EReal) : S4194304x1.Idx → EReal :=
  fun i => A0 (ix2 (i 0) (4 : Fin 9))

/-- What the classes' staging buffer holds after ANY point: the class column of the point's input blocks (the first
    point's case and a later point's store the same payload). -/
theorem o2_at (c : Dev nD) (t : Fin cfg0.N) : (outsAt0 V c t.val t.isLt).o2 = C (iblk0 V c 0 t) (iblk0 V c 1 t) := by
  by_cases h0 : t.val = 0
  · rw [outsAt0_A V c t h0, stepA_o2]
  · rw [outsAt0_B V c t h0, stepB_o2]

/-- What the centre pixels' staging buffer holds after any point: the centre column of the point's pixel block. -/
theorem o3_at (c : Dev nD) (t : Fin cfg0.N) : (outsAt0 V c t.val t.isLt).o3 = k0_pay17 (k0_pay7 (iblk0 V c 0 t)) := by
  by_cases h0 : t.val = 0
  · rw [outsAt0_A V c t h0, stepA_o3]
  · rw [outsAt0_B V c t h0, stepB_o3]

/-- WHAT POINT `t` WRITES BACK to the classes' array is block `t` of `G2` of the two input arrays as the region finds
    them: row `j` of a block at point `t` is row `2048 t + j` of its array. -/
theorem flushed2_eq (c : Dev nD) (t : Fin cfg0.N) :
    (dat0 (F := Ideal) V c).flushed 2 t = ((cfg0.win 2).blk t).view.read (Elt Ideal) (G2 (V c main_v0) (V c main_v1)) := by
  show (cfg0.win 2).cut (grid0.coords t) ((dat0 V c).after 2 t) = _
  rw [after0_2, o2_at]
  obtain ⟨-, -, -, -, e4, e5, -⟩ := idx_facts0 t
  funext j
  show C (iblk0 V c 0 t) (iblk0 V c 1 t) j = G2 (V c main_v0) (V c main_v1) (((cfg0.win 2).blk t).view.emb j)
  refine (cls_at (iblk0 V c 0 t) (iblk0 V c 1 t) j).trans ?_
  have hk0 : t.val * 2048 + (j 0).val = ((((cfg0.win 2).blk t).view.emb j) 0).val := by
    show _ = win0_2.index t (0 : Fin 2) * 2048 + 1 * (j 0).val; rw [e4]; omega
  have hn : @Eq (Fin 4194304) ⟨t.val * 2048 + (j 0).val, row_lt t (j 0)⟩ ((((cfg0.win 2).blk t).view.emb j) 0) := Fin.ext hk0
  have hr0 : row (iblk0 V c 0 t) (j 0) = fun k => (V c main_v0 : S4194304x9.Idx → EReal) (ix2 ((((cfg0.win 2).blk t).view.emb j) 0) k) :=
    funext fun k => (block0 V c t (j 0) k).trans (congrArg (fun n : Fin 4194304 => (V c main_v0 : S4194304x9.Idx → EReal) (ix2 n k)) hn)
  have hr1 : row (iblk0 V c 1 t) (j 0) = fun k => (V c main_v1 : S4194304x9.Idx → EReal) (ix2 ((((cfg0.win 2).blk t).view.emb j) 0) k) :=
    funext fun k => (block1 V c t (j 0) k).trans (congrArg (fun n : Fin 4194304 => (V c main_v1 : S4194304x9.Idx → EReal) (ix2 n k)) hn)
  exact congrArg₂ Cert.Spec.cls hr0 hr1

/-- WHAT POINT `t` WRITES BACK to the centre pixels' array is block `t` of `G3` of the pixels' array. -/
theorem flushed3_eq (c : Dev nD) (t : Fin cfg0.N) :
    (dat0 (F := Ideal) V c).flushed 3 t = ((cfg0.win 3).blk t).view.read (Elt Ideal) (G3 (V c main_v0)) := by
  show (cfg0.win 3).cut (grid0.coords t) ((dat0 V c).after 3 t) = _
  rw [after0_3, o3_at]
  obtain ⟨-, -, -, -, -, -, e6, e7, -⟩ := idx_facts0 t
  funext j
  show k0_pay17 (k0_pay7 (iblk0 V c 0 t)) j = G3 (V c main_v0) (((cfg0.win 3).blk t).view.emb j)
  refine (centre_at (iblk0 V c 0 t) j).trans ?_
  have hk0 : t.val * 2048 + (j 0).val = ((((cfg0.win 3).blk t).view.emb j) 0).val := by
    show _ = win0_3.index t (0 : Fin 2) * 2048 + 1 * (j 0).val; rw [e6]; omega
  have hn : @Eq (Fin 4194304) ⟨t.val * 2048 + (j 0).val, row_lt t (j 0)⟩ ((((cfg0.win 3).blk t).view.emb j) 0) := Fin.ext hk0
  exact (block0 V c t (j 0) (4 : Fin 9)).trans (congrArg (fun n : Fin 4194304 => (V c main_v0 : S4194304x9.Idx → EReal) (ix2 n (4 : Fin 9))) hn)

/-- An index of the classes' array is in point `t`'s block iff each coordinate is in the block's range on its axis. -/
theorem mem_blk2 (t : Fin cfg0.N) (i : S4194304x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v2_0).slice (win0_2.rect t)).set ↔ _
  rw [View.set_slice_whole, Rect.mem_set_unit]
  exact Iff.rfl

/-- Every row of the classes' array is in some point's block: row `n` in that of point `n / 2048`. -/
theorem cover2 (i : S4194304x1.Idx) : ∃ t : Fin cfg0.N, (cfg0.win 2).flush t = true ∧ i ∈ ((cfg0.win 2).blk t).view.set := by
  have hi0 : (i 0).val < 4194304 := (i 0).isLt
  have hi1 : (i 1).val < 1 := (i 1).isLt
  have hN : cfg0.N = 2048 := N_0
  let t : Fin cfg0.N := ⟨(i 0).val / 2048, by rw [hN]; omega⟩
  obtain ⟨-, -, -, -, e4, e5, e6, e7, -⟩ := idx_facts0 t
  have ht : t.val = (i 0).val / 2048 := rfl
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 1 ≤ (i 1).val ∧ (i 1).val < win0_2.index t (1 : Fin 2) * 1 + 1; rw [e5]; omega

/-- An index of the centre pixels' array is in point `t`'s block iff each coordinate is in the block's range on its axis. -/
theorem mem_blk3 (t : Fin cfg0.N) (i : S4194304x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v2_1).slice (win0_3.rect t)).set ↔ _
  rw [View.set_slice_whole, Rect.mem_set_unit]
  exact Iff.rfl

/-- Every row of the centre pixels' array is in some point's block: row `n` in that of point `n / 2048`. -/
theorem cover3 (i : S4194304x1.Idx) : ∃ t : Fin cfg0.N, (cfg0.win 3).flush t = true ∧ i ∈ ((cfg0.win 3).blk t).view.set := by
  have hi0 : (i 0).val < 4194304 := (i 0).isLt
  have hi1 : (i 1).val < 1 := (i 1).isLt
  have hN : cfg0.N = 2048 := N_0
  let t : Fin cfg0.N := ⟨(i 0).val / 2048, by rw [hN]; omega⟩
  obtain ⟨-, -, -, -, e4, e5, e6, e7, -⟩ := idx_facts0 t
  have ht : t.val = (i 0).val / 2048 := rfl
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; rw [e6, ht]; omega
  | ⟨1, _⟩ => show win0_3.index t (1 : Fin 2) * 1 ≤ (i 1).val ∧ (i 1).val < win0_3.index t (1 : Fin 2) * 1 + 1; rw [e7]; omega

/-- THE CLASSES' ARRAY after the region: every row is the class of that patch. -/
theorem final2 (c : Dev nD) : (dat0 (F := Ideal) V c).arrAt 2 cfg0.N
    = fun i : S4194304x1.Idx => Cert.Spec.cls (fun k => (V c main_v0 : S4194304x9.Idx → EReal) (ix2 (i 0) k)) (fun k => (V c main_v1 : S4194304x9.Idx → EReal) (ix2 (i 0) k)) :=
  (dat0 (F := Ideal) V c).arrAt_eq_of_cover 2 (G2 (V c main_v0) (V c main_v1)) (fun t _ => flushed2_eq V c t) cover2

/-- THE CENTRE PIXELS' ARRAY after the region: every row is pixel 4 of that patch. -/
theorem final3 (c : Dev nD) : (dat0 (F := Ideal) V c).arrAt 3 cfg0.N
    = fun i : S4194304x1.Idx => (V c main_v0 : S4194304x9.Idx → EReal) (ix2 (i 0) (4 : Fin 9)) :=
  (dat0 (F := Ideal) V c).arrAt_eq_of_cover 3 (G3 (V c main_v0)) (fun t _ => flushed3_eq V c t) cover3

/-! ## The four totals: written back once, after the last point -/

/-- The buffers after position `n` when `n` is the last point, named at the literal 2047 (only the position's name
    changes; the accumulation is never opened). -/
theorem outsAt0_last (c : Dev nD) (n : ℕ) (hn : n < cfg0.N) (e : n = 2047) : outsAt0 V c n hn = outsAt0 V c 2047 last_lt := by
  subst e; rfl

/-- The one block of the total of the centre pixels of class 0's window is the whole one-entry array: a buffer cut to the block is the buffer read
    through the block, at any point. -/
theorem unit_blk4 (t : Fin cfg0.N) (g : Vec Ideal S1x1 .f32) :
    (cfg0.win 4).cut (grid0.coords t) g = ((cfg0.win 4).blk t).view.read (Elt Ideal) (g : S1x1.Idx → EReal) := by
  obtain ⟨-, -, -, -, -, -, -, -, ea, eb, -⟩ := idx_facts0 t
  funext j
  show g j = g (((cfg0.win 4).blk t).view.emb j)
  congr 1
  funext a
  apply Fin.ext
  match a with
  | ⟨0, _⟩ => show (j 0).val = win0_4.index t (0 : Fin 2) * 1 + 1 * (j 0).val; rw [ea]; omega
  | ⟨1, _⟩ => show (j 1).val = win0_4.index t (1 : Fin 2) * 1 + 1 * (j 1).val; rw [eb]; omega

/-- The one write-back of the total of the centre pixels of class 0, at the last point, writes what the last point left. -/
theorem flushed4_eq (c : Dev nD) (t : Fin cfg0.N) (hf : (cfg0.win 4).flush t = true) :
    (dat0 (F := Ideal) V c).flushed 4 t = ((cfg0.win 4).blk t).view.read (Elt Ideal) ((outsAt0 V c 2047 last_lt).o4 : S1x1.Idx → EReal) := by
  have hlt : t.val < 2048 := by have := t.isLt; have hN : cfg0.N = 2048 := N_0; omega
  have h1 : t.val = 2047 := by have := (flush0_4 t).mp hf; omega
  show (cfg0.win 4).cut (grid0.coords t) ((dat0 V c).after 4 t) = _
  rw [after0_4, outsAt0_last V c t.val t.isLt h1]
  exact unit_blk4 t _

/-- The one entry of that array is in the last point's block. -/
theorem cover4 (i : S1x1.Idx) : ∃ t : Fin cfg0.N, (cfg0.win 4).flush t = true ∧ i ∈ ((cfg0.win 4).blk t).view.set := by
  have hi0 : (i 0).val < 1 := (i 0).isLt
  have hi1 : (i 1).val < 1 := (i 1).isLt
  obtain ⟨-, -, -, -, -, -, -, -, ea, eb, -⟩ := idx_facts0 ⟨2047, last_lt⟩
  refine ⟨⟨2047, last_lt⟩, (flush0_4 _).mpr (by decide), ?_⟩
  show i ∈ ((View.whole main_v2_2).slice (win0_4.rect ⟨2047, last_lt⟩)).set
  rw [View.set_slice_whole, Rect.mem_set_unit]
  intro a
  match a with
  | ⟨0, _⟩ => show win0_4.index ⟨2047, last_lt⟩ (0 : Fin 2) * 1 ≤ (i 0).val ∧ (i 0).val < win0_4.index ⟨2047, last_lt⟩ (0 : Fin 2) * 1 + 1; rw [ea]; omega
  | ⟨1, _⟩ => show win0_4.index ⟨2047, last_lt⟩ (1 : Fin 2) * 1 ≤ (i 1).val ∧ (i 1).val < win0_4.index ⟨2047, last_lt⟩ (1 : Fin 2) * 1 + 1; rw [eb]; omega

/-- The total of the centre pixels of class 0 after the region: the sum over the 2048 tiles of the tile's partial sum. -/
theorem final4 (c : Dev nD) : ((dat0 (F := Ideal) V c).arrAt 4 cfg0.N : S1x1.Idx → EReal) (ix2 (0 : Fin 1) (0 : Fin 1))
    = ∑ t : Fin cfg0.N, tB (iblk0 V c 0 t) (iblk0 V c 1 t) :=
  (congrFun ((dat0 (F := Ideal) V c).arrAt_eq_of_cover 4 ((outsAt0 V c 2047 last_lt).o4 : S1x1.Idx → EReal) (fun t hf => flushed4_eq V c t hf) cover4) (ix2 (0 : Fin 1) (0 : Fin 1))).trans (o4_last V c)

/-- The one block of the number of patches of class 0's window is the whole one-entry array: a buffer cut to the block is the buffer read
    through the block, at any point. -/
theorem unit_blk5 (t : Fin cfg0.N) (g : Vec Ideal S1x1 .f32) :
    (cfg0.win 5).cut (grid0.coords t) g = ((cfg0.win 5).blk t).view.read (Elt Ideal) (g : S1x1.Idx → EReal) := by
  obtain ⟨-, -, -, -, -, -, -, -, -, -, ea, eb, -⟩ := idx_facts0 t
  funext j
  show g j = g (((cfg0.win 5).blk t).view.emb j)
  congr 1
  funext a
  apply Fin.ext
  match a with
  | ⟨0, _⟩ => show (j 0).val = win0_5.index t (0 : Fin 2) * 1 + 1 * (j 0).val; rw [ea]; omega
  | ⟨1, _⟩ => show (j 1).val = win0_5.index t (1 : Fin 2) * 1 + 1 * (j 1).val; rw [eb]; omega

/-- The one write-back of the number of patches of class 0, at the last point, writes what the last point left. -/
theorem flushed5_eq (c : Dev nD) (t : Fin cfg0.N) (hf : (cfg0.win 5).flush t = true) :
    (dat0 (F := Ideal) V c).flushed 5 t = ((cfg0.win 5).blk t).view.read (Elt Ideal) ((outsAt0 V c 2047 last_lt).o5 : S1x1.Idx → EReal) := by
  have hlt : t.val < 2048 := by have := t.isLt; have hN : cfg0.N = 2048 := N_0; omega
  have h1 : t.val = 2047 := by have := (flush0_5 t).mp hf; omega
  show (cfg0.win 5).cut (grid0.coords t) ((dat0 V c).after 5 t) = _
  rw [after0_5, outsAt0_last V c t.val t.isLt h1]
  exact unit_blk5 t _

/-- The one entry of that array is in the last point's block. -/
theorem cover5 (i : S1x1.Idx) : ∃ t : Fin cfg0.N, (cfg0.win 5).flush t = true ∧ i ∈ ((cfg0.win 5).blk t).view.set := by
  have hi0 : (i 0).val < 1 := (i 0).isLt
  have hi1 : (i 1).val < 1 := (i 1).isLt
  obtain ⟨-, -, -, -, -, -, -, -, -, -, ea, eb, -⟩ := idx_facts0 ⟨2047, last_lt⟩
  refine ⟨⟨2047, last_lt⟩, (flush0_5 _).mpr (by decide), ?_⟩
  show i ∈ ((View.whole main_v2_3).slice (win0_5.rect ⟨2047, last_lt⟩)).set
  rw [View.set_slice_whole, Rect.mem_set_unit]
  intro a
  match a with
  | ⟨0, _⟩ => show win0_5.index ⟨2047, last_lt⟩ (0 : Fin 2) * 1 ≤ (i 0).val ∧ (i 0).val < win0_5.index ⟨2047, last_lt⟩ (0 : Fin 2) * 1 + 1; rw [ea]; omega
  | ⟨1, _⟩ => show win0_5.index ⟨2047, last_lt⟩ (1 : Fin 2) * 1 ≤ (i 1).val ∧ (i 1).val < win0_5.index ⟨2047, last_lt⟩ (1 : Fin 2) * 1 + 1; rw [eb]; omega

/-- The number of patches of class 0 after the region: the sum over the 2048 tiles of the tile's partial sum. -/
theorem final5 (c : Dev nD) : ((dat0 (F := Ideal) V c).arrAt 5 cfg0.N : S1x1.Idx → EReal) (ix2 (0 : Fin 1) (0 : Fin 1))
    = ∑ t : Fin cfg0.N, nB (iblk0 V c 0 t) (iblk0 V c 1 t) :=
  (congrFun ((dat0 (F := Ideal) V c).arrAt_eq_of_cover 5 ((outsAt0 V c 2047 last_lt).o5 : S1x1.Idx → EReal) (fun t hf => flushed5_eq V c t hf) cover5) (ix2 (0 : Fin 1) (0 : Fin 1))).trans (o5_last V c)

/-- The one block of the total of the centre pixels of class 1's window is the whole one-entry array: a buffer cut to the block is the buffer read
    through the block, at any point. -/
theorem unit_blk6 (t : Fin cfg0.N) (g : Vec Ideal S1x1 .f32) :
    (cfg0.win 6).cut (grid0.coords t) g = ((cfg0.win 6).blk t).view.read (Elt Ideal) (g : S1x1.Idx → EReal) := by
  obtain ⟨-, -, -, -, -, -, -, -, -, -, -, -, ea, eb, -⟩ := idx_facts0 t
  funext j
  show g j = g (((cfg0.win 6).blk t).view.emb j)
  congr 1
  funext a
  apply Fin.ext
  match a with
  | ⟨0, _⟩ => show (j 0).val = win0_6.index t (0 : Fin 2) * 1 + 1 * (j 0).val; rw [ea]; omega
  | ⟨1, _⟩ => show (j 1).val = win0_6.index t (1 : Fin 2) * 1 + 1 * (j 1).val; rw [eb]; omega

/-- The one write-back of the total of the centre pixels of class 1, at the last point, writes what the last point left. -/
theorem flushed6_eq (c : Dev nD) (t : Fin cfg0.N) (hf : (cfg0.win 6).flush t = true) :
    (dat0 (F := Ideal) V c).flushed 6 t = ((cfg0.win 6).blk t).view.read (Elt Ideal) ((outsAt0 V c 2047 last_lt).o6 : S1x1.Idx → EReal) := by
  have hlt : t.val < 2048 := by have := t.isLt; have hN : cfg0.N = 2048 := N_0; omega
  have h1 : t.val = 2047 := by have := (flush0_6 t).mp hf; omega
  show (cfg0.win 6).cut (grid0.coords t) ((dat0 V c).after 6 t) = _
  rw [after0_6, outsAt0_last V c t.val t.isLt h1]
  exact unit_blk6 t _

/-- The one entry of that array is in the last point's block. -/
theorem cover6 (i : S1x1.Idx) : ∃ t : Fin cfg0.N, (cfg0.win 6).flush t = true ∧ i ∈ ((cfg0.win 6).blk t).view.set := by
  have hi0 : (i 0).val < 1 := (i 0).isLt
  have hi1 : (i 1).val < 1 := (i 1).isLt
  obtain ⟨-, -, -, -, -, -, -, -, -, -, -, -, ea, eb, -⟩ := idx_facts0 ⟨2047, last_lt⟩
  refine ⟨⟨2047, last_lt⟩, (flush0_6 _).mpr (by decide), ?_⟩
  show i ∈ ((View.whole main_v2_4).slice (win0_6.rect ⟨2047, last_lt⟩)).set
  rw [View.set_slice_whole, Rect.mem_set_unit]
  intro a
  match a with
  | ⟨0, _⟩ => show win0_6.index ⟨2047, last_lt⟩ (0 : Fin 2) * 1 ≤ (i 0).val ∧ (i 0).val < win0_6.index ⟨2047, last_lt⟩ (0 : Fin 2) * 1 + 1; rw [ea]; omega
  | ⟨1, _⟩ => show win0_6.index ⟨2047, last_lt⟩ (1 : Fin 2) * 1 ≤ (i 1).val ∧ (i 1).val < win0_6.index ⟨2047, last_lt⟩ (1 : Fin 2) * 1 + 1; rw [eb]; omega

/-- The total of the centre pixels of class 1 after the region: the sum over the 2048 tiles of the tile's partial sum. -/
theorem final6 (c : Dev nD) : ((dat0 (F := Ideal) V c).arrAt 6 cfg0.N : S1x1.Idx → EReal) (ix2 (0 : Fin 1) (0 : Fin 1))
    = ∑ t : Fin cfg0.N, tW (iblk0 V c 0 t) (iblk0 V c 1 t) :=
  (congrFun ((dat0 (F := Ideal) V c).arrAt_eq_of_cover 6 ((outsAt0 V c 2047 last_lt).o6 : S1x1.Idx → EReal) (fun t hf => flushed6_eq V c t hf) cover6) (ix2 (0 : Fin 1) (0 : Fin 1))).trans (o6_last V c)

/-- The one block of the number of patches of class 1's window is the whole one-entry array: a buffer cut to the block is the buffer read
    through the block, at any point. -/
theorem unit_blk7 (t : Fin cfg0.N) (g : Vec Ideal S1x1 .f32) :
    (cfg0.win 7).cut (grid0.coords t) g = ((cfg0.win 7).blk t).view.read (Elt Ideal) (g : S1x1.Idx → EReal) := by
  obtain ⟨-, -, -, -, -, -, -, -, -, -, -, -, -, -, ea, eb⟩ := idx_facts0 t
  funext j
  show g j = g (((cfg0.win 7).blk t).view.emb j)
  congr 1
  funext a
  apply Fin.ext
  match a with
  | ⟨0, _⟩ => show (j 0).val = win0_7.index t (0 : Fin 2) * 1 + 1 * (j 0).val; rw [ea]; omega
  | ⟨1, _⟩ => show (j 1).val = win0_7.index t (1 : Fin 2) * 1 + 1 * (j 1).val; rw [eb]; omega

/-- The one write-back of the number of patches of class 1, at the last point, writes what the last point left. -/
theorem flushed7_eq (c : Dev nD) (t : Fin cfg0.N) (hf : (cfg0.win 7).flush t = true) :
    (dat0 (F := Ideal) V c).flushed 7 t = ((cfg0.win 7).blk t).view.read (Elt Ideal) ((outsAt0 V c 2047 last_lt).o7 : S1x1.Idx → EReal) := by
  have hlt : t.val < 2048 := by have := t.isLt; have hN : cfg0.N = 2048 := N_0; omega
  have h1 : t.val = 2047 := by have := (flush0_7 t).mp hf; omega
  show (cfg0.win 7).cut (grid0.coords t) ((dat0 V c).after 7 t) = _
  rw [after0_7, outsAt0_last V c t.val t.isLt h1]
  exact unit_blk7 t _

/-- The one entry of that array is in the last point's block. -/
theorem cover7 (i : S1x1.Idx) : ∃ t : Fin cfg0.N, (cfg0.win 7).flush t = true ∧ i ∈ ((cfg0.win 7).blk t).view.set := by
  have hi0 : (i 0).val < 1 := (i 0).isLt
  have hi1 : (i 1).val < 1 := (i 1).isLt
  obtain ⟨-, -, -, -, -, -, -, -, -, -, -, -, -, -, ea, eb⟩ := idx_facts0 ⟨2047, last_lt⟩
  refine ⟨⟨2047, last_lt⟩, (flush0_7 _).mpr (by decide), ?_⟩
  show i ∈ ((View.whole main_v2_5).slice (win0_7.rect ⟨2047, last_lt⟩)).set
  rw [View.set_slice_whole, Rect.mem_set_unit]
  intro a
  match a with
  | ⟨0, _⟩ => show win0_7.index ⟨2047, last_lt⟩ (0 : Fin 2) * 1 ≤ (i 0).val ∧ (i 0).val < win0_7.index ⟨2047, last_lt⟩ (0 : Fin 2) * 1 + 1; rw [ea]; omega
  | ⟨1, _⟩ => show win0_7.index ⟨2047, last_lt⟩ (1 : Fin 2) * 1 ≤ (i 1).val ∧ (i 1).val < win0_7.index ⟨2047, last_lt⟩ (1 : Fin 2) * 1 + 1; rw [eb]; omega

/-- The number of patches of class 1 after the region: the sum over the 2048 tiles of the tile's partial sum. -/
theorem final7 (c : Dev nD) : ((dat0 (F := Ideal) V c).arrAt 7 cfg0.N : S1x1.Idx → EReal) (ix2 (0 : Fin 1) (0 : Fin 1))
    = ∑ t : Fin cfg0.N, nW (iblk0 V c 0 t) (iblk0 V c 1 t) :=
  (congrFun ((dat0 (F := Ideal) V c).arrAt_eq_of_cover 7 ((outsAt0 V c 2047 last_lt).o7 : S1x1.Idx → EReal) (fun t hf => flushed7_eq V c t hf) cover7) (ix2 (0 : Fin 1) (0 : Fin 1))).trans (o7_last V c)

end Cert.KernelIdeal.Value0

end
-- ==== Proof.Pass2Value.lean ====
/-
  The second pass, entry by entry, is the specification.

  The second pass reads the two global means out of a `[1, 2]` array, and for a tile of 2048 patches the class column and
  the centre-pixel column. Read at row `r`, what it stores is the specification's correction of one patch: the class,
  except that class 2 becomes 0 when the centre pixel is strictly nearer the first mean than the second, and 1 otherwise.

  The steps: a slice of one column of the `[1, 2]` array and the extraction of its one entry read that entry; the absolute
  value of an extended real `t` is the larger of `t` and `-t`; the comparisons and choices read through at an index.
-/
import proofs.«177650_j67585605370461_2_alg».proof.Proof.Gen.KernelIdeal.Skeleton
import proofs.«177650_j67585605370461_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.ValueIdx Cert.KernelIdeal Cert.KernelIdeal.Gen

/-! ## The second pass, entry by entry -/

/-- The one entry of a `[1, 1]` array, taken out as a scalar. -/
theorem extractAt_00 (v : FVec Ideal S1x1 .f32) (h : ∀ a, (![0, 0] : Fin 2 → Nat) a < S1x1.size a) :
    extractAt ![0, 0] v h = v (ix2 (0 : Fin 1) (0 : Fin 1)) := by
  unfold extractAt
  exact congrArg v (funext fun c => Fin.ext (by
    match c with
    | ⟨0, _⟩ => rfl
    | ⟨1, _⟩ => rfl))

section Pass2
variable (a : Vec Ideal S1x2 .f32) (ov vv : Vec Ideal S2048x1 .f32) (r : Fin 2048)

/-- The first of the two global means, as the second pass takes it out of the `[1, 2]` array. -/
theorem meanB_apply :
    extractAt ![0, 0] (extractStridedSlice S1x1 ![0, 0] (shapeCast S1x2 a shapeCasts_S1x2_S1x2) slices_S1x2_o0_0_S1x1)
        inpos_S1x1_p0_0 = a (ix2 (0 : Fin 1) (0 : Fin 2)) := by
  rw [shapeCast_self]
  refine (extractAt_00 _ _).trans ?_
  exact slice2_axis1_apply 0 a slices_S1x2_o0_0_S1x1 (0 : Fin 1) (0 : Fin 1) (0 : Fin 2) rfl

/-- The second of the two global means. -/
theorem meanW_apply :
    extractAt ![0, 0] (extractStridedSlice S1x1 ![0, 1] (shapeCast S1x2 a shapeCasts_S1x2_S1x2) slices_S1x2_o0_1_S1x1)
        inpos_S1x1_p0_0 = a (ix2 (0 : Fin 1) (1 : Fin 2)) := by
  rw [shapeCast_self]
  refine (extractAt_00 _ _).trans ?_
  exact slice2_axis1_apply 1 a slices_S1x2_o0_1_S1x1 (0 : Fin 1) (0 : Fin 1) (1 : Fin 2) rfl

/-- The second pass's arithmetic as a function of the two means, the class column and the centre-pixel column. -/
def pass2 (aB aW : Ideal .f32) (oc vc : FVec Ideal S2048x1 .f32) : FVec Ideal S2048x1 .f32 :=
  select (cmpf .oeq oc (broadcast S2048x1 (Scalar.ofBits .f32 0x40000000#32)))
    (select (cmpf .olt (absf (subf vc (broadcast S2048x1 aB))) (absf (subf vc (broadcast S2048x1 aW))))
      (broadcast S2048x1 (Scalar.ofBits .f32 0x00000000#32)) (broadcast S2048x1 (Scalar.ofBits .f32 0x3F800000#32)))
    oc

/-- Entry by entry it is the specification's correction of one patch. -/
theorem pass2_apply (aB aW : Ideal .f32) (oc vc : FVec Ideal S2048x1 .f32) (i : S2048x1.Idx) :
    pass2 aB aW oc vc i = Cert.Spec.resolve aB aW (oc i) (vc i) := rfl

/-- The stored value of the second pass is that function of what it loads. -/
theorem k1_pay1_eq :
    k1_pay1 a ov vv
      = pass2
          (extractAt ![0, 0] (extractStridedSlice S1x1 ![0, 0] (shapeCast S1x2 a shapeCasts_S1x2_S1x2) slices_S1x2_o0_0_S1x1)
            inpos_S1x1_p0_0)
          (extractAt ![0, 0] (extractStridedSlice S1x1 ![0, 1] (shapeCast S1x2 a shapeCasts_S1x2_S1x2) slices_S1x2_o0_1_S1x1)
            inpos_S1x1_p0_0)
          (shapeCast S2048x1 ov shapeCasts_S2048x1_S2048x1) (shapeCast S2048x1 vv shapeCasts_S2048x1_S2048x1) := rfl

/-- THE CORRECTED CLASS of patch `r` of a tile. -/
theorem resolve_apply :
    k1_pay1 a ov vv (ix2 r (0 : Fin 1))
      = Cert.Spec.resolve (a (ix2 (0 : Fin 1) (0 : Fin 2))) (a (ix2 (0 : Fin 1) (1 : Fin 2)))
          (ov (ix2 r (0 : Fin 1))) (vv (ix2 r (0 : Fin 1))) := by
  rw [k1_pay1_eq, meanB_apply, meanW_apply, shapeCast_self, shapeCast_self]
  exact pass2_apply _ _ ov vv (ix2 r (0 : Fin 1))

end Pass2

end Cert.KernelValue

end
-- ==== Proof.Pass2Array.lean ====
/- The second pallas_call's value, from blocks to the whole array: the result array after the region is, entry by
   entry, the resolved class of that patch — a function of the two global means, the patch's class and its centre
   pixel. Each grid point writes back one block of 2048 rows; the block at point `t` is rows `2048 t … 2048 t + 2047` of
   that one function, and the 2048 blocks cover the 4194304 rows. -/
import proofs.«177650_j67585605370461_2_alg».proof.Proof.Pass2Frame
import proofs.«177650_j67585605370461_2_alg».proof.Proof.Spec
import proofs.«177650_j67585605370461_2_alg».proof.Proof.Pass2Value
import Idealize.ShloMosaic.Lib.Pipeline.Value
import Idealize.ShloMosaic.Lib.ValueIdx

noncomputable section

namespace Cert.KernelValue1

open Cert.KernelIdeal Cert.KernelIdeal.Gen Cert.KernelIdeal.Frame1 Idealize.ShloMosaic Idealize.ShloMosaic.TcCoe Idealize.SL.Sem
open Idealize.ShloMosaic.Pipeline (Dat)
open Idealize.ShloMosaic.ValueIdx (ix2)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The result array as ONE function of the two means `A`, the classes `O` and the centre pixels `X`, index by index. -/
abbrev G1 (A : S1x2.Idx → EReal) (O X : S4194304x1.Idx → EReal) : S4194304x1.Idx → EReal :=
  fun i => Cert.Spec.resolve (A (ix2 0 0)) (A (ix2 0 1)) (O i) (X i)

/-! ## The body's payload at any index of its block -/

section Payload

-- What the body stores at row `r` of its block is the resolved class of that row: the payload equation, taken
-- here as a hypothesis over blocks as variables.
variable (hres : ∀ (a : Vec Ideal S1x2 .f32) (ov vv : Vec Ideal S2048x1 .f32) (r : Fin 2048),
      k1_pay1 a ov vv (ix2 r 0) = Cert.Spec.resolve (a (ix2 0 0)) (a (ix2 0 1)) (ov (ix2 r 0)) (vv (ix2 r 0)))

include hres in
/-- The same at any index `j` of the [2048, 1] block: its second coordinate is 0. -/
theorem pay_at (a : Vec Ideal S1x2 .f32) (ov vv : Vec Ideal S2048x1 .f32) (j : S2048x1.Idx) :
    k1_pay1 a ov vv j = Cert.Spec.resolve (a (ix2 0 0)) (a (ix2 0 1)) (ov j) (vv j) := by
  have h1 : @Eq (Fin 1) (j 1) (0 : Fin 1) := Fin.ext (Nat.lt_one_iff.mp (ValueIdx.idx2_lt1 j))
  have hj : j = ix2 (j 0) 0 := (ValueIdx.eq_ix2 j).trans (congrArg (ix2 (j 0)) h1)
  rw [hj]
  exact hres a ov vv (j 0)

end Payload

/-! ## The index maps, and each input block as entries of its array -/

/-- The printed index maps, decided over the grid: the means' block never moves; the classes', the centre pixels'
    and the result's block at point `t` is block `t` of its column. -/
theorem idx_facts : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The means' block at any point is the means' array. -/
theorem means_apply (c : Dev nD) (t : Fin cfg1.N) (x : S1x2.Idx) :
    (iblk1 V c 0 t : Vec Ideal S1x2 .f32) x = (V c main_v14 : S1x2.Idx → EReal) x := by
  obtain ⟨e0, e1, -⟩ := idx_facts t
  unfold iblk1
  rw [View.read_apply]
  show V c main_v14 _ = V c main_v14 _
  congr 1
  funext a
  apply Fin.ext
  match a with
  | ⟨0, _⟩ => show win1_0.index t (0 : Fin 2) * 1 + 1 * (x 0).val = (x 0).val; rw [e0]; omega
  | ⟨1, _⟩ => show win1_0.index t (1 : Fin 2) * 2 + 1 * (x 1).val = (x 1).val; rw [e1]; omega

/-- The classes' block at point `t` is rows `2048 t … 2048 t + 2047` of the classes' array. -/
theorem classes_apply (c : Dev nD) (t : Fin cfg1.N) (x : S2048x1.Idx) (k : S4194304x1.Idx)
    (hk0 : (k 0).val = t.val * 2048 + (x 0).val) (hk1 : (k 1).val = (x 1).val) :
    (iblk1 V c 1 t : Vec Ideal S2048x1 .f32) x = (V c main_v2_0 : S4194304x1.Idx → EReal) k := by
  obtain ⟨-, -, e2, e3, -⟩ := idx_facts t
  unfold iblk1
  rw [View.read_apply]
  show V c main_v2_0 _ = V c main_v2_0 _
  congr 1
  funext a
  apply Fin.ext
  match a with
  | ⟨0, _⟩ => show win1_1.index t (0 : Fin 2) * 2048 + 1 * (x 0).val = (k 0).val; rw [e2, hk0]; omega
  | ⟨1, _⟩ => show win1_1.index t (1 : Fin 2) * 1 + 1 * (x 1).val = (k 1).val; rw [e3, hk1]; omega

/-- The centre pixels' block at point `t` is rows `2048 t … 2048 t + 2047` of the centre pixels' array. -/
theorem centres_apply (c : Dev nD) (t : Fin cfg1.N) (x : S2048x1.Idx) (k : S4194304x1.Idx)
    (hk0 : (k 0).val = t.val * 2048 + (x 0).val) (hk1 : (k 1).val = (x 1).val) :
    (iblk1 V c 2 t : Vec Ideal S2048x1 .f32) x = (V c main_v2_1 : S4194304x1.Idx → EReal) k := by
  obtain ⟨-, -, -, -, e4, e5, -⟩ := idx_facts t
  unfold iblk1
  rw [View.read_apply]
  show V c main_v2_1 _ = V c main_v2_1 _
  congr 1
  funext a
  apply Fin.ext
  match a with
  | ⟨0, _⟩ => show win1_2.index t (0 : Fin 2) * 2048 + 1 * (x 0).val = (k 0).val; rw [e4, hk0]; omega
  | ⟨1, _⟩ => show win1_2.index t (1 : Fin 2) * 1 + 1 * (x 1).val = (k 1).val; rw [e5, hk1]; omega

/-! ## What each point writes back, the cover, and the array -/

section Array

variable (hres : ∀ (a : Vec Ideal S1x2 .f32) (ov vv : Vec Ideal S2048x1 .f32) (r : Fin 2048),
      k1_pay1 a ov vv (ix2 r 0) = Cert.Spec.resolve (a (ix2 0 0)) (a (ix2 0 1)) (ov (ix2 r 0)) (vv (ix2 r 0)))

include hres in
/-- WHAT POINT `t` WRITES BACK is block `t` of `G1` of the three arrays as the region finds them: the body's one store
    is the payload of the three blocks read whole, the payload at a row is the resolved class of that row, and row
    `j` of a block at point `t` is row `2048 t + j` of its array. -/
theorem flushed_eq_of (c : Dev nD) (t : Fin cfg1.N) :
    (dat1 (F := Ideal) V c).flushed 3 t = ((cfg1.win 3).blk t).view.read (Elt Ideal) (G1 (V c main_v14) (V c main_v2_0) (V c main_v2_1)) := by
  show (cfg1.win 3).cut (grid1.coords t) ((dat1 V c).after 3 t) = _
  rw [after1_3]
  unfold out1_3
  rw [View.canon_unit_zero hz]
  simp only [View.ld_unit_zero (S := S2048x1) hz, View.ld_unit_zero (S := S1x2) hz]
  obtain ⟨-, -, -, -, -, -, e6, e7⟩ := idx_facts t
  funext j
  show k1_pay1 (iblk1 V c 0 t) (iblk1 V c 1 t) (iblk1 V c 2 t) j
    = Cert.Spec.resolve (V c main_v14 (ix2 0 0)) (V c main_v14 (ix2 0 1)) (V c main_v2_0 (((cfg1.win 3).blk t).view.emb j)) (V c main_v2_1 (((cfg1.win 3).blk t).view.emb j))
  refine (pay_at hres (iblk1 V c 0 t) (iblk1 V c 1 t) (iblk1 V c 2 t) j).trans ?_
  have h0 := means_apply V c t (ix2 0 0)
  have h1 := means_apply V c t (ix2 0 1)
  have hk0 : ((((cfg1.win 3).blk t).view.emb j) 0).val = t.val * 2048 + (j 0).val := by
    show win1_3.index t (0 : Fin 2) * 2048 + 1 * (j 0).val = _; rw [e6]; omega
  have hk1 : ((((cfg1.win 3).blk t).view.emb j) 1).val = (j 1).val := by
    show win1_3.index t (1 : Fin 2) * 1 + 1 * (j 1).val = _; rw [e7]; omega
  have h2 := classes_apply V c t j (((cfg1.win 3).blk t).view.emb j) hk0 hk1
  have h3 := centres_apply V c t j (((cfg1.win 3).blk t).view.emb j) hk0 hk1
  rw [h0, h1, h2, h3]

/-- An index of the array is in point `t`'s block iff each coordinate is in the block's range on its axis. -/
theorem mem_blk (t : Fin cfg1.N) (i : S4194304x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v15).slice (win1_3.rect t)).set ↔ _
  rw [View.set_slice_whole, Rect.mem_set_unit]
  exact Iff.rfl

/-- Every row of the array is in some point's block: row `n` in that of point `n / 2048`. -/
theorem cover (i : S4194304x1.Idx) : ∃ t : Fin cfg1.N, (cfg1.win 3).flush t = true ∧ i ∈ ((cfg1.win 3).blk t).view.set := by
  have hi0 : (i 0).val < 4194304 := (i 0).isLt
  have hi1 : (i 1).val < 1 := (i 1).isLt
  have hN : cfg1.N = 2048 := N_1
  let t : Fin cfg1.N := ⟨(i 0).val / 2048, by rw [hN]; omega⟩
  obtain ⟨-, -, -, -, -, -, e6, e7⟩ := idx_facts t
  have ht : t.val = (i 0).val / 2048 := rfl
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; rw [e6, ht]; omega
  | ⟨1, _⟩ => show win1_3.index t (1 : Fin 2) * 1 ≤ (i 1).val ∧ (i 1).val < win1_3.index t (1 : Fin 2) * 1 + 1; rw [e7]; omega

include hres in
/-- THE ARRAY after the region, given the payload equation: every entry is the resolved class of that patch — of the
    two means, the patch's class and the patch's centre pixel. -/
theorem final1_of (c : Dev nD) : (dat1 (F := Ideal) V c).arrAt 3 cfg1.N
    = fun i : S4194304x1.Idx => Cert.Spec.resolve ((V c main_v14 : S1x2.Idx → EReal) (ix2 0 0)) ((V c main_v14 : S1x2.Idx → EReal) (ix2 0 1))
        ((V c main_v2_0 : S4194304x1.Idx → EReal) i) ((V c main_v2_1 : S4194304x1.Idx → EReal) i) :=
  (dat1 (F := Ideal) V c).arrAt_eq_of_cover 3 (G1 (V c main_v14) (V c main_v2_0) (V c main_v2_1)) (fun t _ => flushed_eq_of V hres c t) cover

end Array

/-! ## With the payload equation proved -/

/-- What point `t` writes back is block `t` of `G1`. -/
theorem flushed_eq (c : Dev nD) (t : Fin cfg1.N) :
    (dat1 (F := Ideal) V c).flushed 3 t = ((cfg1.win 3).blk t).view.read (Elt Ideal) (G1 (V c main_v14) (V c main_v2_0) (V c main_v2_1)) :=
  flushed_eq_of V Cert.KernelValue.resolve_apply c t

/-- THE ARRAY after the region: every entry is the resolved class of that patch. -/
theorem final1 (c : Dev nD) : (dat1 (F := Ideal) V c).arrAt 3 cfg1.N
    = fun i : S4194304x1.Idx => Cert.Spec.resolve ((V c main_v14 : S1x2.Idx → EReal) (ix2 0 0)) ((V c main_v14 : S1x2.Idx → EReal) (ix2 0 1))
        ((V c main_v2_0 : S4194304x1.Idx → EReal) i) ((V c main_v2_1 : S4194304x1.Idx → EReal) i) :=
  final1_of V Cert.KernelValue.resolve_apply c

end Cert.KernelValue1

end
-- ==== Proof.LibUnitStack.lean ====
/-
  Two arrays stacked along a unit axis, read at an index.

  `jnp.stack([x₁, x₂], axis)` gives both arrays a new axis of extent 1 and joins them along it. Read at
  an index of the joined array, position 0 on that axis is the first array and position 1 the second, each
  at the index with the same coordinates off the axis (and 0, the only position there is, on it).
-/
import Idealize.ShloMosaic.Lib.Pipeline.Value

noncomputable section

namespace Cert.UnitStack

open Idealize.ShloMosaic

/-- A join of two arrays of one shape `s`, of extent 1 along the joined axis `a`, read at `j`: the first
    array where `j`'s coordinate on `a` is 0, the second elsewhere, at any index `i` of `s` that has
    `j`'s coordinates off the axis. -/
theorem concatenate_unit_pair_apply {α : Type} {t s : Shape} (a : Fin t.rank) (x₁ x₂ : s.Idx → α)
    (h : Shape.Concatenates [s, s] t a) (hr : s.rank = t.rank) (hs : s.size (a.cast hr.symm) = 1)
    (j : t.Idx) (i : s.Idx) (hi : ∀ b : Fin s.rank, b.cast hr ≠ a → (i b).val = (j (b.cast hr)).val) :
    concatenate t a [⟨s, x₁⟩, ⟨s, x₂⟩] h j = if (j a).val = 0 then x₁ i else x₂ i := by
  have h0 : (i (a.cast hr.symm)).val = 0 := by
    have := (i (a.cast hr.symm)).isLt; omega
  have hj : (j a).val < 2 := by
    have e := h.2.2
    simp only [List.map, dif_pos hr, List.sum_cons, List.sum_nil] at e
    have := (j a).isLt; omega
  by_cases hz : (j a).val = 0
  · rw [if_pos hz]
    refine concatenate_pair_apply_left a x₁ x₂ h j hr i (fun b => ?_)
    by_cases hb : b.cast hr = a
    · have eb : b = a.cast hr.symm := Fin.ext (by have := congrArg Fin.val hb; simpa using this)
      subst eb
      rw [h0]
      exact hz.symm
    · exact hi b hb
  · rw [if_neg hz]
    refine concatenate_pair_apply_right a x₁ x₂ h j hr hr i hi ?_
    rw [h0, hs]; omega

end Cert.UnitStack

end
-- ==== Proof.HostGlue.lean ====
/-
  The host operations between the two passes, read at an index.

  Three stretches of host operations surround the two passes. From ANY contents of the buffers: the first stretch shows
  each `[4194304, 3, 3]` input as a `[4194304, 9]` array whose entry `(n, k)` is pixel `k` of patch `n`, that is entry
  `(n, k / 3, k % 3)`; the middle stretch turns the four accumulated numbers into the two means — each a sum divided by
  the larger of a count and 1 — laid side by side in a `[1, 2]` array, and leaves the first pass's two columns as they
  were; the last stretch shows the `[4194304, 1]` column of results as the `[2048, 2048]` array whose entry `(p, q)` is
  row `p * 2048 + q`.

  The steps: each stretch's result is the composite of its operations' functions applied to the operand buffers; a
  reshape reads the entry of equal row-major position; a `[1, 1]` array seen as a scalar, a scalar seen as a one-entry
  vector, and two one-entry vectors joined into a pair read their entries; a buffer no operation writes is unchanged.
-/
import proofs.«177650_j67585605370461_2_alg».proof.Proof.Gen.KernelIdeal.Launch
import proofs.«177650_j67585605370461_2_alg».proof.Proof.Gen.KernelIdeal.Regions
import proofs.«177650_j67585605370461_2_alg».proof.Proof.Spec
import proofs.«177650_j67585605370461_2_alg».proof.Proof.LibUnitStack
import Idealize.ShloMosaic.Lib.StableHlo.Run
import Idealize.ShloMosaic.Lib.Pipeline.Value
import Idealize.ShloMosaic.Lib.ValueIdx
import Idealize.ShloMosaic.Lib.ValueLayout

noncomputable section

namespace Cert.HostGlue

open Idealize.ShloMosaic Idealize.ShloMosaic.ValueIdx Cert.KernelIdeal Cert.KernelIdeal.Gen

variable (W : Valuation Cert.KernelIdeal.τ Cert.KernelIdeal.sig (Elt Ideal))

/-! ## The first stretch: the two inputs seen as patches -/

/-- A `[4194304, 3, 3]` array seen as `[4194304, 9]`: entry `(n, k)` is pixel `k` of patch `n`. -/
theorem reshape_patches (a : (⟨3, ![4194304, 3, 3]⟩ : Shape).Idx → EReal)
    (h : (⟨3, ![4194304, 3, 3]⟩ : Shape).ShapeCasts ⟨2, ![4194304, 9]⟩) (n : Fin 4194304) (k : Fin 9) :
    shapeCast ⟨2, ![4194304, 9]⟩ a h (ix2 n k) = Cert.Spec.patches a n k := by
  unfold Cert.Spec.patches
  refine shapeCast_apply a h _ _ ?_
  rw [Shape.rowMajor_val_three, Shape.rowMajor_val_two]
  have hk := k.isLt
  show (n.val * 3 + k.val / 3) * 3 + k.val % 3 = n.val * 9 + k.val
  omega

theorem entry_image (n : Fin 4194304) (k : Fin 9) :
    (StableHlo.after (hostOps0 (F := Ideal)) W (Proc.devRef .tc main_v0) : S4194304x9.Idx → EReal) (ix2 n k)
      = Cert.Spec.patches (W (Proc.devRef .tc main_arg0)) n k := by
  have e : (StableHlo.after (hostOps0 (F := Ideal)) W (Proc.devRef .tc main_v0) : S4194304x9.Idx → EReal)
      = shapeCast S4194304x9 (W (Proc.devRef .tc main_arg0)) shapeCasts_S4194304x3x3_S4194304x9 := by
    simp only [hostOps0]
    after_results
    rfl
  rw [e]
  exact reshape_patches _ _ n k

theorem entry_edges (n : Fin 4194304) (k : Fin 9) :
    (StableHlo.after (hostOps0 (F := Ideal)) W (Proc.devRef .tc main_v1) : S4194304x9.Idx → EReal) (ix2 n k)
      = Cert.Spec.patches (W (Proc.devRef .tc main_arg1)) n k := by
  have e : (StableHlo.after (hostOps0 (F := Ideal)) W (Proc.devRef .tc main_v1) : S4194304x9.Idx → EReal)
      = shapeCast S4194304x9 (W (Proc.devRef .tc main_arg1)) shapeCasts_S4194304x3x3_S4194304x9 := by
    simp only [hostOps0]
    after_results
    rfl
  rw [e]
  exact reshape_patches _ _ n k

/-! ## The last stretch: the column of results seen as the `[2048, 2048]` array -/

/-- A `[4194304, 1]` column seen as `[2048, 2048]`: entry `(p, q)` is row `p * 2048 + q` of the column. -/
theorem reshape_grid (a : (⟨2, ![4194304, 1]⟩ : Shape).Idx → EReal)
    (h : (⟨2, ![4194304, 1]⟩ : Shape).ShapeCasts ⟨2, ![2048, 2048]⟩) (p q : Fin 2048) :
    shapeCast ⟨2, ![2048, 2048]⟩ a h (ix2 p q)
      = a (ix2 (⟨p.val * 2048 + q.val, by have := p.isLt; have := q.isLt; omega⟩ : Fin 4194304) (0 : Fin 1)) := by
  refine shapeCast_apply a h _ _ ?_
  rw [Shape.rowMajor_val_two, Shape.rowMajor_val_two]
  show (p.val * 2048 + q.val) * 1 + 0 = p.val * 2048 + q.val
  omega

theorem final_reshape (p q : Fin 2048) :
    (StableHlo.after (hostOps2 (F := Ideal)) W (Proc.devRef .tc main_v16) : S2048x2048.Idx → EReal) (ix2 p q)
      = (W (Proc.devRef .tc main_v15) : S4194304x1.Idx → EReal)
          (ix2 (⟨p.val * 2048 + q.val, by have := p.isLt; have := q.isLt; omega⟩ : Fin 4194304) (0 : Fin 1)) := by
  have e : (StableHlo.after (hostOps2 (F := Ideal)) W (Proc.devRef .tc main_v16) : S2048x2048.Idx → EReal)
      = shapeCast S2048x2048 (W (Proc.devRef .tc main_v15)) shapeCasts_S4194304x1_S2048x2048 := by
    simp only [hostOps2]
    after_results
    rfl
  rw [e]
  exact reshape_grid _ _ p q

/-! ## The middle stretch leaves the first pass's two columns alone -/

theorem means_keep (r : Ref Cert.KernelIdeal.sig .tc) (h : r ∉ hostOps1_W) :
    StableHlo.after (hostOps1 (F := Ideal)) W (Proc.devRef .tc r) = W (Proc.devRef .tc r) :=
  StableHlo.after_of_writes_sub hostOps1 W hostOps1_writes h

theorem means_keep_class : StableHlo.after (hostOps1 (F := Ideal)) W (Proc.devRef .tc main_v2_0) = W (Proc.devRef .tc main_v2_0) :=
  means_keep W main_v2_0 (by decide)

theorem means_keep_centre : StableHlo.after (hostOps1 (F := Ideal)) W (Proc.devRef .tc main_v2_1) = W (Proc.devRef .tc main_v2_1) :=
  means_keep W main_v2_1 (by decide)

/-! ## The middle stretch: the two global means -/

/-- A `[1, 1]` array seen as a scalar holds its one entry. -/
theorem scalar_of_11 (x : (⟨2, ![1, 1]⟩ : Shape).Idx → EReal) (h : (⟨2, ![1, 1]⟩ : Shape).ShapeCasts ⟨0, ![]⟩) :
    shapeCast ⟨0, ![]⟩ x h ix0 = x (ix2 (0 : Fin 1) (0 : Fin 1)) := by
  refine shapeCast_apply x h _ _ ?_
  rw [Shape.rowMajor_val_two]
  show 0 * 1 + 0 = (Shape.rowMajorPi _ _).val
  rw [Shape.rowMajorPi_zero]

/-- A scalar seen as a one-entry vector holds the scalar. -/
theorem vec1_of_scalar (x : (⟨0, ![]⟩ : Shape).Idx → EReal) (h : S_.BroadcastsInDim S1 (![] : Fin 0 → Fin S1.rank)) :
    broadcastInDim S1 ![] h x (ix1 (0 : Fin 1)) = x ix0 :=
  broadcastInDim_apply _ h x _ ix0 fun a => a.elim0

/-- One mean: a sum kept as `[1, 1]`, divided by the larger of a count kept as `[1, 1]` and 1. -/
def meanOf (sm ct : S1x1.Idx → EReal) : S_.Idx → EReal :=
  Host.divf (F := Ideal) (φ := .f32) (shapeCast S_ sm shapeCasts_S1x1_S_)
    (maximumf (shapeCast S_ ct shapeCasts_S1x1_S_) (constant (F := Ideal) S_ .f32 0x3F800000#32))

theorem meanOf_apply (sm ct : S1x1.Idx → EReal) :
    meanOf sm ct ix0
      = Ideal.div (sm (ix2 (0 : Fin 1) (0 : Fin 1))) (max (ct (ix2 (0 : Fin 1) (0 : Fin 1))) Cert.Spec.f1) := by
  show Ideal.div (shapeCast S_ sm shapeCasts_S1x1_S_ ix0)
      (max (shapeCast S_ ct shapeCasts_S1x1_S_ ix0) (Ideal.ofBits .f32 0x3F800000#32)) = _
  rw [scalar_of_11, scalar_of_11]

/-- The two means side by side as a `[1, 2]` array. -/
def meansOf (m0 m1 : S_.Idx → EReal) : S1x2.Idx → EReal :=
  shapeCast S1x2
    (concatenate S2 0 [⟨S1, broadcastInDim S1 ![] bcast_S_S1 m0⟩, ⟨S1, broadcastInDim S1 ![] bcast_S_S1 m1⟩]
      concatenates_S1_S1_S2_d0)
    shapeCasts_S2_S1x2

theorem meansOf_apply0 (m0 m1 : S_.Idx → EReal) : meansOf m0 m1 (ix2 (0 : Fin 1) (0 : Fin 2)) = m0 ix0 := by
  unfold meansOf
  refine (shapeCast_a_1a_apply _ shapeCasts_S2_S1x2 (0 : Fin 1) (0 : Fin 2)).trans ?_
  refine (Cert.UnitStack.concatenate_unit_pair_apply (t := S2) (s := S1) (0 : Fin 1) _ _ concatenates_S1_S1_S2_d0 rfl rfl
    (ix1 (0 : Fin 2)) (ix1 (0 : Fin 1)) fun b hb => absurd (Fin.ext (Nat.lt_one_iff.mp b.isLt)) hb).trans ?_
  refine (if_pos rfl).trans ?_
  exact vec1_of_scalar m0 bcast_S_S1

theorem meansOf_apply1 (m0 m1 : S_.Idx → EReal) : meansOf m0 m1 (ix2 (0 : Fin 1) (1 : Fin 2)) = m1 ix0 := by
  unfold meansOf
  refine (shapeCast_a_1a_apply _ shapeCasts_S2_S1x2 (0 : Fin 1) (1 : Fin 2)).trans ?_
  refine (Cert.UnitStack.concatenate_unit_pair_apply (t := S2) (s := S1) (0 : Fin 1) _ _ concatenates_S1_S1_S2_d0 rfl rfl
    (ix1 (1 : Fin 2)) (ix1 (0 : Fin 1)) fun b hb => absurd (Fin.ext (Nat.lt_one_iff.mp b.isLt)) hb).trans ?_
  rw [if_neg (by decide)]
  exact vec1_of_scalar m1 bcast_S_S1

/-- What the middle stretch leaves in the `[1, 2]` array of means, as a term of what the first pass accumulated. -/
theorem means_eq :
    (StableHlo.after (hostOps1 (F := Ideal)) W (Proc.devRef .tc main_v14) : S1x2.Idx → EReal)
      = meansOf (meanOf (W (Proc.devRef .tc main_v2_2)) (W (Proc.devRef .tc main_v2_3)))
          (meanOf (W (Proc.devRef .tc main_v2_4)) (W (Proc.devRef .tc main_v2_5))) := by
  simp only [hostOps1]
  after_results
  rfl

theorem means_B :
    (StableHlo.after (hostOps1 (F := Ideal)) W (Proc.devRef .tc main_v14) : S1x2.Idx → EReal) (ix2 (0 : Fin 1) (0 : Fin 2))
      = Ideal.div ((W (Proc.devRef .tc main_v2_2) : S1x1.Idx → EReal) (ix2 (0 : Fin 1) (0 : Fin 1)))
          (max ((W (Proc.devRef .tc main_v2_3) : S1x1.Idx → EReal) (ix2 (0 : Fin 1) (0 : Fin 1))) Cert.Spec.f1) := by
  rw [means_eq, meansOf_apply0, meanOf_apply]

theorem means_W :
    (StableHlo.after (hostOps1 (F := Ideal)) W (Proc.devRef .tc main_v14) : S1x2.Idx → EReal) (ix2 (0 : Fin 1) (1 : Fin 2))
      = Ideal.div ((W (Proc.devRef .tc main_v2_4) : S1x1.Idx → EReal) (ix2 (0 : Fin 1) (0 : Fin 1)))
          (max ((W (Proc.devRef .tc main_v2_5) : S1x1.Idx → EReal) (ix2 (0 : Fin 1) (0 : Fin 1))) Cert.Spec.f1) := by
  rw [means_eq, meansOf_apply1, meanOf_apply]

end Cert.HostGlue

end
-- ==== Proof.LibRegroup.lean ====
/-
  Regrouping a long finite sum, and a running total.

  A sum over `T * R` consecutive indices is the sum over `T` tiles of the sum over each tile's `R` indices, index
  `t * R + r` being entry `r` of tile `t`: the indices below `T * R` are in bijection with the pairs `(t, r)`, and a sum
  over pairs is an iterated sum. And a sequence that starts at its first term and adds one further term at each step is, at
  step `n`, the sum of the terms up to `n`.
-/
import Mathlib.Algebra.BigOperators.Fin
import Mathlib.Data.Fintype.BigOperators
import Mathlib.Logic.Equiv.Fin.Basic

namespace Cert.LibRegroup

open scoped BigOperators

variable {M : Type*} [AddCommMonoid M]

/-- Entry `r` of tile `t`, of `T` tiles of `R` entries each, is an index below `T * R`. -/
theorem tile_lt {T R : ℕ} (t : Fin T) (r : Fin R) : t.val * R + r.val < T * R :=
  calc t.val * R + r.val < t.val * R + R := Nat.add_lt_add_left r.isLt _
    _ = (t.val + 1) * R := (Nat.succ_mul _ _).symm
    _ ≤ T * R := Nat.mul_le_mul_right R t.isLt

/-- A sum over `T * R` indices, tile by tile. -/
theorem sum_tiles (T R : ℕ) (f : Fin (T * R) → M) :
    ∑ n : Fin (T * R), f n = ∑ t : Fin T, ∑ r : Fin R, f ⟨t.val * R + r.val, tile_lt t r⟩ := by
  rw [← Equiv.sum_comp (finProdFinEquiv (m := T) (n := R)) f, Fintype.sum_prod_type]
  refine Finset.sum_congr rfl fun t _ => Finset.sum_congr rfl fun r _ => congrArg f (Fin.ext ?_)
  show r.val + R * t.val = t.val * R + r.val
  rw [Nat.mul_comm, Nat.add_comm]

/-- The same for 2048 tiles of 2048 entries, over the literal index bound 4194304. -/
theorem sum_tiles_2048 (f : Fin 4194304 → M) :
    ∑ n, f n = ∑ t : Fin 2048, ∑ r : Fin 2048,
      f ⟨t.val * 2048 + r.val, by have := t.isLt; have := r.isLt; omega⟩ :=
  sum_tiles 2048 2048 f

/-- A running total: starting at the first term and adding the next term at each step, step `n` holds the sum of the
    terms `0, …, n`. -/
theorem running_total (T : ℕ → M) (acc : ℕ → M) (h0 : acc 0 = T 0) (hs : ∀ n, acc (n + 1) = acc n + T (n + 1)) (n : ℕ) :
    acc n = ∑ t ∈ Finset.range (n + 1), T t := by
  induction n with
  | zero => rw [h0, Finset.sum_range_one]
  | succ n ih => rw [hs, ih, Finset.sum_range_succ T (n + 1)]

/-- The same with the terms indexed by `Fin (N + 1)`. -/
theorem running_total_fin (T : ℕ → M) (acc : ℕ → M) (h0 : acc 0 = T 0) (hs : ∀ n, acc (n + 1) = acc n + T (n + 1))
    (N : ℕ) : acc N = ∑ t : Fin (N + 1), T t.val :=
  (running_total T acc h0 hs N).trans (Fin.sum_univ_eq_sum_range T (N + 1)).symm

/-- After 2048 steps: the sum of the 2048 terms. -/
theorem running_total_2048 (T : ℕ → M) (acc : ℕ → M) (h0 : acc 0 = T 0) (hs : ∀ n, acc (n + 1) = acc n + T (n + 1)) :
    acc 2047 = ∑ t : Fin 2048, T t.val :=
  running_total_fin T acc h0 hs 2047

end Cert.LibRegroup
-- ==== Proof.BridgeCore.lean ====
/-
  From the two passes' arrays to the result: the pure step.

  Suppose the pixels and edge values are given patch by patch (`[4194304, 9]` arrays `A0`, `A1` whose entry `(n, k)` is
  pixel `k` of patch `n`); the class column and the centre column hold, at row `n`, the class and the centre pixel of patch
  `n`; the four totals are sums over 2048 tiles of each tile's sum over its 2048 patches, tile `t`'s patch `r` being patch
  `t * 2048 + r`; the two means are each total divided by the larger of its count and 1; the second pass's column holds at
  row `n` the correction of patch `n` by those means; and the result's entry `(p, q)` is row `p * 2048 + q` of that column.
  Then the result is the specification's function of the two inputs.

  The one step that is not a substitution: a sum over tiles of sums over a tile's patches is the sum over all patches.
-/
import proofs.«177650_j67585605370461_2_alg».proof.Proof.Spec
import proofs.«177650_j67585605370461_2_alg».proof.Proof.LibRegroup

noncomputable section

namespace Cert.Bridge

open Idealize.ShloMosaic Idealize.ShloMosaic.ValueIdx Cert.Spec

/-- Patch `r` of tile `t`, of 2048 tiles of 2048 patches, as a patch number. -/
abbrev tileIdx (t r : Fin 2048) : Fin 4194304 := ⟨t.val * 2048 + r.val, by have := t.isLt; have := r.isLt; omega⟩

section Totals
variable (X E : Fin 4194304 → Fin 9 → EReal)

/-- The four global sums, tile by tile. -/
theorem sumB_tiles : sumB X E = ∑ t : Fin 2048, ∑ r : Fin 2048, X (tileIdx t r) 4 * ofBit (isB X E (tileIdx t r)) :=
  Cert.LibRegroup.sum_tiles_2048 fun n => X n 4 * ofBit (isB X E n)
theorem cntB_tiles : cntB X E = ∑ t : Fin 2048, ∑ r : Fin 2048, ofBit (isB X E (tileIdx t r)) :=
  Cert.LibRegroup.sum_tiles_2048 fun n => ofBit (isB X E n)
theorem sumW_tiles : sumW X E = ∑ t : Fin 2048, ∑ r : Fin 2048, X (tileIdx t r) 4 * ofBit (isW X E (tileIdx t r)) :=
  Cert.LibRegroup.sum_tiles_2048 fun n => X n 4 * ofBit (isW X E n)
theorem cntW_tiles : cntW X E = ∑ t : Fin 2048, ∑ r : Fin 2048, ofBit (isW X E (tileIdx t r)) :=
  Cert.LibRegroup.sum_tiles_2048 fun n => ofBit (isW X E n)

end Totals

/-- THE PURE STEP. `N` is the number of tiles (2048); `blk0 t`, `blk1 t` are tile `t`'s pixels and edge values. -/
theorem core
    (image edges : (⟨3, ![4194304, 3, 3]⟩ : Shape).Idx → EReal)
    (A0 A1 : (⟨2, ![4194304, 9]⟩ : Shape).Idx → EReal)
    (hA0 : ∀ (n : Fin 4194304) (k : Fin 9), A0 (ix2 n k) = patches image n k)
    (hA1 : ∀ (n : Fin 4194304) (k : Fin 9), A1 (ix2 n k) = patches edges n k)
    (N : ℕ) (hN : N = 2048)
    (blk0 blk1 : Fin N → (⟨2, ![2048, 9]⟩ : Shape).Idx → EReal)
    (hb0 : ∀ (t : Fin N) (r : Fin 2048) (k : Fin 9),
      blk0 t (ix2 r k) = A0 (ix2 (⟨t.val * 2048 + r.val, by have := t.isLt; have := r.isLt; omega⟩ : Fin 4194304) k))
    (hb1 : ∀ (t : Fin N) (r : Fin 2048) (k : Fin 9),
      blk1 t (ix2 r k) = A1 (ix2 (⟨t.val * 2048 + r.val, by have := t.isLt; have := r.isLt; omega⟩ : Fin 4194304) k))
    (clsCol ctrCol : (⟨2, ![4194304, 1]⟩ : Shape).Idx → EReal)
    (hcls : ∀ n : Fin 4194304, clsCol (ix2 n (0 : Fin 1)) = cls (fun k => A0 (ix2 n k)) (fun k => A1 (ix2 n k)))
    (hctr : ∀ n : Fin 4194304, ctrCol (ix2 n (0 : Fin 1)) = A0 (ix2 n (4 : Fin 9)))
    (sB nB sW nW : EReal)
    (hsB : sB = ∑ t : Fin N, ∑ r : Fin 2048, blk0 t (ix2 r (4 : Fin 9))
      * ofBit (Ideal.cmp .oeq (cls (fun k => blk0 t (ix2 r k)) (fun k => blk1 t (ix2 r k))) f0))
    (hnB : nB = ∑ t : Fin N, ∑ r : Fin 2048,
      ofBit (Ideal.cmp .oeq (cls (fun k => blk0 t (ix2 r k)) (fun k => blk1 t (ix2 r k))) f0))
    (hsW : sW = ∑ t : Fin N, ∑ r : Fin 2048, blk0 t (ix2 r (4 : Fin 9))
      * ofBit (Ideal.cmp .oeq (cls (fun k => blk0 t (ix2 r k)) (fun k => blk1 t (ix2 r k))) f1))
    (hnW : nW = ∑ t : Fin N, ∑ r : Fin 2048,
      ofBit (Ideal.cmp .oeq (cls (fun k => blk0 t (ix2 r k)) (fun k => blk1 t (ix2 r k))) f1))
    (mB mW : EReal)
    (hmB : mB = Ideal.div sB (max nB f1)) (hmW : mW = Ideal.div sW (max nW f1))
    (res : (⟨2, ![4194304, 1]⟩ : Shape).Idx → EReal)
    (hres : ∀ n : Fin 4194304, res (ix2 n (0 : Fin 1))
      = resolve mB mW (clsCol (ix2 n (0 : Fin 1))) (ctrCol (ix2 n (0 : Fin 1))))
    (out : (⟨2, ![2048, 2048]⟩ : Shape).Idx → EReal)
    (hout : ∀ p q : Fin 2048, out (ix2 p q)
      = res (ix2 (⟨p.val * 2048 + q.val, by have := p.isLt; have := q.isLt; omega⟩ : Fin 4194304) (0 : Fin 1))) :
    out = G image edges := by
  subst hN
  -- the patches, as the specification names them
  have hX : ∀ n : Fin 4194304, (fun k => A0 (ix2 n k)) = patches image n := fun n => funext fun k => hA0 n k
  have hE : ∀ n : Fin 4194304, (fun k => A1 (ix2 n k)) = patches edges n := fun n => funext fun k => hA1 n k
  -- a tile's patch is a patch
  have hr0 : ∀ t r : Fin 2048, (fun k => blk0 t (ix2 r k)) = patches image (tileIdx t r) :=
    fun t r => funext fun k => (hb0 t r k).trans (hA0 _ k)
  have hr1 : ∀ t r : Fin 2048, (fun k => blk1 t (ix2 r k)) = patches edges (tileIdx t r) :=
    fun t r => funext fun k => (hb1 t r k).trans (hA1 _ k)
  have hc0 : ∀ t r : Fin 2048, blk0 t (ix2 r (4 : Fin 9)) = patches image (tileIdx t r) 4 :=
    fun t r => (hb0 t r 4).trans (hA0 _ 4)
  -- the four totals are the specification's
  have esB : sB = sumB (patches image) (patches edges) := by
    rw [hsB, sumB_tiles]
    exact Finset.sum_congr rfl fun t _ => Finset.sum_congr rfl fun r _ => by rw [hc0, hr0, hr1]; rfl
  have enB : nB = cntB (patches image) (patches edges) := by
    rw [hnB, cntB_tiles]
    exact Finset.sum_congr rfl fun t _ => Finset.sum_congr rfl fun r _ => by rw [hr0, hr1]; rfl
  have esW : sW = sumW (patches image) (patches edges) := by
    rw [hsW, sumW_tiles]
    exact Finset.sum_congr rfl fun t _ => Finset.sum_congr rfl fun r _ => by rw [hc0, hr0, hr1]; rfl
  have enW : nW = cntW (patches image) (patches edges) := by
    rw [hnW, cntW_tiles]
    exact Finset.sum_congr rfl fun t _ => Finset.sum_congr rfl fun r _ => by rw [hr0, hr1]; rfl
  have emB : mB = avgB (patches image) (patches edges) := by rw [hmB, esB, enB]; rfl
  have emW : mW = avgW (patches image) (patches edges) := by rw [hmW, esW, enW]; rfl
  -- entry by entry
  funext i
  obtain ⟨p, q, rfl⟩ : ∃ (p q : Fin 2048), i = ix2 p q := ⟨i 0, i 1, eq_ix2 i⟩
  rw [hout, hres, hcls, hctr, hX, hE, hA0, emB, emW]
  rfl

end Cert.Bridge

end
-- ==== Proof.BridgeHost.lean ====
/-
  From the two passes' arrays to the result, through the host operations.

  Take ANY buffer contents `W0` at launch, `W2` at the first pass's exit and `W4` at the second pass's exit, and suppose:
  the first pass's class and centre columns hold, row by row, the class and the centre pixel of the patches the first
  stretch of host operations lays out from `W0`; its four one-entry results hold the totals over the tiles, tile `t`'s
  patch `r` being patch `t * 2048 + r` of that layout; and the second pass's column holds, row by row, the correction of
  the patch by what the middle stretch leaves from `W2`. Then what the last stretch leaves from `W4` in the result buffer
  is the specification's function of the two inputs as `W0` holds them.

  The host stretches are read at an index by the lemmas on each stretch; the rest is the pure step.
-/
import proofs.«177650_j67585605370461_2_alg».proof.Proof.HostGlue
import proofs.«177650_j67585605370461_2_alg».proof.Proof.BridgeCore

noncomputable section

namespace Cert.Bridge

open Idealize.ShloMosaic Idealize.ShloMosaic.ValueIdx Cert.KernelIdeal Cert.KernelIdeal.Gen Cert.Spec

theorem result_of_arrays
    (W0 W2 W4 : Valuation Cert.KernelIdeal.τ Cert.KernelIdeal.sig (Elt Ideal))
    (N : ℕ) (hN : N = 2048)
    (blk0 blk1 : Fin N → S2048x9.Idx → EReal)
    (hb0 : ∀ (t : Fin N) (r : Fin 2048) (k : Fin 9), blk0 t (ix2 r k)
      = (StableHlo.after (hostOps0 (F := Ideal)) W0 (Proc.devRef .tc main_v0) : S4194304x9.Idx → EReal)
          (ix2 (⟨t.val * 2048 + r.val, by have := t.isLt; have := r.isLt; omega⟩ : Fin 4194304) k))
    (hb1 : ∀ (t : Fin N) (r : Fin 2048) (k : Fin 9), blk1 t (ix2 r k)
      = (StableHlo.after (hostOps0 (F := Ideal)) W0 (Proc.devRef .tc main_v1) : S4194304x9.Idx → EReal)
          (ix2 (⟨t.val * 2048 + r.val, by have := t.isLt; have := r.isLt; omega⟩ : Fin 4194304) k))
    (hcls : ∀ n : Fin 4194304, (W2 (Proc.devRef .tc main_v2_0) : S4194304x1.Idx → EReal) (ix2 n (0 : Fin 1))
      = cls (fun k => (StableHlo.after (hostOps0 (F := Ideal)) W0 (Proc.devRef .tc main_v0) : S4194304x9.Idx → EReal) (ix2 n k))
          (fun k => (StableHlo.after (hostOps0 (F := Ideal)) W0 (Proc.devRef .tc main_v1) : S4194304x9.Idx → EReal) (ix2 n k)))
    (hctr : ∀ n : Fin 4194304, (W2 (Proc.devRef .tc main_v2_1) : S4194304x1.Idx → EReal) (ix2 n (0 : Fin 1))
      = (StableHlo.after (hostOps0 (F := Ideal)) W0 (Proc.devRef .tc main_v0) : S4194304x9.Idx → EReal) (ix2 n (4 : Fin 9)))
    (hsB : (W2 (Proc.devRef .tc main_v2_2) : S1x1.Idx → EReal) (ix2 (0 : Fin 1) (0 : Fin 1))
      = ∑ t : Fin N, ∑ r : Fin 2048, blk0 t (ix2 r (4 : Fin 9))
          * ofBit (Ideal.cmp .oeq (cls (fun k => blk0 t (ix2 r k)) (fun k => blk1 t (ix2 r k))) f0))
    (hnB : (W2 (Proc.devRef .tc main_v2_3) : S1x1.Idx → EReal) (ix2 (0 : Fin 1) (0 : Fin 1))
      = ∑ t : Fin N, ∑ r : Fin 2048,
          ofBit (Ideal.cmp .oeq (cls (fun k => blk0 t (ix2 r k)) (fun k => blk1 t (ix2 r k))) f0))
    (hsW : (W2 (Proc.devRef .tc main_v2_4) : S1x1.Idx → EReal) (ix2 (0 : Fin 1) (0 : Fin 1))
      = ∑ t : Fin N, ∑ r : Fin 2048, blk0 t (ix2 r (4 : Fin 9))
          * ofBit (Ideal.cmp .oeq (cls (fun k => blk0 t (ix2 r k)) (fun k => blk1 t (ix2 r k))) f1))
    (hnW : (W2 (Proc.devRef .tc main_v2_5) : S1x1.Idx → EReal) (ix2 (0 : Fin 1) (0 : Fin 1))
      = ∑ t : Fin N, ∑ r : Fin 2048,
          ofBit (Ideal.cmp .oeq (cls (fun k => blk0 t (ix2 r k)) (fun k => blk1 t (ix2 r k))) f1))
    (hres : ∀ n : Fin 4194304, (W4 (Proc.devRef .tc main_v15) : S4194304x1.Idx → EReal) (ix2 n (0 : Fin 1))
      = resolve
          ((StableHlo.after (hostOps1 (F := Ideal)) W2 (Proc.devRef .tc main_v14) : S1x2.Idx → EReal) (ix2 (0 : Fin 1) (0 : Fin 2)))
          ((StableHlo.after (hostOps1 (F := Ideal)) W2 (Proc.devRef .tc main_v14) : S1x2.Idx → EReal) (ix2 (0 : Fin 1) (1 : Fin 2)))
          ((StableHlo.after (hostOps1 (F := Ideal)) W2 (Proc.devRef .tc main_v2_0) : S4194304x1.Idx → EReal) (ix2 n (0 : Fin 1)))
          ((StableHlo.after (hostOps1 (F := Ideal)) W2 (Proc.devRef .tc main_v2_1) : S4194304x1.Idx → EReal) (ix2 n (0 : Fin 1)))) :
    (StableHlo.after (hostOps2 (F := Ideal)) W4 (Proc.devRef .tc main_v16) : S2048x2048.Idx → EReal)
      = G (W0 (Proc.devRef .tc main_arg0)) (W0 (Proc.devRef .tc main_arg1)) := by
  have hres' : ∀ n : Fin 4194304, (W4 (Proc.devRef .tc main_v15) : S4194304x1.Idx → EReal) (ix2 n (0 : Fin 1))
      = resolve
          ((StableHlo.after (hostOps1 (F := Ideal)) W2 (Proc.devRef .tc main_v14) : S1x2.Idx → EReal) (ix2 (0 : Fin 1) (0 : Fin 2)))
          ((StableHlo.after (hostOps1 (F := Ideal)) W2 (Proc.devRef .tc main_v14) : S1x2.Idx → EReal) (ix2 (0 : Fin 1) (1 : Fin 2)))
          ((W2 (Proc.devRef .tc main_v2_0) : S4194304x1.Idx → EReal) (ix2 n (0 : Fin 1)))
          ((W2 (Proc.devRef .tc main_v2_1) : S4194304x1.Idx → EReal) (ix2 n (0 : Fin 1))) := fun n => by
    rw [hres n, Cert.HostGlue.means_keep_class W2, Cert.HostGlue.means_keep_centre W2]
  exact core (W0 (Proc.devRef .tc main_arg0)) (W0 (Proc.devRef .tc main_arg1))
    (StableHlo.after (hostOps0 (F := Ideal)) W0 (Proc.devRef .tc main_v0))
    (StableHlo.after (hostOps0 (F := Ideal)) W0 (Proc.devRef .tc main_v1))
    (Cert.HostGlue.entry_image W0) (Cert.HostGlue.entry_edges W0)
    N hN blk0 blk1 hb0 hb1
    (W2 (Proc.devRef .tc main_v2_0)) (W2 (Proc.devRef .tc main_v2_1)) hcls hctr
    _ _ _ _ hsB hnB hsW hnW
    _ _ (Cert.HostGlue.means_B W2) (Cert.HostGlue.means_W W2)
    (W4 (Proc.devRef .tc main_v15)) hres'
    (StableHlo.after (hostOps2 (F := Ideal)) W4 (Proc.devRef .tc main_v16)) (Cert.HostGlue.final_reshape W4)

end Cert.Bridge

end
-- ==== Proof.BridgeArrays.lean ====
/-
  The result from the two passes' arrays, for any contents at the boundaries that the passes' arrays characterise.

  Let the buffer contents of core `c` be `W0 c` at launch; after the first stretch of host operations the first pass is
  entered, and at its exit the contents `W2 c` hold, in each of the pass's arrays, what the pass's write-backs leave; after
  the middle stretch the second pass is entered, and at its exit `W4 c` hold, in each of its arrays, what its write-backs
  leave. Then what the last stretch leaves in the result buffer is the specification's function of the two inputs.

  Each pass's arrays are read as the functions the passes' value theorems give — the class and centre columns row by row,
  the four totals as sums over the tiles, the corrected column row by row — and handed to the step through the host
  operations.
-/
import proofs.«177650_j67585605370461_2_alg».proof.Proof.Pass1Array
import proofs.«177650_j67585605370461_2_alg».proof.Proof.Pass1Sums
import proofs.«177650_j67585605370461_2_alg».proof.Proof.Pass2Array
import proofs.«177650_j67585605370461_2_alg».proof.Proof.BridgeHost

noncomputable section

namespace Cert.Bridge

open Idealize.ShloMosaic Idealize.ShloMosaic.ValueIdx Idealize.ShloMosaic.TcCoe Idealize.SL.Sem
open Cert.KernelIdeal Cert.KernelIdeal.Gen Cert.KernelIdeal.Frame0 Cert.KernelIdeal.Frame1 Cert.Spec

section Folds
variable (W0 W2 W4 : Dev nD → Valuation Cert.KernelIdeal.τ Cert.KernelIdeal.sig (Elt Ideal))

/-- The contents when the first pass is entered. -/
abbrev E1 : (c : Dev nD) → (b : Ref sig .tc) → Buf (Elt Ideal) ((c : Thread nD τ).loc b) :=
  fun c b => StableHlo.after (hostOps0 (F := Ideal)) (W0 c) b
/-- The contents when the second pass is entered. -/
abbrev E3 : (c : Dev nD) → (b : Ref sig .tc) → Buf (Elt Ideal) ((c : Thread nD τ).loc b) :=
  fun c b => StableHlo.after (hostOps1 (F := Ideal)) (W2 c) b

variable (c : Dev nD)
  (h2 : ∀ w : Fin cfg0.W, W2 c (Proc.devRef .tc (Pipeline.arrRef spec0 w)) = (dat0 (E1 W0) c).arrAt w cfg0.N)
  (h4 : ∀ w : Fin cfg1.W, W4 c (Proc.devRef .tc (Pipeline.arrRef spec1 w)) = (dat1 (E3 W2) c).arrAt w cfg1.N)

include h2 in
theorem exit_cls (n : Fin 4194304) :
    (W2 c (Proc.devRef .tc main_v2_0) : S4194304x1.Idx → EReal) (ix2 n (0 : Fin 1))
      = cls (fun k => (StableHlo.after (hostOps0 (F := Ideal)) (W0 c) (Proc.devRef .tc main_v0) : S4194304x9.Idx → EReal) (ix2 n k))
          (fun k => (StableHlo.after (hostOps0 (F := Ideal)) (W0 c) (Proc.devRef .tc main_v1) : S4194304x9.Idx → EReal) (ix2 n k)) :=
  congrFun ((h2 2).trans (Cert.KernelIdeal.Value0.final2 (E1 W0) c)) (ix2 n (0 : Fin 1))

include h2 in
theorem exit_ctr (n : Fin 4194304) :
    (W2 c (Proc.devRef .tc main_v2_1) : S4194304x1.Idx → EReal) (ix2 n (0 : Fin 1))
      = (StableHlo.after (hostOps0 (F := Ideal)) (W0 c) (Proc.devRef .tc main_v0) : S4194304x9.Idx → EReal) (ix2 n (4 : Fin 9)) :=
  congrFun ((h2 3).trans (Cert.KernelIdeal.Value0.final3 (E1 W0) c)) (ix2 n (0 : Fin 1))

include h2 in
theorem exit_sB :
    (W2 c (Proc.devRef .tc main_v2_2) : S1x1.Idx → EReal) (ix2 (0 : Fin 1) (0 : Fin 1))
      = ∑ t : Fin cfg0.N, Cert.KernelIdeal.Value0.tB (iblk0 (E1 W0) c 0 t) (iblk0 (E1 W0) c 1 t) :=
  (congrFun (h2 4) (ix2 (0 : Fin 1) (0 : Fin 1))).trans (Cert.KernelIdeal.Value0.final4 (E1 W0) c)
include h2 in
theorem exit_nB :
    (W2 c (Proc.devRef .tc main_v2_3) : S1x1.Idx → EReal) (ix2 (0 : Fin 1) (0 : Fin 1))
      = ∑ t : Fin cfg0.N, Cert.KernelIdeal.Value0.nB (iblk0 (E1 W0) c 0 t) (iblk0 (E1 W0) c 1 t) :=
  (congrFun (h2 5) (ix2 (0 : Fin 1) (0 : Fin 1))).trans (Cert.KernelIdeal.Value0.final5 (E1 W0) c)
include h2 in
theorem exit_sW :
    (W2 c (Proc.devRef .tc main_v2_4) : S1x1.Idx → EReal) (ix2 (0 : Fin 1) (0 : Fin 1))
      = ∑ t : Fin cfg0.N, Cert.KernelIdeal.Value0.tW (iblk0 (E1 W0) c 0 t) (iblk0 (E1 W0) c 1 t) :=
  (congrFun (h2 6) (ix2 (0 : Fin 1) (0 : Fin 1))).trans (Cert.KernelIdeal.Value0.final6 (E1 W0) c)
include h2 in
theorem exit_nW :
    (W2 c (Proc.devRef .tc main_v2_5) : S1x1.Idx → EReal) (ix2 (0 : Fin 1) (0 : Fin 1))
      = ∑ t : Fin cfg0.N, Cert.KernelIdeal.Value0.nW (iblk0 (E1 W0) c 0 t) (iblk0 (E1 W0) c 1 t) :=
  (congrFun (h2 7) (ix2 (0 : Fin 1) (0 : Fin 1))).trans (Cert.KernelIdeal.Value0.final7 (E1 W0) c)

include h4 in
theorem exit_res (n : Fin 4194304) :
    (W4 c (Proc.devRef .tc main_v15) : S4194304x1.Idx → EReal) (ix2 n (0 : Fin 1))
      = resolve
          ((StableHlo.after (hostOps1 (F := Ideal)) (W2 c) (Proc.devRef .tc main_v14) : S1x2.Idx → EReal) (ix2 (0 : Fin 1) (0 : Fin 2)))
          ((StableHlo.after (hostOps1 (F := Ideal)) (W2 c) (Proc.devRef .tc main_v14) : S1x2.Idx → EReal) (ix2 (0 : Fin 1) (1 : Fin 2)))
          ((StableHlo.after (hostOps1 (F := Ideal)) (W2 c) (Proc.devRef .tc main_v2_0) : S4194304x1.Idx → EReal) (ix2 n (0 : Fin 1)))
          ((StableHlo.after (hostOps1 (F := Ideal)) (W2 c) (Proc.devRef .tc main_v2_1) : S4194304x1.Idx → EReal) (ix2 n (0 : Fin 1))) :=
  congrFun ((h4 3).trans (Cert.KernelValue1.final1 (E3 W2) c)) (ix2 n (0 : Fin 1))

include h2 h4 in
/-- THE RESULT, from the characterisation of the contents at the two passes' exits. -/
theorem result_of_folds :
    (StableHlo.after (hostOps2 (F := Ideal)) (W4 c) (Proc.devRef .tc main_v16) : S2048x2048.Idx → EReal)
      = G (W0 c (Proc.devRef .tc main_arg0)) (W0 c (Proc.devRef .tc main_arg1)) :=
  result_of_arrays (W0 c) (W2 c) (W4 c) cfg0.N N_0
    (fun t => iblk0 (E1 W0) c 0 t) (fun t => iblk0 (E1 W0) c 1 t)
    (fun t r k => Cert.KernelIdeal.Value0.block0 (E1 W0) c t r k)
    (fun t r k => Cert.KernelIdeal.Value0.block1 (E1 W0) c t r k)
    (exit_cls W0 W2 c h2) (exit_ctr W0 W2 c h2)
    (exit_sB W0 W2 c h2) (exit_nB W0 W2 c h2) (exit_sW W0 W2 c h2) (exit_nW W0 W2 c h2)
    (exit_res W2 W4 c h4)

end Folds

end Cert.Bridge

end
-- ==== Proof.Bridge.lean ====
/-
  The result buffer, read off the run's last boundary, is the specification.

  The buffer contents at the boundaries of the run are a fold from the launch memory: a stretch of host operations applies
  its operations, and a pass leaves each of its arrays at what its write-backs leave. That is all the step from the two
  passes' arrays to the result asks of the contents at the two passes' exits.
-/
import proofs.«177650_j67585605370461_2_alg».proof.Proof.FrameFold
import proofs.«177650_j67585605370461_2_alg».proof.Proof.BridgeArrays

noncomputable section

namespace Cert.Bridge

open Idealize.ShloMosaic Idealize.ShloMosaic.TcCoe Idealize.SL.Sem
open Cert.KernelIdeal Cert.KernelIdeal.Gen Cert.KernelIdeal.Run

/-- THE RESULT of the program on core `c`, from any launch memory `m`: the specification's function of the two inputs. -/
theorem result_value (m : (ℓ : Loc Cert.KernelIdeal.nD Cert.KernelIdeal.τ Cert.KernelIdeal.sig) → Buf (Elt Ideal) ℓ)
    (ρ : Dev nD → PrngReg) (c : Dev nD) :
    (W5 (F := Ideal) m ρ c (Proc.devRef .tc main_v16) : S2048x2048.Idx → EReal)
      = Cert.Spec.G (m ((c.tc : Thread nD τ).loc main_arg0)) (m ((c.tc : Thread nD τ).loc main_arg1)) :=
  result_of_folds (W0 m ρ) (W2 m ρ) (W4 m ρ) c (W2_arr m ρ c) (W4_arr m ρ c)

end Cert.Bridge

end
-- ==== Proof.RefFoldDefs.lean ====
/-
  The reference program is a straight line of 97 operations. Here the line is cut into seven consecutive stretches:
  the contents of the buffers after the line are the contents after the last stretch from the contents after the one
  before, and so on back to the launch contents.
-/
import proofs.«177650_j67585605370461_2_alg».proof.Proof.RefRead
import Idealize.ShloMosaic.Lib.Pipeline.Frame

noncomputable section

namespace Cert.RefFold

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

/-! ## The stretches -/

/-- Operations 0-9: the two reshapes and the two masks. -/
abbrev opsA1 : List (HloOp τ sig (Elt Ideal)) := (ops (F := Ideal)).take 10
abbrev rest1 : List (HloOp τ sig (Elt Ideal)) := (ops (F := Ideal)).drop 10
/-- Operations 10-33: the two counts, the two masked sums and the two means of every patch. -/
abbrev opsA2 : List (HloOp τ sig (Elt Ideal)) := rest1.take 24
abbrev rest2 : List (HloOp τ sig (Elt Ideal)) := rest1.drop 24
/-- Operations 34-49: the class of every patch. -/
abbrev opsA3 : List (HloOp τ sig (Elt Ideal)) := rest2.take 16
abbrev rest3 : List (HloOp τ sig (Elt Ideal)) := rest2.drop 16
/-- Operations 50-79: the centre pixels and the two global means. -/
abbrev opsB : List (HloOp τ sig (Elt Ideal)) := rest3.take 30
abbrev rest4 : List (HloOp τ sig (Elt Ideal)) := rest3.drop 30
/-- Operations 80-94: "the class is 2" and the class of the nearer mean. -/
abbrev opsC1 : List (HloOp τ sig (Elt Ideal)) := rest4.take 15
abbrev rest5 : List (HloOp τ sig (Elt Ideal)) := rest4.drop 15
/-- Operation 95: the corrected classes. -/
abbrev opsC2 : List (HloOp τ sig (Elt Ideal)) := rest5.take 1
/-- Operation 96: the reshape to the result. -/
abbrev opsC3 : List (HloOp τ sig (Elt Ideal)) := rest5.drop 1

/-- The line is the five stretches, one after the other. -/
theorem after_ops (V : Valuation τ sig (Elt Ideal)) :
    after (ops (F := Ideal)) V
      = after opsC3 (after opsC2 (after opsC1 (after opsB (after opsA3 (after opsA2 (after opsA1 V)))))) := by
  have e0 : (ops (F := Ideal)) = opsA1 ++ rest1 := (List.take_append_drop 10 _).symm
  have e1 : rest1 = opsA2 ++ rest2 := (List.take_append_drop 24 _).symm
  have e2 : rest2 = opsA3 ++ rest3 := (List.take_append_drop 16 _).symm
  have e3 : rest3 = opsB ++ rest4 := (List.take_append_drop 30 _).symm
  have e4 : rest4 = opsC1 ++ rest5 := (List.take_append_drop 15 _).symm
  have e5 : rest5 = opsC2 ++ opsC3 := (List.take_append_drop 1 _).symm
  calc after (ops (F := Ideal)) V = after (opsA1 ++ rest1) V := congrArg (after · V) e0
    _ = after rest1 (after opsA1 V) := after_append _ _ _
    _ = after (opsA2 ++ rest2) (after opsA1 V) := congrArg (after · _) e1
    _ = after rest2 (after opsA2 (after opsA1 V)) := after_append _ _ _
    _ = after (opsA3 ++ rest3) (after opsA2 (after opsA1 V)) := congrArg (after · _) e2
    _ = after rest3 (after opsA3 (after opsA2 (after opsA1 V))) := after_append _ _ _
    _ = after (opsB ++ rest4) (after opsA3 (after opsA2 (after opsA1 V))) := congrArg (after · _) e3
    _ = after rest4 (after opsB (after opsA3 (after opsA2 (after opsA1 V)))) := after_append _ _ _
    _ = after (opsC1 ++ rest5) (after opsB (after opsA3 (after opsA2 (after opsA1 V)))) := congrArg (after · _) e4
    _ = after rest5 (after opsC1 (after opsB (after opsA3 (after opsA2 (after opsA1 V))))) := after_append _ _ _
    _ = after (opsC2 ++ opsC3) (after opsC1 (after opsB (after opsA3 (after opsA2 (after opsA1 V))))) := congrArg (after · _) e5
    _ = after opsC3 (after opsC2 (after opsC1 (after opsB (after opsA3 (after opsA2 (after opsA1 V)))))) := after_append _ _ _

/-- Opens a stretch into its literal list of operations. -/
macro "open_stretch" : tactic =>
  `(tactic| simp only [opsA1, rest1, opsA2, rest2, opsA3, rest3, opsB, rest4, opsC1, rest5, opsC2, opsC3, ops, List.take_succ_cons, List.take_zero,
      List.drop_succ_cons, List.drop_zero])

end Cert.RefFold

end
-- ==== Proof.RefFoldA.lean ====
/-
  The first three stretches of the reference's line, each from ANY contents of the buffers in which the buffers it reads
  hold the stages named: after operations 0-9 the reshaped pixels and the two masks; after operations 10-33 the two
  counts and the two means of every patch; after operations 34-49 the class of every patch.
-/
import proofs.«177650_j67585605370461_2_alg».proof.Proof.RefFoldDefs

noncomputable section

namespace Cert.RefFold

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

section Stretches
variable (W : Valuation τ sig (Elt Ideal)) (x0 x1 : FVec Ideal S4194304x3x3 .f32)

set_option maxRecDepth 8192 in
theorem stretchA1 (h0 : W (Proc.devRef .tc main_arg0) = x0) (h1 : W (Proc.devRef .tc main_arg1) = x1) :
    after opsA1 W (Proc.devRef .tc main_v0) = val_main_v0 (F := Ideal) x0
    ∧ after opsA1 W (Proc.devRef .tc main_v3) = val_main_v3 (F := Ideal) x1
    ∧ after opsA1 W (Proc.devRef .tc main_v7) = val_main_v7 (F := Ideal) x1
    ∧ after opsA1 W (Proc.devRef .tc main_arg0) = x0 := by
  subst h0 h1
  refine ⟨?_, ?_, ?_, ?_⟩ <;> (open_stretch; after_results_simp) <;> rfl

set_option maxRecDepth 8192 in
theorem stretchA2 (h0 : W (Proc.devRef .tc main_v0) = val_main_v0 (F := Ideal) x0)
    (h3 : W (Proc.devRef .tc main_v3) = val_main_v3 (F := Ideal) x1)
    (h7 : W (Proc.devRef .tc main_v7) = val_main_v7 (F := Ideal) x1) (ha : W (Proc.devRef .tc main_arg0) = x0) :
    after opsA2 W (Proc.devRef .tc main_v9) = val_main_v9 (F := Ideal) x1
    ∧ after opsA2 W (Proc.devRef .tc main_v11) = val_main_v11 (F := Ideal) x1
    ∧ after opsA2 W (Proc.devRef .tc main_v18) = val_main_v18 (F := Ideal) x0 x1
    ∧ after opsA2 W (Proc.devRef .tc main_v25) = val_main_v25 (F := Ideal) x0 x1
    ∧ after opsA2 W (Proc.devRef .tc main_arg0) = x0 := by
  refine ⟨?_, ?_, ?_, ?_, ?_⟩ <;> (open_stretch; after_results_simp) <;> (try rw [h0]) <;> (try rw [h3]) <;> (try rw [h7]) <;>
    (try rw [ha]) <;> rfl

set_option maxRecDepth 8192 in
theorem stretchA3 (h9 : W (Proc.devRef .tc main_v9) = val_main_v9 (F := Ideal) x1)
    (h11 : W (Proc.devRef .tc main_v11) = val_main_v11 (F := Ideal) x1)
    (h18 : W (Proc.devRef .tc main_v18) = val_main_v18 (F := Ideal) x0 x1)
    (h25 : W (Proc.devRef .tc main_v25) = val_main_v25 (F := Ideal) x0 x1) (ha : W (Proc.devRef .tc main_arg0) = x0) :
    after opsA3 W (Proc.devRef .tc main_v33) = val_main_v33 (F := Ideal) x0 x1
    ∧ after opsA3 W (Proc.devRef .tc main_arg0) = x0 := by
  refine ⟨?_, ?_⟩ <;> (open_stretch; after_results_simp) <;> (try rw [h9]) <;> (try rw [h11]) <;> (try rw [h18]) <;>
    (try rw [h25]) <;> (try rw [ha]) <;> rfl

end Stretches

end Cert.RefFold

end
-- ==== Proof.RefFoldB.lean ====
/-
  The fourth stretch of the reference's line, from any contents of the buffers in which the class vector is held: after
  operations 50-79 the centre pixels and the two global means are held, and the class vector still is.
-/
import proofs.«177650_j67585605370461_2_alg».proof.Proof.RefFoldDefs

noncomputable section

namespace Cert.RefFold

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

section Stretches
variable (W : Valuation τ sig (Elt Ideal)) (x0 x1 : FVec Ideal S4194304x3x3 .f32)

set_option maxRecDepth 8192 in
theorem stretchB (h33 : W (Proc.devRef .tc main_v33) = val_main_v33 (F := Ideal) x0 x1) (ha : W (Proc.devRef .tc main_arg0) = x0) :
    after opsB W (Proc.devRef .tc main_v33) = val_main_v33 (F := Ideal) x0 x1
    ∧ after opsB W (Proc.devRef .tc main_v35) = val_main_v35 (F := Ideal) x0
    ∧ after opsB W (Proc.devRef .tc main_v47) = val_main_v47 (F := Ideal) x0 x1
    ∧ after opsB W (Proc.devRef .tc main_v55) = val_main_v55 (F := Ideal) x0 x1 := by
  refine ⟨?_, ?_, ?_, ?_⟩ <;> (open_stretch; after_results_simp) <;> (try rw [h33]) <;> (try rw [ha]) <;> rfl

end Stretches

end Cert.RefFold

end
-- ==== Proof.RefFoldC.lean ====
/-
  The last three stretches of the reference's line, from any contents of the buffers in which the class vector, the
  centre pixels and the two global means are held: after operations 80-94 "the class is 2" and the class of the nearer
  mean; after operation 95 the corrected classes; after operation 96 the result.
-/
import proofs.«177650_j67585605370461_2_alg».proof.Proof.RefFoldDefs

noncomputable section

namespace Cert.RefFold

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

section Stretches
variable (W : Valuation τ sig (Elt Ideal)) (x0 x1 : FVec Ideal S4194304x3x3 .f32)

set_option maxRecDepth 8192 in
theorem stretchC1 (h33 : W (Proc.devRef .tc main_v33) = val_main_v33 (F := Ideal) x0 x1)
    (h35 : W (Proc.devRef .tc main_v35) = val_main_v35 (F := Ideal) x0)
    (h47 : W (Proc.devRef .tc main_v47) = val_main_v47 (F := Ideal) x0 x1)
    (h55 : W (Proc.devRef .tc main_v55) = val_main_v55 (F := Ideal) x0 x1) :
    after opsC1 W (Proc.devRef .tc main_v57) = val_main_v57 (F := Ideal) x0 x1
    ∧ after opsC1 W (Proc.devRef .tc main_v65) = val_main_v65 (F := Ideal) x0 x1
    ∧ after opsC1 W (Proc.devRef .tc main_v33) = val_main_v33 (F := Ideal) x0 x1 := by
  refine ⟨?_, ?_, ?_⟩ <;> (open_stretch; after_results_simp) <;> (try rw [h33]) <;> (try rw [h35]) <;> (try rw [h47]) <;>
    (try rw [h55]) <;> rfl

set_option maxRecDepth 8192 in
theorem stretchC2 (h57 : W (Proc.devRef .tc main_v57) = val_main_v57 (F := Ideal) x0 x1)
    (h65 : W (Proc.devRef .tc main_v65) = val_main_v65 (F := Ideal) x0 x1)
    (h33 : W (Proc.devRef .tc main_v33) = val_main_v33 (F := Ideal) x0 x1) :
    after opsC2 W (Proc.devRef .tc main_v66) = val_main_v66 (F := Ideal) x0 x1 := by
  open_stretch; after_results_simp
  -- the choice between the three buffers' contents, whatever they are
  refine Eq.trans (b := select (s := S4194304) (W (Proc.devRef .tc main_v57)) (W (Proc.devRef .tc main_v65)) (W (Proc.devRef .tc main_v33))) rfl ?_
  rw [h57, h65, h33]; rfl

set_option maxRecDepth 8192 in
theorem stretchC3 (h66 : W (Proc.devRef .tc main_v66) = val_main_v66 (F := Ideal) x0 x1) :
    after opsC3 W (Proc.devRef .tc main_v67) = val_main_v67 (F := Ideal) x0 x1 := by
  open_stretch; after_results_simp
  rw [h66]; rfl

end Stretches

end Cert.RefFold

end
-- ==== Proof.LibIntCount.lean ====
/-
  Counting with 32-bit integer addition, read on the extended reals.

  A reduction by integer addition of one-bit masks, each zero-extended to a 32-bit word, from the zero word, computes the
  NUMBER of the masks that are 1, as long as there are fewer than 2^31 of them (no partial sum can wrap or turn negative).
  Converted to a float at the ideal values that number is the finite sum of the masks read as the extended reals 0 and 1.
  So, for a one-axis reduce of such words: the signed conversion of the signed maximum of the count and 1 is the
  maximum of that sum and 1, and the signed test "count > 0" is the ordered test "sum > 0". The same for a reduce over
  every axis of an array (the count of the ones in the whole array).
-/
import Idealize.ShloMosaic.Lib.IndicatorCount
import Idealize.ShloMosaic.Lib.IdealHost
import Idealize.ShloMosaic.Lib.ValueIdx
import Idealize.ShloMosaic.PureOps.Ideal.Laws
import Mathlib.Algebra.BigOperators.Fin

noncomputable section

namespace Cert.LibIntCount

open Idealize.ShloMosaic

/-- The unsigned conversion of a one-bit mask at the ideal values is the mask's number, 0 or 1. -/
theorem uitofp_bit (b : BitVec 1) : FloatOps.uitofp (F := Ideal) .f32 b = ((b.toNat : ℝ) : EReal) := rfl

/-- The masks read as 0 and 1 sum to the number of the masks that are 1. -/
theorem sum_bit_eq_card {ι : Type} (p : ι → BitVec 1) (S : Finset ι) :
    (∑ k ∈ S, (((p k).toNat : ℝ) : EReal)) = (((S.filter fun k => p k = 1#1).card : ℝ) : EReal) := by
  classical
  induction S using Finset.induction_on with
  | empty => simp
  | insert a S ha ih =>
    rw [Finset.sum_insert ha, ih, Finset.filter_insert]
    rcases BitVec.eq_zero_or_eq_one (p a) with h | h
    · rw [if_neg (by rw [h]; decide), h]
      simp
    · rw [if_pos h, Finset.card_insert_of_notMem (fun hm => ha (Finset.mem_filter.1 hm).1), h]
      rw [← EReal.coe_add]
      refine congrArg _ ?_
      push_cast
      simp [add_comm]

/-- A number below 2^31, as a 32-bit word read signed, is itself. -/
theorem toInt_ofNat_lt (c : ℕ) (h : c < 2 ^ 31) : (BitVec.ofNat 32 c).toInt = (c : ℤ) := by
  rw [BitVec.toInt_eq_toNat_cond, BitVec.toNat_ofNat]
  have e : c % 2 ^ 32 = c := Nat.mod_eq_of_lt (by omega)
  rw [e, if_pos (by omega)]

/-- The signed maximum of a count below 2^31 and 1, converted, is the maximum of the count and 1. -/
theorem sitofp_maxsi_ofNat (c : ℕ) (h : c < 2 ^ 31) :
    FloatOps.sitofp (F := Ideal) .f32 (IntOp.maxsi (BitVec.ofNat 32 c) 1#32) = max ((c : ℝ) : EReal) 1 := by
  show ((((IntOp.maxsi (BitVec.ofNat 32 c) 1#32).toInt : ℤ) : ℝ) : EReal) = _
  have hx := toInt_ofNat_lt c h
  have h1 : (1#32 : BitVec 32).toInt = 1 := by decide
  unfold IntOp.maxsi
  by_cases hc : (1#32 : BitVec 32).slt (BitVec.ofNat 32 c) = true
  · rw [if_pos hc, hx]
    rw [BitVec.slt_iff_toInt_lt, h1, hx] at hc
    have hc' : (1 : ℝ) ≤ (c : ℝ) := by exact_mod_cast hc.le
    rw [max_eq_left (by exact_mod_cast hc')]
    norm_cast
  · rw [if_neg hc, h1]
    rw [BitVec.slt_iff_toInt_lt, h1, hx] at hc
    have hc' : (c : ℝ) ≤ (1 : ℝ) := by exact_mod_cast (not_lt.mp hc)
    rw [max_eq_right (by exact_mod_cast hc')]
    norm_cast

/-- The signed test "a count below 2^31 exceeds 0" is the ordered test on the extended reals. -/
theorem cmpi_sgt_ofNat (c : ℕ) (h : c < 2 ^ 31) :
    IntOp.cmpi .sgt (BitVec.ofNat 32 c) 0#32 = Ideal.cmp .ogt ((c : ℝ) : EReal) 0 := by
  show BitVec.ofBool ((0#32 : BitVec 32).slt (BitVec.ofNat 32 c))
    = BitVec.ofBool (decide ((0 : EReal) < ((c : ℝ) : EReal)))
  refine congrArg BitVec.ofBool ?_
  have h0 : (0#32 : BitVec 32).toInt = 0 := by decide
  rw [Bool.eq_iff_iff, BitVec.slt_iff_toInt_lt, toInt_ofNat_lt c h, h0, decide_eq_true_iff]
  constructor
  · intro hc; exact_mod_cast hc
  · intro hc; exact_mod_cast hc

section Reduce
variable {s t u : Shape} {a : Fin s.rank}

/-- A one-axis reduce by integer addition of zero-extended masks, from the zero word, is the number of ones on the axis. -/
theorem reduce_addi_bits (p : s.Idx → BitVec 1) (init : u.Idx → BitVec 32) (h' : s.ReducesTo [a] t)
    (h : s.Reduces [a] t) (hu : 0 < u.numel) (hinit : init (Shape.Idx.first hu) = 0#32) (j : t.Idx) :
    Host.reduce IntOp.addi (fun i => (p i).setWidth 32) init h' hu j
      = BitVec.ofNat 32 (Finset.univ.filter fun k : Fin (s.size a) => p (h.lift j k) = 1#1).card := by
  rw [Host.reduce_eq_fold_single IntOp.addi _ init h' h hu j, hinit]
  exact IndicatorCount.fold_addi_setWidth_eq_card (fun k => p (h.lift j k)) Finset.univ

/-- The number of ones on an axis is at most the axis's extent. -/
theorem card_ones_le (p : s.Idx → BitVec 1) (h : s.Reduces [a] t) (j : t.Idx) :
    (Finset.univ.filter fun k : Fin (s.size a) => p (h.lift j k) = 1#1).card ≤ s.size a := by
  refine (Finset.card_filter_le _ _).trans ?_
  rw [Finset.card_univ, Fintype.card_fin]

/-- The converted maximum of the count and 1 is the maximum of the masks' sum and 1. -/
theorem sitofp_maxsi_reduce (p : s.Idx → BitVec 1) (init : u.Idx → BitVec 32) (h' : s.ReducesTo [a] t)
    (h : s.Reduces [a] t) (hu : 0 < u.numel) (hinit : init (Shape.Idx.first hu) = 0#32) (hn : s.size a < 2 ^ 31)
    (j : t.Idx) :
    FloatOps.sitofp (F := Ideal) .f32
        (IntOp.maxsi (Host.reduce IntOp.addi (fun i => (p i).setWidth 32) init h' hu j) 1#32)
      = max (∑ k : Fin (s.size a), (((p (h.lift j k)).toNat : ℝ) : EReal)) 1 := by
  rw [reduce_addi_bits p init h' h hu hinit j, sum_bit_eq_card (fun k => p (h.lift j k)) Finset.univ]
  exact sitofp_maxsi_ofNat _ (lt_of_le_of_lt (card_ones_le p h j) hn)

/-- The signed test "count > 0" is the ordered test "the masks' sum > 0". -/
theorem cmpi_sgt_reduce (p : s.Idx → BitVec 1) (init : u.Idx → BitVec 32) (h' : s.ReducesTo [a] t)
    (h : s.Reduces [a] t) (hu : 0 < u.numel) (hinit : init (Shape.Idx.first hu) = 0#32) (hn : s.size a < 2 ^ 31)
    (j : t.Idx) :
    IntOp.cmpi .sgt (Host.reduce IntOp.addi (fun i => (p i).setWidth 32) init h' hu j) 0#32
      = Ideal.cmp .ogt (∑ k : Fin (s.size a), (((p (h.lift j k)).toNat : ℝ) : EReal)) 0 := by
  rw [reduce_addi_bits p init h' h hu hinit j, sum_bit_eq_card (fun k => p (h.lift j k)) Finset.univ]
  exact cmpi_sgt_ofNat _ (lt_of_le_of_lt (card_ones_le p h j) hn)

end Reduce

section Total
variable {s t u : Shape} {axes : List (Fin s.rank)}

/-- A reduce by integer addition of zero-extended masks over EVERY axis (into a shape of unit axes, a rank-zero result
    included), from the zero word, is the number of ones in the whole array. -/
theorem reduce_addi_bits_total (p : s.Idx → BitVec 1) (init : u.Idx → BitVec 32) (h' : s.ReducesTo axes t)
    (ht : ∀ b, t.size b = 1) (hu : 0 < u.numel) (hinit : init (Shape.Idx.first hu) = 0#32) (j : t.Idx) :
    Host.reduce IntOp.addi (fun i => (p i).setWidth 32) init h' hu j
      = BitVec.ofNat 32 (Finset.univ.filter fun i : s.Idx => p i = 1#1).card := by
  rw [Host.reduce_eq_fold IntOp.addi _ init h' hu j, hinit,
    Finset.filter_true_of_mem fun i _ => funext fun b => Fin.ext (by
      have := (h'.drop i b).isLt; have := (j b).isLt; have := ht b; omega)]
  exact IndicatorCount.fold_addi_setWidth_eq_card p Finset.univ

/-- The number of ones in an array is at most the number of its entries. -/
theorem card_ones_le_total (p : s.Idx → BitVec 1) :
    (Finset.univ.filter fun i : s.Idx => p i = 1#1).card ≤ Fintype.card s.Idx :=
  (Finset.card_filter_le _ _).trans (le_of_eq Finset.card_univ)

/-- The converted maximum of the whole array's count and 1 is the maximum of the masks' sum and 1. -/
theorem sitofp_maxsi_reduce_total (p : s.Idx → BitVec 1) (init : u.Idx → BitVec 32) (h' : s.ReducesTo axes t)
    (ht : ∀ b, t.size b = 1) (hu : 0 < u.numel) (hinit : init (Shape.Idx.first hu) = 0#32)
    (hn : Fintype.card s.Idx < 2 ^ 31) (j : t.Idx) :
    FloatOps.sitofp (F := Ideal) .f32
        (IntOp.maxsi (Host.reduce IntOp.addi (fun i => (p i).setWidth 32) init h' hu j) 1#32)
      = max (∑ i : s.Idx, (((p i).toNat : ℝ) : EReal)) 1 := by
  rw [reduce_addi_bits_total p init h' ht hu hinit j, sum_bit_eq_card p Finset.univ]
  exact sitofp_maxsi_ofNat _ (lt_of_le_of_lt (card_ones_le_total p) hn)

end Total

/-! A rank-1 index set is its coordinate's range: sums over it and its number of elements. -/
section Rank1
open Idealize.ShloMosaic.ValueIdx

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-1 index set of extent n has n elements. -/
theorem card_idx1 {n : Nat} : Fintype.card (⟨1, ![n]⟩ : Shape).Idx = n :=
  (Fintype.card_congr idxEquiv1).trans (Fintype.card_fin n)

end Rank1

end Cert.LibIntCount

end
-- ==== Proof.RefRows.lean ====
/-
  The reference's first pass, patch by patch: each per-patch stage of the reference, read at patch n, is the
  specification's quantity of the patch's nine pixels and nine edge values, up to the patch's class.

  The reshape [N,3,3] -> [N,9] reads entry (n, k) at (n, k / 3, k % 3); the two masks are the specification's dis and
  acc; the integer counts of the masks (nine words, each 0 or 1) are the finite sums of the masks read as 0 and 1;
  the float sums start from the zero word, which is 0.
-/
import proofs.«177650_j67585605370461_2_alg».proof.Proof.RefRead
import proofs.«177650_j67585605370461_2_alg».proof.Proof.Spec
import proofs.«177650_j67585605370461_2_alg».proof.Proof.LibIntCount
import Idealize.ShloMosaic.Lib.IdealHost

noncomputable section

namespace Cert.RefSpec

open Cert.ReferenceIdeal Cert.ReferenceIdeal.Gen Cert.ReferenceIdeal.Read Idealize.ShloMosaic Idealize.ShloMosaic.ValueIdx
open Cert.Spec

/-- The reduce over the nine entries of a row drops axis 1. -/
theorem reduces_rows : S4194304x9.Reduces [1] S4194304 := by decide

/-- Entry (n, k) of the reshaped array is entry (n, k / 3, k % 3). -/
theorem idx_rows (n : Fin 4194304) (k : Fin 9) :
    idx_main_v0 (ix2 n k) = ix3 n ⟨k.val / 3, by omega⟩ ⟨k.val % 3, by omega⟩ := by
  funext a
  refine Fin.ext ?_
  match a with
  | ⟨0, _⟩ => show (n.val * 9 + k.val) / 9 = n.val; omega
  | ⟨1, _⟩ => show (n.val * 9 + k.val) / 3 % 3 = k.val / 3; omega
  | ⟨2, _⟩ => show (n.val * 9 + k.val) % 3 = k.val % 3; omega

/-- The index a row's sum reads at k is (n, k). -/
theorem idx_sum_rows (n : Fin 4194304) (k : Fin 9) : idx_main_v14 (ix1 n) k = ix2 n k := by
  funext a
  refine Fin.ext ?_
  match a with
  | ⟨0, _⟩ => rfl
  | ⟨1, _⟩ => rfl

/-- Row n with k inserted on the dropped axis is (n, k). -/
theorem lift_rows (n : Fin 4194304) (k : Fin 9) : reduces_rows.lift (ix1 n) k = ix2 n k := by
  funext a
  refine Fin.ext ?_
  match a with
  | ⟨0, _⟩ => rfl
  | ⟨1, _⟩ => rfl

/-- A mask of the [N,9] array at row n with k inserted, read as 0 or 1, is the mask at (n, k) read as 0 or 1. -/
theorem bit_at (p : S4194304x9.Idx → BitVec 1) (b : BitVec 1) (n : Fin 4194304) (k : Fin 9) (h : p (ix2 n k) = b) :
    (((p (reduces_rows.lift (ix1 n) k)).toNat : ℝ) : EReal) = ofBit b :=
  (congrArg (fun j => (((p j).toNat : ℝ) : EReal)) (lift_rows n k)).trans (congrArg ofBit h)

section Rows
variable (x0 x1 : FVec Ideal S4194304x3x3 .f32) (n : Fin 4194304)

theorem v0_at (k : Fin 9) : val_main_v0 (F := Ideal) x0 (ix2 n k) = patches x0 n k := by
  rw [val_main_v0_apply, idx_rows]; rfl

theorem v1_at (k : Fin 9) : val_main_v1 (F := Ideal) x1 (ix2 n k) = patches x1 n k := by
  rw [val_main_v1_apply]
  exact congrArg x1 (idx_rows n k)

/-- The first mask is "the edge value exceeds 1/2". -/
theorem v3_at (k : Fin 9) : val_main_v3 (F := Ideal) x1 (ix2 n k) = dis (patches x1 n k) := by
  rw [val_main_v3_apply, v1_at, val_main_v2_apply, val_main_cst_apply]; rfl

/-- The second mask is "the edge value is not zero and does not exceed 1/2". -/
theorem v7_at (k : Fin 9) : val_main_v7 (F := Ideal) x1 (ix2 n k) = acc (patches x1 n k) := by
  rw [val_main_v7_apply, val_main_v5_apply, val_main_v6_apply, v3_at, v1_at, val_main_v4_apply, val_main_cst_0_apply]; rfl

/-- The converted maximum of the first count and 1. -/
theorem v17_at : val_main_v17 (F := Ideal) x1 (ix1 n) = max (cntDis (patches x1 n)) f1 := by
  rw [val_main_v17_apply, val_main_v16_apply, val_main_v15_apply, val_main_c_3_apply]
  unfold val_main_v9
  refine (LibIntCount.sitofp_maxsi_reduce (val_main_v3 (F := Ideal) x1) (val_main_c (F := Ideal))
    reducesTo_S4194304x9_S4194304_d1 reduces_rows h_S_ rfl (by decide) (ix1 n)).trans ?_
  exact congrArg₂ max (Finset.sum_congr rfl fun (k : Fin 9) _ => bit_at _ _ n k (v3_at x1 n k)) Ideal.ofBits_one_f32.symm

/-- The converted maximum of the second count and 1. -/
theorem v24_at : val_main_v24 (F := Ideal) x1 (ix1 n) = max (cntAcc (patches x1 n)) f1 := by
  rw [val_main_v24_apply, val_main_v23_apply, val_main_v22_apply, val_main_c_5_apply]
  unfold val_main_v11
  refine (LibIntCount.sitofp_maxsi_reduce (val_main_v7 (F := Ideal) x1) (val_main_c_1 (F := Ideal))
    reducesTo_S4194304x9_S4194304_d1 reduces_rows h_S_ rfl (by decide) (ix1 n)).trans ?_
  exact congrArg₂ max (Finset.sum_congr rfl fun (k : Fin 9) _ => bit_at _ _ n k (v7_at x1 n k)) Ideal.ofBits_one_f32.symm

/-- "The first count exceeds 0". -/
theorem v27_at : val_main_v27 (F := Ideal) x1 (ix1 n) = Ideal.cmp .ogt (cntDis (patches x1 n)) f0 := by
  rw [val_main_v27_apply, val_main_v26_apply, val_main_c_6_apply]
  unfold val_main_v9
  refine (LibIntCount.cmpi_sgt_reduce (val_main_v3 (F := Ideal) x1) (val_main_c (F := Ideal))
    reducesTo_S4194304x9_S4194304_d1 reduces_rows h_S_ rfl (by decide) (ix1 n)).trans ?_
  exact congrArg₂ (Ideal.cmp .ogt) (Finset.sum_congr rfl fun (k : Fin 9) _ => bit_at _ _ n k (v3_at x1 n k))
    Ideal.ofBits_zero_f32.symm

/-- "The second count exceeds 0". -/
theorem v29_at : val_main_v29 (F := Ideal) x1 (ix1 n) = Ideal.cmp .ogt (cntAcc (patches x1 n)) f0 := by
  rw [val_main_v29_apply, val_main_v28_apply, val_main_c_7_apply]
  unfold val_main_v11
  refine (LibIntCount.cmpi_sgt_reduce (val_main_v7 (F := Ideal) x1) (val_main_c_1 (F := Ideal))
    reducesTo_S4194304x9_S4194304_d1 reduces_rows h_S_ rfl (by decide) (ix1 n)).trans ?_
  exact congrArg₂ (Ideal.cmp .ogt) (Finset.sum_congr rfl fun (k : Fin 9) _ => bit_at _ _ n k (v7_at x1 n k))
    Ideal.ofBits_zero_f32.symm

/-- The sum of the pixels under the first mask. -/
theorem v14_at : val_main_v14 (F := Ideal) x0 x1 (ix1 n) = sumDis (patches x0 n) (patches x1 n) := by
  rw [val_main_v14_apply, val_main_cst_2_apply]
  refine (congrArg (· + _) Ideal.ofBits_zero_f32).trans ((zero_add _).trans ?_)
  refine Finset.sum_congr rfl fun k _ => ?_
  rw [idx_sum_rows, val_main_v13_apply, v0_at, val_main_v12_apply, v3_at]; rfl

/-- The sum of the pixels under the second mask. -/
theorem v21_at : val_main_v21 (F := Ideal) x0 x1 (ix1 n) = sumAcc (patches x0 n) (patches x1 n) := by
  rw [val_main_v21_apply, val_main_cst_4_apply]
  refine (congrArg (· + _) Ideal.ofBits_zero_f32).trans ((zero_add _).trans ?_)
  refine Finset.sum_congr rfl fun k _ => ?_
  rw [show idx_main_v21 (ix1 n) k = ix2 n k from idx_sum_rows n k, val_main_v20_apply, v0_at, val_main_v19_apply, v7_at]; rfl

/-- The class of patch n. -/
theorem v33_at : val_main_v33 (F := Ideal) x0 x1 (ix1 n) = cls (patches x0 n) (patches x1 n) := by
  rw [val_main_v33_apply, val_main_v30_apply, v27_at, v29_at, val_main_v32_apply, val_main_v31_apply,
    val_main_v18_apply, val_main_v25_apply, v14_at, v21_at, v17_at, v24_at,
    val_main_call0_v0_apply, val_main_cst_8_apply, val_main_call0_v1_apply, val_main_cst_9_apply,
    val_main_call1_v0_apply, val_main_cst_10_apply]
  rfl

end Rows

end Cert.RefSpec

end
-- ==== Proof.RefGlobal.lean ====
/-
  The reference's global part and second pass: the two masked means of the centre pixel over all patches, and each
  patch's corrected class.

  The slice image[:, 1, 1], reshaped to a vector, reads entry (n, 1, 1), pixel 4 of patch n. The float sums over the whole
  vector start from the zero word, which is 0; the integer counts over the whole vector (4194304 words, each 0 or 1,
  fewer than 2^31) are the finite sums of the masks read as 0 and 1.
-/
import proofs.«177650_j67585605370461_2_alg».proof.Proof.RefRows

noncomputable section

namespace Cert.RefSpec

open Cert.ReferenceIdeal Cert.ReferenceIdeal.Gen Cert.ReferenceIdeal.Read Idealize.ShloMosaic Idealize.ShloMosaic.ValueIdx
open Cert.Spec

section Global
variable (x0 x1 : FVec Ideal S4194304x3x3 .f32)

/-- The centre pixel of patch n. -/
theorem v35_at (n : Fin 4194304) : val_main_v35 (F := Ideal) x0 (ix1 n) = patches x0 n 4 := by
  rw [val_main_v35_apply, val_main_v34_apply]
  refine congrArg x0 (funext fun a => Fin.ext ?_)
  match a with
  | ⟨0, _⟩ => show n.val / 1 = n.val; omega
  | ⟨1, _⟩ => show 1 + 0 = ((4 : Fin 9) : ℕ) / 3; decide
  | ⟨2, _⟩ => show 1 + 0 = ((4 : Fin 9) : ℕ) % 3; decide

/-- "Patch n is of class 0". -/
theorem v37_at (n : Fin 4194304) : val_main_v37 (F := Ideal) x0 x1 (ix1 n) = isB (patches x0) (patches x1) n := by
  rw [val_main_v37_apply, v33_at, val_main_v36_apply, val_main_cst_11_apply]; rfl

/-- "Patch n is of class 1". -/
theorem v39_at (n : Fin 4194304) : val_main_v39 (F := Ideal) x0 x1 (ix1 n) = isW (patches x0) (patches x1) n := by
  rw [val_main_v39_apply, v33_at, val_main_v38_apply, val_main_cst_12_apply]; rfl

/-- "Patch n is of class 2". -/
theorem v57_at (n : Fin 4194304) :
    val_main_v57 (F := Ideal) x0 x1 (ix1 n) = Ideal.cmp .oeq (cls (patches x0 n) (patches x1 n)) f2 := by
  rw [val_main_v57_apply, v33_at, val_main_v56_apply, val_main_cst_19_apply]; rfl

/-- The vector has fewer than 2^31 entries. -/
theorem card_lt : Fintype.card S4194304.Idx < 2 ^ 31 :=
  lt_of_eq_of_lt LibIntCount.card_idx1 (by norm_num)

/-- The sum of the centre pixels over the patches of class 0. -/
theorem v42_at (i : S_.Idx) : val_main_v42 (F := Ideal) x0 x1 i = sumB (patches x0) (patches x1) := by
  rw [val_main_v42_apply, val_main_cst_13_apply]
  refine (congrArg (· + _) Ideal.ofBits_zero_f32).trans ((zero_add _).trans ?_)
  refine (LibIntCount.sum_idx1 _).trans (Finset.sum_congr rfl fun n _ => ?_)
  rw [val_main_v41_apply, v35_at, val_main_v40_apply, v37_at]; rfl

/-- The sum of the centre pixels over the patches of class 1. -/
theorem v50_at (i : S_.Idx) : val_main_v50 (F := Ideal) x0 x1 i = sumW (patches x0) (patches x1) := by
  rw [val_main_v50_apply, val_main_cst_16_apply]
  refine (congrArg (· + _) Ideal.ofBits_zero_f32).trans ((zero_add _).trans ?_)
  refine (LibIntCount.sum_idx1 _).trans (Finset.sum_congr rfl fun n _ => ?_)
  rw [val_main_v49_apply, v35_at, val_main_v48_apply, v39_at]; rfl

/-- The converted maximum of the number of patches of class 0 and 1. -/
theorem v46_at (i : S_.Idx) : val_main_v46 (F := Ideal) x0 x1 i = max (cntB (patches x0) (patches x1)) f1 := by
  rw [val_main_v46_apply, val_main_v45_apply, val_main_c_15_apply]
  unfold val_main_v44
  refine (LibIntCount.sitofp_maxsi_reduce_total (val_main_v37 (F := Ideal) x0 x1) (val_main_c_14 (F := Ideal))
    reducesTo_S4194304_S_d0 (fun b => b.elim0) h_S_ rfl card_lt i).trans ?_
  refine congrArg₂ max ((LibIntCount.sum_idx1 _).trans (Finset.sum_congr rfl fun n _ => ?_)) Ideal.ofBits_one_f32.symm
  rw [v37_at]; rfl

/-- The converted maximum of the number of patches of class 1 and 1. -/
theorem v54_at (i : S_.Idx) : val_main_v54 (F := Ideal) x0 x1 i = max (cntW (patches x0) (patches x1)) f1 := by
  rw [val_main_v54_apply, val_main_v53_apply, val_main_c_18_apply]
  unfold val_main_v52
  refine (LibIntCount.sitofp_maxsi_reduce_total (val_main_v39 (F := Ideal) x0 x1) (val_main_c_17 (F := Ideal))
    reducesTo_S4194304_S_d0 (fun b => b.elim0) h_S_ rfl card_lt i).trans ?_
  refine congrArg₂ max ((LibIntCount.sum_idx1 _).trans (Finset.sum_congr rfl fun n _ => ?_)) Ideal.ofBits_one_f32.symm
  rw [v39_at]; rfl

/-- The mean centre pixel over the patches of class 0. -/
theorem v47_at (i : S_.Idx) : val_main_v47 (F := Ideal) x0 x1 i = avgB (patches x0) (patches x1) := by
  rw [val_main_v47_apply, v42_at, v46_at]; rfl

/-- The mean centre pixel over the patches of class 1. -/
theorem v55_at (i : S_.Idx) : val_main_v55 (F := Ideal) x0 x1 i = avgW (patches x0) (patches x1) := by
  rw [val_main_v55_apply, v50_at, v54_at]; rfl

/-- The corrected class of patch n. -/
theorem v66_at (n : Fin 4194304) : val_main_v66 (F := Ideal) x0 x1 (ix1 n) = corr (patches x0) (patches x1) n := by
  rw [val_main_v66_apply, v57_at, val_main_v65_apply, val_main_v64_apply, val_main_v60_apply, val_main_v63_apply,
    val_main_v59_apply, val_main_v62_apply, v35_at, val_main_v58_apply, val_main_v61_apply, v47_at, v55_at,
    val_main_call2_v0_apply, val_main_cst_20_apply, val_main_call2_v1_apply, val_main_cst_21_apply, v33_at]
  rfl

/-- The reference's last stage is the specification. -/
theorem v67_eq : val_main_v67 (F := Ideal) x0 x1 = G x0 x1 := by
  funext i
  rw [val_main_v67_apply]
  have e : idx_main_v67 i = ix1 ⟨(i 0).val * 2048 + (i 1).val, by
      have h0 := idx2_lt0 i; have h1 := idx2_lt1 i; omega⟩ := by
    funext a
    refine Fin.ext ?_
    match a with
    | ⟨0, _⟩ => rfl
  rw [e, v66_at]; rfl

end Global

end Cert.RefSpec

end
-- ==== Proof.RefFold.lean ====
/-
  The reference's run. After the whole line of 97 operations, from any launch contents, the result buffer holds the
  specification's function of the two argument arrays: stretch by stretch the buffers read later hold the stages of
  the reference (the masks; the counts and means; the class vector; the two global means; the corrected classes), and
  the last stage is the specification. No operation writes an argument.
-/
import proofs.«177650_j67585605370461_2_alg».proof.Proof.RefFoldA
import proofs.«177650_j67585605370461_2_alg».proof.Proof.RefFoldB
import proofs.«177650_j67585605370461_2_alg».proof.Proof.RefFoldC
import proofs.«177650_j67585605370461_2_alg».proof.Proof.RefGlobal

noncomputable section

namespace Cert.RefFold

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

/-! ## The line -/

/-- After the whole line the result buffer holds the reference's last stage of the two argument arrays. -/
theorem after_result (V : Valuation τ sig (Elt Ideal)) :
    after (ops (F := Ideal)) V (Proc.devRef .tc main_v67)
      = val_main_v67 (F := Ideal) (V (Proc.devRef .tc main_arg0)) (V (Proc.devRef .tc main_arg1)) := by
  rw [after_ops]
  have a1 := stretchA1 V _ _ rfl rfl
  have a2 := stretchA2 (after opsA1 V) _ _ a1.1 a1.2.1 a1.2.2.1 a1.2.2.2
  have a3 := stretchA3 (after opsA2 (after opsA1 V)) _ _ a2.1 a2.2.1 a2.2.2.1 a2.2.2.2.1 a2.2.2.2.2
  have b := stretchB (after opsA3 (after opsA2 (after opsA1 V))) _ _ a3.1 a3.2
  have c1 := stretchC1 (after opsB (after opsA3 (after opsA2 (after opsA1 V)))) _ _ b.1 b.2.1 b.2.2.1 b.2.2.2
  have c2 := stretchC2 (after opsC1 (after opsB (after opsA3 (after opsA2 (after opsA1 V))))) _ _ c1.1 c1.2.1 c1.2.2
  exact stretchC3 (after opsC2 (after opsC1 (after opsB (after opsA3 (after opsA2 (after opsA1 V)))))) _ _ c2

/-! No operation of the line writes an argument. -/

set_option maxRecDepth 8192 in
theorem after_arg0 (V : Valuation τ sig (Elt Ideal)) :
    after (ops (F := Ideal)) V (Proc.devRef .tc main_arg0) = V (Proc.devRef .tc main_arg0) := by
  simp only [ops]; after_results_simp
set_option maxRecDepth 8192 in
theorem after_arg1 (V : Valuation τ sig (Elt Ideal)) :
    after (ops (F := Ideal)) V (Proc.devRef .tc main_arg1) = V (Proc.devRef .tc main_arg1) := by
  simp only [ops]; after_results_simp
set_option maxRecDepth 8192 in
theorem after_arg2 (V : Valuation τ sig (Elt Ideal)) :
    after (ops (F := Ideal)) V (Proc.devRef .tc main_arg2) = V (Proc.devRef .tc main_arg2) := by
  simp only [ops]; after_results_simp

/-! ## The run -/

/-- On every device, from any memory with zero counters: every weakly fair execution of the reference terminates with
    the result buffer at the specification's function of the two argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v67).trans ((after_result _).trans (Cert.RefSpec.v67_eq _ _)),
       (h c main_arg0).trans (after_arg0 _), (h c main_arg1).trans (after_arg1 _), (h c main_arg2).trans (after_arg2 _)⟩)
    (run_seq scopedRefs_eq scopedSems_eq defs main (fun _ => ops) main_eq (fun _ => ops_sub) m ρ)

end Cert.RefFold

end
-- ==== Proof.lean ====
/-
  Two passes over 4194304 patches of 3x3 pixels against their plain array formulation, on the extended reals.

  The first pass classifies every patch from its nine pixels and nine edge values (class 0, 1 or 2), writes the classes and the
  centre pixels, and accumulates — tile by tile, in four one-entry buffers it keeps between grid points — the sum and the number
  of the centre pixels of the patches of class 0 and of class 1. The host turns the four totals into two means. The second pass
  replaces class 2 by the class whose mean is nearer the patch's centre pixel. The reference computes the same thing with
  whole-array operations, counting in integers.

  Both programs' results are ONE function of the two input arrays, `Cert.Spec.G`, entry by entry:
  * the reference: its operations read one at a time; an integer count of one-bit masks, converted, is the sum of the masks as
    extended reals (there are fewer than 2^31 of them); its run is proved in stages over the list of its operations;
  * the kernel program: each pass's output array is, block by block, the body's arithmetic of the input blocks; each accumulator
    after grid point n is the sum of the tiles' partial sums up to n (zeroed at the first point, carried by the region's invariant
    afterwards), so the four totals are sums over the 2048 tiles of sums over the 2048 patches of a tile — the sum over all
    patches regrouped, which needs only that addition of extended reals is commutative and associative; the host operations
    between and after the passes are read at an index.
  No finiteness of the inputs is used. The frames: the program is five items — host stretch, first pass, host stretch, second
  pass, host stretch — whose buffer contents chain from the launch memory; no item writes an argument array. The same text
  serves the word-level program and its idealization (it never looks inside a float). The idealization rewrote nothing, so the
  fourth claim is `True`.
-/
import proofs.«177650_j67585605370461_2_alg».proof.Defs
import proofs.«177650_j67585605370461_2_alg».proof.Proof.Gen.Kernel
import proofs.«177650_j67585605370461_2_alg».proof.Proof.Gen.KernelIdeal
import proofs.«177650_j67585605370461_2_alg».proof.Proof.Gen.ReferenceIdeal
import proofs.«177650_j67585605370461_2_alg».proof.Proof.Gen.Pre_finite_inputs
import proofs.«177650_j67585605370461_2_alg».proof.Proof.FrameRun
import proofs.«177650_j67585605370461_2_alg».proof.Proof.FrameRunBits
import proofs.«177650_j67585605370461_2_alg».proof.Proof.Bridge
import proofs.«177650_j67585605370461_2_alg».proof.Proof.RefFold
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Run.frame m ρ

/-- So does its idealization. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.RefFold.run m ρ)

/-- The idealization rewrote no operation. -/
theorem preserves : Cert.preserves_Kernel_KernelIdeal := trivial

/-- From memories that agree on the arguments both programs end with the specification's array of those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Bridge.result_value m ρ c), (h c).2⟩)
      (Cert.KernelIdeal.Run.run_result (F := Ideal) m ρ)
  · refine (θ_run Cert.ReferenceIdeal.defs _ _).mono (fun _ h c => ⟨?_, (h c).2⟩) (Cert.RefFold.run m' ρ')
    rw [(h c).1, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
